-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S2x3000000 : Shape := ⟨2, ![2, 3000000]⟩
abbrev S1000000 : Shape := ⟨1, ![1000000]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S1000000x1 .f32) (main_arg1 : IVec S2x3000000 32) (main_arg2 : IVec S2x3000000 32) (main_arg3 : FVec F S1000000 .f32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S1000000 .f32 := Host.absf main_arg3
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  main_v8
-- ==== Kernel.lean ====
abbrev S1000000x1 : Shape := ⟨2, ![1000000, 1]⟩
abbrev S2x3000000 : Shape := ⟨2, ![2, 3000000]⟩
abbrev S1000000 : Shape := ⟨1, ![1000000]⟩
abbrev S_ : Shape := ⟨0, ![]⟩
abbrev S1048576 : Shape := ⟨1, ![1048576]⟩
abbrev S8192x128 : Shape := ⟨2, ![8192, 128]⟩
abbrev S1024x128 : Shape := ⟨2, ![1024, 128]⟩
abbrev S1x3000000 : Shape := ⟨2, ![1, 3000000]⟩
abbrev S3000000 : Shape := ⟨1, ![3000000]⟩
abbrev S1000000x2 : Shape := ⟨2, ![1000000, 2]⟩
abbrev S3000000x1 : Shape := ⟨2, ![3000000, 1]⟩
abbrev S3000000x2 : Shape := ⟨2, ![3000000, 2]⟩
abbrev S1x1 : Shape := ⟨2, ![1, 1]⟩
abbrev S1024 : Shape := ⟨1, ![1024]⟩
abbrev S1024x1 : Shape := ⟨2, ![1024, 1]⟩
abbrev S1 : Shape := ⟨1, ![1]⟩

abbrev nBuf : Space → Nat
  | .hbm => 80
  | .vmem => 18
  | .smem => 0
  | _ => 0

abbrev bufTy : (tb : Table) → Fin (tcTables nBuf tb) → BufTy
  | .hbm, ⟨0, _⟩ => ⟨S1000000x1, .f32⟩
  | .hbm, ⟨1, _⟩ => ⟨S2x3000000, .i32⟩
  | .hbm, ⟨2, _⟩ => ⟨S2x3000000, .i32⟩
  | .hbm, ⟨3, _⟩ => ⟨S1000000, .f32⟩
  | .hbm, ⟨4, _⟩ => ⟨S1000000, .f32⟩
  | .hbm, ⟨5, _⟩ => ⟨S_, .i32⟩
  | .hbm, ⟨6, _⟩ => ⟨S_, .f32⟩
  | .hbm, ⟨7, _⟩ => ⟨S1048576, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S1048576, .f32⟩
  | .hbm, ⟨14, _⟩ => ⟨S1000000, .f32⟩
  | .hbm, ⟨15, _⟩ => ⟨S1048576, .f32⟩
  | .hbm, ⟨16, _⟩ => ⟨S1000000, .f32⟩
  | .hbm, ⟨17, _⟩ => ⟨S1048576, .f32⟩
  | .hbm, ⟨18, _⟩ => ⟨S1000000, .f32⟩
  | .hbm, ⟨19, _⟩ => ⟨S1048576, .f32⟩
  | .hbm, ⟨20, _⟩ => ⟨S1000000, .f32⟩
  | .hbm, ⟨21, _⟩ => ⟨S1x3000000, .i32⟩
  | .hbm, ⟨22, _⟩ => ⟨S3000000, .i32⟩
  | .hbm, ⟨23, _⟩ => ⟨S1x3000000, .i32⟩
  | .hbm, ⟨24, _⟩ => ⟨S3000000, .i32⟩
  | .hbm, ⟨25, _⟩ => ⟨S1x3000000, .i32⟩
  | .hbm, ⟨26, _⟩ => ⟨S3000000, .i32⟩
  | .hbm, ⟨27, _⟩ => ⟨S1x3000000, .i32⟩
  | .hbm, ⟨28, _⟩ => ⟨S3000000, .i32⟩
  | .hbm, ⟨29, _⟩ => ⟨S1000000x1, .f32⟩
  | .hbm, ⟨30, _⟩ => ⟨S1000000x1, .f32⟩
  | .hbm, ⟨31, _⟩ => ⟨S1000000x2, .f32⟩
  | .hbm, ⟨32, _⟩ => ⟨S1000000x1, .f32⟩
  | .hbm, ⟨33, _⟩ => ⟨S1000000x1, .f32⟩
  | .hbm, ⟨34, _⟩ => ⟨S1000000x2, .f32⟩
  | .hbm, ⟨35, _⟩ => ⟨S_, .i32⟩
  | .hbm, ⟨36, _⟩ => ⟨S3000000, .i32⟩
  | .hbm, ⟨37, _⟩ => ⟨S3000000, .i1⟩
  | .hbm, ⟨38, _⟩ => ⟨S_, .i32⟩
  | .hbm, ⟨39, _⟩ => ⟨S3000000, .i32⟩
  | .hbm, ⟨40, _⟩ => ⟨S3000000, .i32⟩
  | .hbm, ⟨41, _⟩ => ⟨S3000000, .i32⟩
  | .hbm, ⟨42, _⟩ => ⟨S3000000x1, .i32⟩
  | .hbm, ⟨43, _⟩ => ⟨S3000000x2, .f32⟩
  | .hbm, ⟨44, _⟩ => ⟨S_, .i32⟩
  | .hbm, ⟨45, _⟩ => ⟨S3000000, .i32⟩
  | .hbm, ⟨46, _⟩ => ⟨S3000000, .i1⟩
  | .hbm, ⟨47, _⟩ => ⟨S_, .i32⟩
  | .hbm, ⟨48, _⟩ => ⟨S3000000, .i32⟩
  | .hbm, ⟨49, _⟩ => ⟨S3000000, .i32⟩
  | .hbm, ⟨50, _⟩ => ⟨S3000000, .i32⟩
  | .hbm, ⟨51, _⟩ => ⟨S3000000x1, .i32⟩
  | .hbm, ⟨52, _⟩ => ⟨S3000000x2, .f32⟩
  | .hbm, ⟨53, _⟩ => ⟨S_, .f32⟩
  | .hbm, ⟨54, _⟩ => ⟨S1000000x2, .f32⟩
  | .hbm, ⟨55, _⟩ => ⟨S3000000x1, .i32⟩
  | .hbm, ⟨56, _⟩ => ⟨S1000000x2, .f32⟩
  | .hbm, ⟨57, _⟩ => ⟨S_, .f32⟩
  | .hbm, ⟨58, _⟩ => ⟨S1000000x2, .f32⟩
  | .hbm, ⟨59, _⟩ => ⟨S3000000x1, .i32⟩
  | .hbm, ⟨60, _⟩ => ⟨S1000000x2, .f32⟩
  | .hbm, ⟨61, _⟩ => ⟨S1000000x2, .f32⟩
  | .hbm, ⟨62, _⟩ => ⟨S1000000x1, .f32⟩
  | .hbm, ⟨63, _⟩ => ⟨S1000000, .f32⟩
  | .hbm, ⟨64, _⟩ => ⟨S1000000x1, .f32⟩
  | .hbm, ⟨65, _⟩ => ⟨S1000000, .f32⟩
  | .hbm, ⟨66, _⟩ => ⟨S_, .i32⟩
  | .hbm, ⟨67, _⟩ => ⟨S_, .f32⟩
  | .hbm, ⟨68, _⟩ => ⟨S1048576, .f32⟩
  | .hbm, ⟨69, _⟩ => ⟨S_, .i32⟩
  | .hbm, ⟨70, _⟩ => ⟨S_, .f32⟩
  | .hbm, ⟨71, _⟩ => ⟨S1048576, .f32⟩
  | .hbm, ⟨72, _⟩ => ⟨S_, .i32⟩
  | .hbm, ⟨73, _⟩ => ⟨S_, .f32⟩
  | .hbm, ⟨74, _⟩ => ⟨S1048576, .f32⟩
  | .hbm, ⟨75, _⟩ => ⟨S8192x128, .f32⟩
  | .hbm, ⟨76, _⟩ => ⟨S8192x128, .f32⟩
  | .hbm, ⟨77, _⟩ => ⟨S8192x128, .f32⟩
  | .hbm, ⟨78, _⟩ => ⟨S1x1, .f32⟩
  | .hbm, ⟨79, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1x1, .f32⟩
  | .local _ .vmem, ⟨17, _⟩ => ⟨S1x1, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_0 : Ref sig .tc := ⟨.hbm, 35, rfl⟩
abbrev main_v26 : Ref sig .tc := ⟨.hbm, 36, rfl⟩
abbrev main_v27 : Ref sig .tc := ⟨.hbm, 37, rfl⟩
abbrev main_c_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_2 : Ref sig .tc := ⟨.hbm, 44, rfl⟩
abbrev main_v33 : Ref sig .tc := ⟨.hbm, 45, rfl⟩
abbrev main_v34 : Ref sig .tc := ⟨.hbm, 46, rfl⟩
abbrev main_c_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_5 : Ref sig .tc := ⟨.hbm, 66, rfl⟩
abbrev main_call1_v0 : Ref sig .tc := ⟨.hbm, 67, rfl⟩
abbrev main_v51 : Ref sig .tc := ⟨.hbm, 68, rfl⟩
abbrev main_c_6 : Ref sig .tc := ⟨.hbm, 69, rfl⟩
abbrev main_call2_v0 : Ref sig .tc := ⟨.hbm, 70, rfl⟩
abbrev main_v52 : Ref sig .tc := ⟨.hbm, 71, rfl⟩
abbrev main_c_7 : Ref sig .tc := ⟨.hbm, 72, rfl⟩
abbrev main_call3_v0 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v46 : BitVec 1 := Scalar.cmpi .eq arg0 c7_i32
  let v47 : BitVec 32 := Scalar.extui v46
  let c0_i32_18 : BitVec 32 := 0#32
  let v48 : BitVec 1 := Scalar.cmpi .ne v47 c0_i32_18
  v48

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  shapeCasts_S1000000x1_S1000000 : S1000000x1.ShapeCasts S1000000
  pads_S1000000_S1048576_0485760 : S1000000.Pads (![0] : Fin 1 → Nat) ![48576] ![0] S1048576
  h_S_ : 0 < S_.numel
  shapeCasts_S1048576_S8192x128 : S1048576.ShapeCasts S8192x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S8192x128_S1048576 : S8192x128.ShapeCasts S1048576
  slices_S1048576_S1000000_0 : S1048576.Slices ![0] S1000000
  slices_S2x3000000_S1x3000000_1_0 : S2x3000000.Slices ![1, 0] S1x3000000
  shapeCasts_S1x3000000_S3000000 : S1x3000000.ShapeCasts S3000000
  slices_S2x3000000_S1x3000000_0_0 : S2x3000000.Slices ![0, 0] S1x3000000
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  bcast_S_S3000000 : S_.BroadcastsInDim S3000000 (![] : Fin 0 → Fin S3000000.rank)
  bcast_S3000000_S3000000x1_0 : S3000000.BroadcastsInDim S3000000x1 (![0] : Fin 1 → Fin S3000000x1.rank)
  bcast_S_S1000000x2 : S_.BroadcastsInDim S1000000x2 (![] : Fin 0 → Fin S1000000x2.rank)
  slices_S1000000x2_S1000000x1_0_0 : S1000000x2.Slices ![0, 0] S1000000x1
  slices_S1000000x2_S1000000x1_0_1 : S1000000x2.Slices ![0, 1] S1000000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  iota_S1024x128_d0_w32 : S1024x128.Iotas .tc 32 [0]
  iota_S1024x128_d1_w32 : S1024x128.Iotas .tc 32 [1]
  reduces_S1024x128_S1024 : S1024x128.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  gather_S1000000x2_S3000000x1_S3000000x2_1_0_n_n_0_1_12_wf : GatherDims.WF S1000000x2 S3000000x1 S3000000x2 [1] [0] [] [0] [] 1 ![1, 2]
  scatter_S1000000x2_S3000000x1_S3000000x2_1_0_0_1_wf : ScatterDims.WF S1000000x2 S3000000x1 S3000000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def gather_S1000000x2_S3000000x1_S3000000x2_1_0_n_n_0_1_12 : GatherDims S1000000x2 S3000000x1 S3000000x2 where
  offsetDims := [1]
  collapsedSliceDims := [0]
  operandBatchingDims := []
  startIndicesBatchingDims := []
  startIndexMap := [0]
  indexVectorDim := 1
  sliceSizes := ![1, 2]
  wf := gather_S1000000x2_S3000000x1_S3000000x2_1_0_n_n_0_1_12_wf
def scatter_S1000000x2_S3000000x1_S3000000x2_1_0_0_1 : ScatterDims S1000000x2 S3000000x1 S3000000x2 where
  updateWindowDims := [1]
  insertedWindowDims := [0]
  scatterDimsToOperandDims := [0]
  indexVectorDim := 1
  wf := scatter_S1000000x2_S3000000x1_S3000000x2_1_0_0_1_wf

abbrev win0_0 : Pipeline.Window sig grid0 :=
  Pipeline.Window.ofSpec (Memref.whole main_v2) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3_0) S1024x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_1) S1024x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_2) S1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_3) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v54) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v57) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S1000000x1 : Shape := ⟨2, ![1000000, 1]⟩
abbrev S2x3000000 : Shape := ⟨2, ![2, 3000000]⟩
abbrev S1000000 : Shape := ⟨1, ![1000000]⟩
abbrev S_ : Shape := ⟨0, ![]⟩
abbrev S1x3000000 : Shape := ⟨2, ![1, 3000000]⟩
abbrev S3000000 : Shape := ⟨1, ![3000000]⟩
abbrev S3000000x1 : Shape := ⟨2, ![3000000, 1]⟩
abbrev S6000000 : Shape := ⟨1, ![6000000]⟩
abbrev S6000000x1 : Shape := ⟨2, ![6000000, 1]⟩

abbrev nBuf : Space → Nat
  | .hbm => 97
  | .vmem => 0
  | .smem => 0
  | _ => 0

abbrev bufTy : (tb : Table) → Fin (tcTables nBuf tb) → BufTy
  | .hbm, ⟨0, _⟩ => ⟨S1000000x1, .f32⟩
  | .hbm, ⟨1, _⟩ => ⟨S2x3000000, .i32⟩
  | .hbm, ⟨2, _⟩ => ⟨S2x3000000, .i32⟩
  | .hbm, ⟨3, _⟩ => ⟨S1000000, .f32⟩
  | .hbm, ⟨4, _⟩ => ⟨S1000000, .f32⟩
  | .hbm, ⟨5, _⟩ => ⟨S_, .f32⟩
  | .hbm, ⟨6, _⟩ => ⟨S1000000, .f32⟩
  | .hbm, ⟨7, _⟩ => ⟨S1000000, .f32⟩
  | .hbm, ⟨8, _⟩ => ⟨S1x3000000, .i32⟩
  | .hbm, ⟨9, _⟩ => ⟨S3000000, .i32⟩
  | .hbm, ⟨10, _⟩ => ⟨S_, .i32⟩
  | .hbm, ⟨11, _⟩ => ⟨S3000000, .i32⟩
  | .hbm, ⟨12, _⟩ => ⟨S3000000, .i1⟩
  | .hbm, ⟨13, _⟩ => ⟨S_, .i32⟩
  | .hbm, ⟨14, _⟩ => ⟨S3000000, .i32⟩
  | .hbm, ⟨15, _⟩ => ⟨S3000000, .i32⟩
  | .hbm, ⟨16, _⟩ => ⟨S3000000, .i32⟩
  | .hbm, ⟨17, _⟩ => ⟨S3000000x1, .i32⟩
  | .hbm, ⟨18, _⟩ => ⟨S3000000, .f32⟩
  | .hbm, ⟨19, _⟩ => ⟨S1x3000000, .i32⟩
  | .hbm, ⟨20, _⟩ => ⟨S3000000, .i32⟩
  | .hbm, ⟨21, _⟩ => ⟨S_, .i32⟩
  | .hbm, ⟨22, _⟩ => ⟨S3000000, .i32⟩
  | .hbm, ⟨23, _⟩ => ⟨S3000000, .i1⟩
  | .hbm, ⟨24, _⟩ => ⟨S_, .i32⟩
  | .hbm, ⟨25, _⟩ => ⟨S3000000, .i32⟩
  | .hbm, ⟨26, _⟩ => ⟨S3000000, .i32⟩
  | .hbm, ⟨27, _⟩ => ⟨S3000000, .i32⟩
  | .hbm, ⟨28, _⟩ => ⟨S3000000x1, .i32⟩
  | .hbm, ⟨29, _⟩ => ⟨S3000000, .f32⟩
  | .hbm, ⟨30, _⟩ => ⟨S6000000, .f32⟩
  | .hbm, ⟨31, _⟩ => ⟨S_, .f32⟩
  | .hbm, ⟨32, _⟩ => ⟨S1000000, .f32⟩
  | .hbm, ⟨33, _⟩ => ⟨S1000000, .f32⟩
  | .hbm, ⟨34, _⟩ => ⟨S1000000, .f32⟩
  | .hbm, ⟨35, _⟩ => ⟨S1x3000000, .i32⟩
  | .hbm, ⟨36, _⟩ => ⟨S3000000, .i32⟩
  | .hbm, ⟨37, _⟩ => ⟨S_, .i32⟩
  | .hbm, ⟨38, _⟩ => ⟨S3000000, .i32⟩
  | .hbm, ⟨39, _⟩ => ⟨S3000000, .i1⟩
  | .hbm, ⟨40, _⟩ => ⟨S_, .i32⟩
  | .hbm, ⟨41, _⟩ => ⟨S3000000, .i32⟩
  | .hbm, ⟨42, _⟩ => ⟨S3000000, .i32⟩
  | .hbm, ⟨43, _⟩ => ⟨S3000000, .i32⟩
  | .hbm, ⟨44, _⟩ => ⟨S3000000x1, .i32⟩
  | .hbm, ⟨45, _⟩ => ⟨S3000000, .f32⟩
  | .hbm, ⟨46, _⟩ => ⟨S_, .f32⟩
  | .hbm, ⟨47, _⟩ => ⟨S1000000, .f32⟩
  | .hbm, ⟨48, _⟩ => ⟨S1000000, .f32⟩
  | .hbm, ⟨49, _⟩ => ⟨S1000000, .f32⟩
  | .hbm, ⟨50, _⟩ => ⟨S1x3000000, .i32⟩
  | .hbm, ⟨51, _⟩ => ⟨S3000000, .i32⟩
  | .hbm, ⟨52, _⟩ => ⟨S_, .i32⟩
  | .hbm, ⟨53, _⟩ => ⟨S3000000, .i32⟩
  | .hbm, ⟨54, _⟩ => ⟨S3000000, .i1⟩
  | .hbm, ⟨55, _⟩ => ⟨S_, .i32⟩
  | .hbm, ⟨56, _⟩ => ⟨S3000000, .i32⟩
  | .hbm, ⟨57, _⟩ => ⟨S3000000, .i32⟩
  | .hbm, ⟨58, _⟩ => ⟨S3000000, .i32⟩
  | .hbm, ⟨59, _⟩ => ⟨S3000000x1, .i32⟩
  | .hbm, ⟨60, _⟩ => ⟨S3000000, .f32⟩
  | .hbm, ⟨61, _⟩ => ⟨S6000000, .f32⟩
  | .hbm, ⟨62, _⟩ => ⟨S1x3000000, .i32⟩
  | .hbm, ⟨63, _⟩ => ⟨S3000000, .i32⟩
  | .hbm, ⟨64, _⟩ => ⟨S1x3000000, .i32⟩
  | .hbm, ⟨65, _⟩ => ⟨S3000000, .i32⟩
  | .hbm, ⟨66, _⟩ => ⟨S6000000, .i32⟩
  | .hbm, ⟨67, _⟩ => ⟨S6000000, .f32⟩
  | .hbm, ⟨68, _⟩ => ⟨S_, .f32⟩
  | .hbm, ⟨69, _⟩ => ⟨S1000000, .f32⟩
  | .hbm, ⟨70, _⟩ => ⟨S6000000x1, .i32⟩
  | .hbm, ⟨71, _⟩ => ⟨S1000000, .f32⟩
  | .hbm, ⟨72, _⟩ => ⟨S_, .f32⟩
  | .hbm, ⟨73, _⟩ => ⟨S1000000, .f32⟩
  | .hbm, ⟨74, _⟩ => ⟨S6000000x1, .i32⟩
  | .hbm, ⟨75, _⟩ => ⟨S1000000, .f32⟩
  | .hbm, ⟨76, _⟩ => ⟨S1000000, .f32⟩
  | .hbm, ⟨77, _⟩ => ⟨S_, .f32⟩
  | .hbm, ⟨78, _⟩ => ⟨S1000000, .f32⟩
  | .hbm, ⟨79, _⟩ => ⟨S1000000, .f32⟩
  | .hbm, ⟨80, _⟩ => ⟨S_, .f32⟩
  | .hbm, ⟨81, _⟩ => ⟨S1000000, .f32⟩
  | .hbm, ⟨82, _⟩ => ⟨S1000000, .f32⟩
  | .hbm, ⟨83, _⟩ => ⟨S1000000, .f32⟩
  | .hbm, ⟨84, _⟩ => ⟨S1000000, .f32⟩
  | .hbm, ⟨85, _⟩ => ⟨S_, .f32⟩
  | .hbm, ⟨86, _⟩ => ⟨S1000000, .f32⟩
  | .hbm, ⟨87, _⟩ => ⟨S1000000, .f32⟩
  | .hbm, ⟨88, _⟩ => ⟨S_, .f32⟩
  | .hbm, ⟨89, _⟩ => ⟨S1000000, .f32⟩
  | .hbm, ⟨90, _⟩ => ⟨S1000000, .f32⟩
  | .hbm, ⟨91, _⟩ => ⟨S1000000, .f32⟩
  | .hbm, ⟨92, _⟩ => ⟨S1000000, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_c_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_9 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩
abbrev main_cst_14 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_15 : Ref sig .tc := ⟨.hbm, 93, rfl⟩
abbrev main_v72 : Ref sig .tc := ⟨.hbm, 94, rfl⟩
abbrev main_cst_16 : Ref sig .tc := ⟨.hbm, 95, rfl⟩
abbrev main_v73 : Ref sig .tc := ⟨.hbm, 96, rfl⟩

abbrev nD : Nat := 1
abbrev τ : Topo := Topo.v7x

variable {F : FTy → Type} [FloatOps F]

class Facts₀ : Prop where
  shapeCasts_S1000000x1_S1000000 : S1000000x1.ShapeCasts S1000000
  bcast_S_S1000000 : S_.BroadcastsInDim S1000000 (![] : Fin 0 → Fin S1000000.rank)
  slices_S2x3000000_S1x3000000_1_0 : S2x3000000.Slices ![1, 0] S1x3000000
  shapeCasts_S1x3000000_S3000000 : S1x3000000.ShapeCasts S3000000
  bcast_S_S3000000 : S_.BroadcastsInDim S3000000 (![] : Fin 0 → Fin S3000000.rank)
  bcast_S3000000_S3000000x1_0 : S3000000.BroadcastsInDim S3000000x1 (![0] : Fin 1 → Fin S3000000x1.rank)
  concatenates_S3000000_S3000000_S6000000_d0 : Shape.Concatenates [S3000000, S3000000] S6000000 0
  slices_S2x3000000_S1x3000000_0_0 : S2x3000000.Slices ![0, 0] S1x3000000
  bcast_S6000000_S6000000x1_0 : S6000000.BroadcastsInDim S6000000x1 (![0] : Fin 1 → Fin S6000000x1.rank)
  reducesTo_S1000000_S_d0 : S1000000.ReducesTo [0] S_
  h_S_ : 0 < S_.numel
  gather_S1000000_S3000000x1_S3000000_n_0_n_n_0_1_1_wf : GatherDims.WF S1000000 S3000000x1 S3000000 [] [0] [] [0] [] 1 ![1]
  scatter_S1000000_S6000000x1_S6000000_n_0_0_1_wf : ScatterDims.WF S1000000 S6000000x1 S6000000 [] [0] [0] 1

variable [Facts₀]

def gather_S1000000_S3000000x1_S3000000_n_0_n_n_0_1_1 : GatherDims S1000000 S3000000x1 S3000000 where
  offsetDims := []
  collapsedSliceDims := [0]
  operandBatchingDims := []
  startIndicesBatchingDims := []
  startIndexMap := [0]
  indexVectorDim := 1
  sliceSizes := ![1]
  wf := gather_S1000000_S3000000x1_S3000000_n_0_n_n_0_1_1_wf
def scatter_S1000000_S6000000x1_S6000000_n_0_0_1 : ScatterDims S1000000 S6000000x1 S6000000 where
  updateWindowDims := []
  insertedWindowDims := [0]
  scatterDimsToOperandDims := [0]
  indexVectorDim := 1
  wf := scatter_S1000000_S6000000x1_S6000000_n_0_0_1_wf

class Facts : Prop extends Facts₀ where

variable [Facts]
-- ==== Proof.K.ExpRegion.lean ====
import proofs.«138174_j12378095747451_2_alg».proof.Proof.Gen.Kernel.Launch
import proofs.«138174_j12378095747451_2_alg».proof.Proof.Gen.Kernel.Skeleton
import proofs.«138174_j12378095747451_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 0: the exponential kernel's half of the frame

The first pallas_call runs one body per block of 1024×128 elements: it reads its input block `x` and leaves in its four
output blocks `x·e^(5x)`, `e^(5x)`, `(1-x)·e^(5(1-x))` and `e^(5(1-x))`. Every load and every store goes through the
rectangle that is the whole block, so each output's buffer after the body is exactly the payload stored there.
Everything is stated at the contents `V` the core's buffers hold when the region is entered, and at any float type `F`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one rectangle: the whole block -/

/-- The rectangle of every load and store of the body: offsets zero, the block's own sizes. -/
abbrev r0_0 : Rect S1024x128 := Rect.unit (s := S1024x128) ![0, 0] S1024x128.size Gen.inb_S1024x128_S1024x128_0_0

/-- Its offsets are zero. -/
theorem hz0 : (![0, 0] : Fin 2 → Nat) = fun _ => 0 := funext fun a => by fin_cases a <;> rfl

/-! ## What the body leaves in each output window's buffer -/

/-- Window 1's buffer after the body: its one store, of `x·e^(5x)`. -/
def out0_1 (x0 : Vec F S1024x128 .f32) : Vec F S1024x128 .f32 :=
  View.canon [⟨r0_0, k0_pay5 (View.ld x0 r0_0)⟩]
/-- Window 2's buffer after the body: its one store, of `e^(5x)`. -/
def out0_2 (x0 : Vec F S1024x128 .f32) : Vec F S1024x128 .f32 :=
  View.canon [⟨r0_0, k0_pay3 (View.ld x0 r0_0)⟩]
/-- Window 3's buffer after the body: its one store, of `(1-x)·e^(5(1-x))`. -/
def out0_3 (x0 : Vec F S1024x128 .f32) : Vec F S1024x128 .f32 :=
  View.canon [⟨r0_0, k0_pay6 (View.ld x0 r0_0)⟩]
/-- Window 4's buffer after the body: its one store, of `e^(5(1-x))`. -/
def out0_4 (x0 : Vec F S1024x128 .f32) : Vec F S1024x128 .f32 :=
  View.canon [⟨r0_0, k0_pay4 (View.ld x0 r0_0)⟩]

/-- A load through the whole block reads the block and one store through it leaves its payload: each output's
    buffer after the body is the payload of the input block. -/
theorem out0_1_eq (x0 : Vec F S1024x128 .f32) : out0_1 x0 = k0_pay5 x0 := by
  unfold out0_1; rw [View.canon_unit_zero hz0]; simp only [View.ld_unit_zero (S := S1024x128) hz0]
theorem out0_2_eq (x0 : Vec F S1024x128 .f32) : out0_2 x0 = k0_pay3 x0 := by
  unfold out0_2; rw [View.canon_unit_zero hz0]; simp only [View.ld_unit_zero (S := S1024x128) hz0]
theorem out0_3_eq (x0 : Vec F S1024x128 .f32) : out0_3 x0 = k0_pay6 x0 := by
  unfold out0_3; rw [View.canon_unit_zero hz0]; simp only [View.ld_unit_zero (S := S1024x128) hz0]
theorem out0_4_eq (x0 : Vec F S1024x128 .f32) : out0_4 x0 = k0_pay4 x0 := by
  unfold out0_4; rw [View.canon_unit_zero hz0]; simp only [View.ld_unit_zero (S := S1024x128) hz0]

/-- The one store covers the buffer: the rectangle is the whole block, so every index is in it. -/
theorem cover0 (p0 : Vec F S1024x128 .f32) (y : S1024x128.Idx) :
    ∃ pc ∈ ([⟨r0_0, p0⟩] : List (View.Piece (Elt F) S1024x128 .f32)), y ∈ pc.1.set :=
  ⟨_, List.mem_singleton_self _, View.mem_set_unit_zero hz0 Gen.inb_S1024x128_S1024x128_0_0 y⟩

/-! ## The body's triple -/

set_option maxHeartbeats 1000000 in
/-- The kernel body on whole staging memrefs, the input's at read contents `x0` and the four outputs' at anything, runs
    to the continuation holding the input's as it was and each output's at `out0_k x0`. The body loads each output
    before it stores there (the loaded value is unused), which changes nothing. -/
theorem sound_kernel0 (c : Dev nD) (E : Set ℕ) (i : grid0.Coords)
    (arg1 : Memref sig .tc .vmem S1024x128 .f32) (harg1 : arg1.IsWhole) (arg2 : Memref sig .tc .vmem S1024x128 .f32) (harg2 : arg2.IsWhole)
    (arg3 : Memref sig .tc .vmem S1024x128 .f32) (harg3 : arg3.IsWhole) (arg4 : Memref sig .tc .vmem S1024x128 .f32) (harg4 : arg4.IsWhole)
    (arg5 : Memref sig .tc .vmem S1024x128 .f32) (harg5 : arg5.IsWhole)
    (x0 : Vec F S1024x128 .f32) (K : PUnit → sProp 𝕄) :
    iprop(owns (c : Thread nD τ) arg1 fullShare x0 ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare (out0_1 x0)
            ∗ owns (c : Thread nD τ) arg3 fullShare (out0_2 x0) ∗ owns (c : Thread nD τ) arg4 fullShare (out0_3 x0)
            ∗ owns (c : Thread nD τ) arg5 fullShare (out0_4 x0)) -∗ K ⟨⟩))
      ⊢ wp frame (wpE (defs₀ (F := F)) Variants.none c none) E (cc0__exp_kernel i arg1 harg1 arg2 harg2 arg3 harg3 arg4 harg4 arg5 harg5) K := by
  simp only [cc0__exp_kernel_eq_skeleton]; unfold cc0__exp_kernel_skel
  unfold owns
  iintro ⟨⟨%f0, %hf0, H0⟩, ⟨%d1, %f1, -, H1⟩, ⟨%d2, %f2, -, H2⟩, ⟨%d3, %f3, -, H3⟩, ⟨%d4, %f4, -, H4⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _)
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the pipeline on core `c`: the arrays as the region finds them (`V`); after the body at point
    `t` the input's buffer at its block and each output's at `out0_k` of the input block; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
    | ⟨3, _⟩ => out0_3 (iblk0 V c 0 t)
    | ⟨4, _⟩ => out0_4 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input's memref holds its block (`before0_0`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.K.LossRuns.lean ====
import proofs.«138174_j12378095747451_2_alg».proof.Proof.Gen.Kernel.Launch
import proofs.«138174_j12378095747451_2_alg».proof.Proof.Gen.Kernel.Skeleton
import proofs.«138174_j12378095747451_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the loss kernel, a scratch accumulator carried between grid points): what its runs share -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (zero the accumulator), from the grid coordinate. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional (divide the accumulator into the output), from the grid coordinate. -/
abbrev cond1_1 (i : grid1.Coords) : Prop := k1_cond2 i = 1#1
/-- It holds at the last point only — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the first point the output window is idle: nothing is stored into it, -/
theorem idleAt1_3_A : ∀ t : Fin cfg1.N, cond1_0 (grid1.coords t) → ¬cond1_1 (grid1.coords t) → cfg1.idle 3 (grid1.coords t) = true := by decide +kernel
/-- and its block is not written back. -/
theorem noFlush1_3_A : ∀ t : Fin cfg1.N, cond1_0 (grid1.coords t) → ¬cond1_1 (grid1.coords t) → (cfg1.win 3).flush t = false := by decide +kernel
/-- The same at the points strictly between the first and the last. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last point the output window is live: the body stores into it. -/
theorem liveAt1_3_C : ∀ t : Fin cfg1.N, ¬cond1_0 (grid1.coords t) → cond1_1 (grid1.coords t) → cfg1.idle 3 (grid1.coords t) = false := by decide +kernel

/-! ## The staging and scratch memrefs -/

/-- The one staging buffer of output window 3, through which its contents are stated. -/
abbrev VO1_3 : View sig .tc .vmem S1x1 .f32 := (Memref.whole cc1_stg3_0 : Memref sig .tc .vmem S1x1 .f32).view
/-- Each window's current staging memref at point `t`, as the pipeline passes it, and its wholeness. -/
abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S1x1 .f32 := Memref.whole cc1_scratch0
/-- The accumulator the kernel carries between points, as a view: what it holds is stated through it. -/
abbrev VS1_0 : View sig .tc .vmem S1x1 .f32 := scM1_0.view

/-- The region's invariant with the scratch operand as a memref owned at some contents, every other scoped buffer
    (the other region's staging buffers) at anything: what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.K.LossRunA.lean ====
import proofs.«138174_j12378095747451_2_alg».proof.Proof.K.LossRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output's staging memref and in the accumulator, as pieces (last first), at the
    first point (the accumulator zeroed, the output not stored), with the proof that on whole memrefs — the inputs' at
    their contents, the output's at contents handed back untouched, the accumulator at anything (it is stored whole
    before it is read) — the body runs to the continuation holding the inputs as they were and the accumulator with its
    pieces written. -/
noncomputable def kernelRun1_A (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S1024x128 .f32) (x1 : Vec F S1024x128 .f32) (x2 : Vec F S1024x128 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨[], ?_, fun xi3 E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.K.LossRunB.lean ====
import proofs.«138174_j12378095747451_2_alg».proof.Proof.K.LossRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output's staging memref and in the accumulator, as pieces (last first), at a point
    strictly between the first and the last (neither conditional taken), with the proof that on whole memrefs — the
    inputs' at their contents, the output's at contents handed back untouched, the accumulator at what the point before
    left — the body runs to the continuation holding the inputs as they were and the accumulator with its pieces written. -/
noncomputable def kernelRun1_B (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S1024x128 .f32) (x1 : Vec F S1024x128 .f32) (x2 : Vec F S1024x128 .f32) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨[], ?_, fun xi3 E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Hand

end
-- ==== Proof.K.LossRunC.lean ====
import proofs.«138174_j12378095747451_2_alg».proof.Proof.K.LossRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output's staging memref and in the accumulator, as pieces (last first), at the
    last point (the accumulator not zeroed, the output stored), with the proof that on whole memrefs — the inputs' at
    their contents, the output's at anything, the accumulator at what the point before left — the body runs to the
    continuation holding the inputs as they were and the output and the accumulator with their pieces written. -/
noncomputable def kernelRun1_C (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x128 .f32) (x1 : Vec F S1024x128 .f32) (x2 : Vec F S1024x128 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨?_, ?_, fun E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Hand

end
-- ==== Proof.K.LossRegion.lean ====
import proofs.«138174_j12378095747451_2_alg».proof.Proof.K.LossRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the loss kernel): what the output and the accumulator hold point by point, the proof data, the body
    obligation -/

/-- The first point stores nothing into the output window (idle there and not written back): no pieces — a placeholder that nothing consults. -/
def out1_A_3 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S1024x128 .f32) (x1 : Vec F S1024x128 .f32) (x2 : Vec F S1024x128 .f32) : Vec F S1x1 .f32 :=
  VO1_3.read (Elt F) (VO1_3.writes (Elt F) VO1_3.junk (kernelRun1_A c i arg1 harg1 arg2 harg2 arg3 harg3 arg4 harg4 arg5 harg5 hc0 hc1 x0 x1 x2).1)

/-- The pieces stored into the accumulator at such a point cover it (one piece of the whole shape). -/
theorem scover1_A_0 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S1024x128 .f32) (x1 : Vec F S1024x128 .f32) (x2 : Vec F S1024x128 .f32) (y : S1x1.Idx) :
    ∃ pc ∈ (kernelRun1_A c i arg1 harg1 arg2 harg2 arg3 harg3 arg4 harg4 arg5 harg5 hc0 hc1 x0 x1 x2).2.1, y ∈ pc.1.set :=
  View.cover_of_tiledL (kernelRun1_A c i arg1 harg1 arg2 harg2 arg3 harg3 arg4 harg4 arg5 harg5 hc0 hc1 x0 x1 x2).2.1 S1x1.size (by sl_kernel_rfl) y

/-- What such a point leaves in the accumulator: its pieces read back over junk. -/
def sout1_A_0 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S1024x128 .f32) (x1 : Vec F S1024x128 .f32) (x2 : Vec F S1024x128 .f32) : Vec F S1x1 .f32 :=
  VS1_0.read (Elt F) (VS1_0.writes (Elt F) VS1_0.junk (kernelRun1_A c i arg1 harg1 arg2 harg2 arg3 harg3 arg4 harg4 arg5 harg5 hc0 hc1 x0 x1 x2).2.1)

/-- A point strictly between the first and the last stores nothing into the output window: no pieces — a placeholder that nothing consults. -/
def out1_B_3 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S1024x128 .f32) (x1 : Vec F S1024x128 .f32) (x2 : Vec F S1024x128 .f32) (xs0 : Vec F S1x1 .f32) : Vec F S1x1 .f32 :=
  VO1_3.read (Elt F) (VO1_3.writes (Elt F) VO1_3.junk (kernelRun1_B c i arg1 harg1 arg2 harg2 arg3 harg3 arg4 harg4 arg5 harg5 hc0 hc1 x0 x1 x2 xs0).1)

/-- The pieces stored into the accumulator at such a point cover it (one piece of the whole shape). -/
theorem scover1_B_0 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S1024x128 .f32) (x1 : Vec F S1024x128 .f32) (x2 : Vec F S1024x128 .f32) (xs0 : Vec F S1x1 .f32) (y : S1x1.Idx) :
    ∃ pc ∈ (kernelRun1_B c i arg1 harg1 arg2 harg2 arg3 harg3 arg4 harg4 arg5 harg5 hc0 hc1 x0 x1 x2 xs0).2.1, y ∈ pc.1.set :=
  View.cover_of_tiledL (kernelRun1_B c i arg1 harg1 arg2 harg2 arg3 harg3 arg4 harg4 arg5 harg5 hc0 hc1 x0 x1 x2 xs0).2.1 S1x1.size (by sl_kernel_rfl) y

/-- What such a point leaves in the accumulator: its pieces read back over junk. -/
def sout1_B_0 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S1024x128 .f32) (x1 : Vec F S1024x128 .f32) (x2 : Vec F S1024x128 .f32) (xs0 : Vec F S1x1 .f32) : Vec F S1x1 .f32 :=
  VS1_0.read (Elt F) (VS1_0.writes (Elt F) VS1_0.junk (kernelRun1_B c i arg1 harg1 arg2 harg2 arg3 harg3 arg4 harg4 arg5 harg5 hc0 hc1 x0 x1 x2 xs0).2.1)

/-- The last point's pieces for the output window cover its block (one store of the whole shape). -/
theorem cover1_C_3 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x128 .f32) (x1 : Vec F S1024x128 .f32) (x2 : Vec F S1024x128 .f32) (xs0 : Vec F S1x1 .f32) (y : S1x1.Idx) :
    ∃ pc ∈ (kernelRun1_C c i arg1 harg1 arg2 harg2 arg3 harg3 arg4 harg4 arg5 harg5 hc0 hc1 x0 x1 x2 xs0).1, y ∈ pc.1.set :=
  View.cover_of_tiledL (kernelRun1_C c i arg1 harg1 arg2 harg2 arg3 harg3 arg4 harg4 arg5 harg5 hc0 hc1 x0 x1 x2 xs0).1 S1x1.size (by sl_kernel_rfl) y

/-- What the last point leaves in the output window's staging buffer: its pieces read back over junk. -/
def out1_C_3 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x128 .f32) (x1 : Vec F S1024x128 .f32) (x2 : Vec F S1024x128 .f32) (xs0 : Vec F S1x1 .f32) : Vec F S1x1 .f32 :=
  VO1_3.read (Elt F) (VO1_3.writes (Elt F) VO1_3.junk (kernelRun1_C c i arg1 harg1 arg2 harg2 arg3 harg3 arg4 harg4 arg5 harg5 hc0 hc1 x0 x1 x2 xs0).1)

/-- The pieces stored into the accumulator at such a point cover it (one piece of the whole shape). -/
theorem scover1_C_0 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x128 .f32) (x1 : Vec F S1024x128 .f32) (x2 : Vec F S1024x128 .f32) (xs0 : Vec F S1x1 .f32) (y : S1x1.Idx) :
    ∃ pc ∈ (kernelRun1_C c i arg1 harg1 arg2 harg2 arg3 harg3 arg4 harg4 arg5 harg5 hc0 hc1 x0 x1 x2 xs0).2.1, y ∈ pc.1.set :=
  View.cover_of_tiledL (kernelRun1_C c i arg1 harg1 arg2 harg2 arg3 harg3 arg4 harg4 arg5 harg5 hc0 hc1 x0 x1 x2 xs0).2.1 S1x1.size (by sl_kernel_rfl) y

/-- What such a point leaves in the accumulator: its pieces read back over junk. -/
def sout1_C_0 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x128 .f32) (x1 : Vec F S1024x128 .f32) (x2 : Vec F S1024x128 .f32) (xs0 : Vec F S1x1 .f32) : Vec F S1x1 .f32 :=
  VS1_0.read (Elt F) (VS1_0.writes (Elt F) VS1_0.junk (kernelRun1_C c i arg1 harg1 arg2 harg2 arg3 harg3 arg4 harg4 arg5 harg5 hc0 hc1 x0 x1 x2 xs0).2.1)

/-! ## What the output window and the accumulator hold after each point -/

/-- The accumulation. What the output window's staging buffer and the accumulator hold after the body at position `n`:
    the case the closed forms select at `n`, run at the point's memrefs and input blocks, the accumulator taken at
    what position `n - 1` left in it. -/
def outsAt1 (c : Dev nD) : (n : ℕ) → n < cfg1.N → Vec F S1x1 .f32 × Vec F S1x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      False.elim (by have hN : n + 1 < 8 := lt_of_lt_of_eq hn (show cfg1.N = 8 from N_1); omega)
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at the first point. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (by exfalso; have hN : n + 1 < 8 := lt_of_lt_of_eq hn (show cfg1.N = 8 from N_1); (try dsimp only at h0); omega)

/-- `outsAt1` at a point strictly between the first and the last: over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point: over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer at anything);
    afterwards the other scoped buffers at anything, the accumulator at what the point before left in it, and the
    generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the loss pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    the invariant hands the body the accumulator at what the point before left (at anything at the first point) and
    takes it back at this point's contents; the other scoped buffers, the generator register and the core's debts pass
    through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  by_cases h0 : t.val % 8 = 0
  · by_cases h1 : t.val % 8 = 7
    · exfalso; omega
    · -- the first point
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      have hz : t.val = 0 := by omega
      rw [PhiS1_castSucc V c t, PhiS1_zero V c _ _ hz, PhiA1_eq]
      iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR0 HR1 HR2 HR3 HR4 HR5 HR6 HR7 HR8 HR9 HS0 Hg]
      · isplitl [HR0 HR1 HR2 HR3 HR4 HR5 HR6 HR7 HR8 HR9 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · by_cases h1 : t.val % 8 = 7
    · -- the last point
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      have hz : t.val ≠ 0 := by omega
      rw [PhiS1_castSucc V c t, PhiS1_pos V c _ _ hz]
      iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR0 HR1 HR2 HR3 HR4 HR5 HR6 HR7 HR8 HR9 HS0 Hg]
      · isplitl [HR0 HR1 HR2 HR3 HR4 HR5 HR6 HR7 HR8 HR9 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · -- a point strictly between
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR0 HR1 HR2 HR3 HR4 HR5 HR6 HR7 HR8 HR9 HS0 Hg]
      · isplitl [HR0 HR1 HR2 HR3 HR4 HR5 HR6 HR7 HR8 HR9 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HS0⟩, Hg⟩
  isplitl [HR0 HR1 HR2 HR3 HR4 HR5 HR6 HR7 HR8 HR9 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 8 := N_1; omega)

end Cert.Kernel.Hand

end
-- ==== Proof.K.Run.lean ====
import proofs.«138174_j12378095747451_2_alg».proof.Proof.K.ExpRegion
import proofs.«138174_j12378095747451_2_alg».proof.Proof.K.LossRegion
import proofs.«138174_j12378095747451_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at every boundary of @main: a fold from the launch memory

@main is three stretches of host operations, the first kernel region, seven stretches, the second region and one last
stretch. A stretch maps the contents by `StableHlo.after`; a region leaves its arrays at what its write-backs fold to
and every other buffer as it found it. -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
/-- The contents the first region is entered from, read at the TensorCore's references. -/
abbrev E3 : (c : Dev nD) → (b : Ref sig .tc) → Buf (Elt F) ((c : Thread nD τ).loc b) := fun c b => W3 m ρ c b
/-- After the first region: its four result arrays at what the eight write-backs leave. -/
def W4 (c : Dev nD) : Valuation τ sig (Elt F) :=
  Pipeline.withArrays spec0 c (W3 m ρ c) fun w => (dat0 (E3 m ρ) c).arrAt w cfg0.N
theorem W4_arr (c : Dev nD) (w : Fin cfg0.W) :
    W4 m ρ c (Proc.devRef .tc (Pipeline.arrRef spec0 w)) = (dat0 (E3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev E4 : (c : Dev nD) → (b : Ref sig .tc) → Buf (Elt F) ((c : Thread nD τ).loc b) := fun c b => W4 m ρ c b
theorem hF0 (c : Dev nD) (w : Fin cfg0.W) : (dat0 (E3 m ρ) c).arrAt w cfg0.N = E4 m ρ c (Pipeline.arrRef spec0 w) :=
  (W4_arr m ρ c w).symm
theorem hrest0 (c : Dev nD) : ∀ b, b ∉ Finset.univ.image (Pipeline.arrRef spec0) → E4 m ρ c b = E3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
abbrev W6 : Dev nD → Valuation τ sig (Elt F) := fun c => StableHlo.after hostOps1_1 (W5 m ρ c)
abbrev W7 : Dev nD → Valuation τ sig (Elt F) := fun c => StableHlo.after hostOps1_2 (W6 m ρ c)
abbrev W8 : Dev nD → Valuation τ sig (Elt F) := fun c => StableHlo.after hostOps1_3 (W7 m ρ c)
abbrev W9 : Dev nD → Valuation τ sig (Elt F) := fun c => StableHlo.after hostOps1_4 (W8 m ρ c)
abbrev W10 : Dev nD → Valuation τ sig (Elt F) := fun c => StableHlo.after hostOps1_5 (W9 m ρ c)
abbrev W11 : Dev nD → Valuation τ sig (Elt F) := fun c => StableHlo.after hostOps1_6 (W10 m ρ c)
/-- The contents the second region is entered from. -/
abbrev E11 : (c : Dev nD) → (b : Ref sig .tc) → Buf (Elt F) ((c : Thread nD τ).loc b) := fun c b => W11 m ρ c b
/-- After the second region: its one result array at what the last point's write-back leaves. -/
def W12 (c : Dev nD) : Valuation τ sig (Elt F) :=
  Pipeline.withArrays spec1 c (W11 m ρ c) fun w => (dat1 (E11 m ρ) c).arrAt w cfg1.N
theorem W12_arr (c : Dev nD) (w : Fin cfg1.W) :
    W12 m ρ c (Proc.devRef .tc (Pipeline.arrRef spec1 w)) = (dat1 (E11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev E12 : (c : Dev nD) → (b : Ref sig .tc) → Buf (Elt F) ((c : Thread nD τ).loc b) := fun c b => W12 m ρ c b
theorem hF1 (c : Dev nD) (w : Fin cfg1.W) : (dat1 (E11 m ρ) c).arrAt w cfg1.N = E12 m ρ c (Pipeline.arrRef spec1 w) :=
  (W12_arr m ρ c w).symm
theorem hrest1 (c : Dev nD) : ∀ b, b ∉ Finset.univ.image (Pipeline.arrRef spec1) → E12 m ρ c b = E11 m ρ c b :=
  fun b hb => W12_of_ne m ρ c b fun w e => hb (Finset.mem_image.mpr ⟨w, Finset.mem_univ _, e⟩)
abbrev W13 : Dev nD → Valuation τ sig (Elt F) := fun c => StableHlo.after hostOps2 (W12 m ρ c)

/-! ## The proof data of both pipelines and the thread state -/

/-- Both pipelines' proof data, each at the contents its region is entered from. -/
def pdatsH : (p : Fin 2) → (c : Dev nD) → Dat τ (Elt F) Unit ℕ (UR sig nD τ) ℕ (Pipeline.pin (pcfgs (F := F)) adm p) c
  | ⟨0, _⟩ => fun c => dat0 (E3 m ρ) c
  | ⟨1, _⟩ => fun c => dat1 (E11 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
/-- A stretch of host operations as a segment, from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev TH (c : Dev nD) : sProp 𝕄 := iprop(StableHlo.held (c : Thread nD τ) (Pipeline.ucRefs τ sig) (W13 m ρ c) ∗ ∃ r, prngReg c r)

/-! ## The two regions as segments -/

set_option backward.isDefEq.respectTransparency.types false in
/-- The first region: entered from every unscoped buffer at `W3`, left at `W4`. -/
def reg0H : Pipeline.RegionSeg (pcfgs (F := F)) adm (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E3 m ρ) c).loose
  hwaits := Pipeline.hwaits_of_owed_zero _ _ _ _ LH lvH 0 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec0 c (E3 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (E3 m ρ c) (E4 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W11`, left at `W12`. Its invariant carries the
    accumulator between points; at its two ends it is the plain one (the scoped rest and the generator register). -/
def reg1H : Pipeline.RegionSeg (pcfgs (F := F)) adm (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E11 m ρ) c).loose
  hwaits := Pipeline.hwaits_of_owed_zero _ _ _ _ LH lvH 1 fun _ _ => rfl
  pre c := iprop(StableHlo.held (c : Thread nD τ) (Pipeline.ucRefs τ sig) (W11 m ρ c) ∗ RH c)
  post c := iprop(StableHlo.held (c : Thread nD τ) (Pipeline.ucRefs τ sig) (W12 m ρ c) ∗ RH c)
  X c := iprop(∃ r, prngReg c r)
  Y c := iprop(∃ r, prngReg c r)
  Z c := Pipeline.unscopedRest (Ix := Unit) (Name := ℕ) (U := UR sig nD τ) (Lvl := ℕ) spec1 c (E11 m ρ c)
  hentry c := by
    rw [Pipeline.ownSems0_none]
    have hsplit := Pipeline.arrays_of_unscopedBufs (p := 1) (pcfgs (F := F)) adm (pdatsH m ρ) launch1.win launch1.arr_whole c
      ((pdatsH m ρ 1 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 1).pre c (fun _ => fullShare) (adm (F := F) 1).1
          ∗ Pipeline.scopedRest (Pipeline.pin (pcfgs (F := F)) adm 1).spec c) ⊢ (Pipeline.ΦA spec1 c : sProp 𝕄) from by
      unfold Pipeline.ΦA
      iintro ⟨Hp, -, Hr⟩
      isplitl [Hr]; · iexact Hr
      iexact Hp).trans (hin1 (E11 m ρ) c)
  hout c :=
    (hout1 (E11 m ρ) c).trans (by
      rw [Pipeline.ownSems0_none]
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdatsH m ρ) ((pdatsH m ρ 1 c).share_full fun _ => rfl)
      (E11 m ρ c) (E12 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's thirteen segments in order. -/
abbrev segsH : List (Pipeline.Seg (pcfgs (F := F)) adm (pdatsH m ρ) () defs₀ 𝒱H LH lvH) :=
  [ .host (hsegH hostOps0 hostOps0_sub hostOps0_fresh (W0 m ρ)),
    .host (hsegH hostOps0_1 hostOps0_1_sub hostOps0_1_fresh (W1 m ρ)),
    .host (hsegH hostOps0_2 hostOps0_2_sub hostOps0_2_fresh (W2 m ρ)),
    .region (reg0H m ρ),
    .host (hsegH hostOps1 hostOps1_sub hostOps1_fresh (W4 m ρ)),
    .host (hsegH hostOps1_1 hostOps1_1_sub hostOps1_1_fresh (W5 m ρ)),
    .host (hsegH hostOps1_2 hostOps1_2_sub hostOps1_2_fresh (W6 m ρ)),
    .host (hsegH hostOps1_3 hostOps1_3_sub hostOps1_3_fresh (W7 m ρ)),
    .host (hsegH hostOps1_4 hostOps1_4_sub hostOps1_4_fresh (W8 m ρ)),
    .host (hsegH hostOps1_5 hostOps1_5_sub hostOps1_5_fresh (W9 m ρ)),
    .host (hsegH hostOps1_6 hostOps1_6_sub hostOps1_6_fresh (W10 m ρ)),
    .region (reg1H m ρ),
    .host (hsegH hostOps2 hostOps2_sub hostOps2_fresh (W12 m ρ)) ]

/-- @main is the run of the segments. -/
theorem main_runH (c : Dev nD) : main (F := F) c = Pipeline.Seg.run (segsH m ρ) := (main_chain c).trans (by chain_rfl)

set_option backward.isDefEq.respectTransparency.types false in
/-- THE RUN. From any memory with zero counters every weakly fair execution of @main terminates, nothing faulting, and
    every unscoped buffer of every core ends at the fold's last contents `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TH m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c =>
      show iprop(StableHlo.held (c : Thread nD τ) (Pipeline.ucRefs τ sig) (W13 m ρ c) ∗ RH c)
          ⊢ iprop(TH m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-! ## The arguments end as launched -/

/-- A buffer no stretch writes and no region stages ends holding its launch contents. -/
theorem W13_of_untouched (c : Dev nD) (r : Ref sig .tc)
    (h0 : r ∉ hostOps0_W) (h1 : r ∉ hostOps0_1_W) (h2 : r ∉ hostOps0_2_W) (h3 : ∀ w, Pipeline.arrRef spec0 w ≠ r)
    (h4 : r ∉ hostOps1_W) (h5 : r ∉ hostOps1_1_W) (h6 : r ∉ hostOps1_2_W) (h7 : r ∉ hostOps1_3_W) (h8 : r ∉ hostOps1_4_W)
    (h9 : r ∉ hostOps1_5_W) (h10 : r ∉ hostOps1_6_W) (h11 : ∀ w, Pipeline.arrRef spec1 w ≠ r) (h12 : r ∉ hostOps2_W) :
    W13 m ρ c r = m ((c : Thread nD τ).loc r) :=
  (StableHlo.after_of_writes_sub hostOps2 _ hostOps2_writes h12).trans <|
  (W12_of_ne m ρ c r h11).trans <|
  (StableHlo.after_of_writes_sub hostOps1_6 _ hostOps1_6_writes h10).trans <|
  (StableHlo.after_of_writes_sub hostOps1_5 _ hostOps1_5_writes h9).trans <|
  (StableHlo.after_of_writes_sub hostOps1_4 _ hostOps1_4_writes h8).trans <|
  (StableHlo.after_of_writes_sub hostOps1_3 _ hostOps1_3_writes h7).trans <|
  (StableHlo.after_of_writes_sub hostOps1_2 _ hostOps1_2_writes h6).trans <|
  (StableHlo.after_of_writes_sub hostOps1_1 _ hostOps1_1_writes h5).trans <|
  (StableHlo.after_of_writes_sub hostOps1 _ hostOps1_writes h4).trans <|
  (W4_of_ne m ρ c r h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

theorem W13_main_arg0 (c : Dev nD) : W13 m ρ c main_arg0 = m ((c : Thread nD τ).loc main_arg0) :=
  W13_of_untouched m ρ c main_arg0 (by decide) (by decide) (by decide) (by decide) (by decide) (by decide) (by decide) (by decide) (by decide) (by decide) (by decide) (by decide) (by decide)
theorem W13_main_arg1 (c : Dev nD) : W13 m ρ c main_arg1 = m ((c : Thread nD τ).loc main_arg1) :=
  W13_of_untouched m ρ c main_arg1 (by decide) (by decide) (by decide) (by decide) (by decide) (by decide) (by decide) (by decide) (by decide) (by decide) (by decide) (by decide) (by decide)
theorem W13_main_arg2 (c : Dev nD) : W13 m ρ c main_arg2 = m ((c : Thread nD τ).loc main_arg2) :=
  W13_of_untouched m ρ c main_arg2 (by decide) (by decide) (by decide) (by decide) (by decide) (by decide) (by decide) (by decide) (by decide) (by decide) (by decide) (by decide) (by decide)
theorem W13_main_arg3 (c : Dev nD) : W13 m ρ c main_arg3 = m ((c : Thread nD τ).loc main_arg3) :=
  W13_of_untouched m ρ c main_arg3 (by decide) (by decide) (by decide) (by decide) (by decide) (by decide) (by decide) (by decide) (by decide) (by decide) (by decide) (by decide) (by decide)

/-- THE FRAME at any `F`, with the result buffer's final contents named: every weakly fair execution of @main terminates,
    nothing faulting, the result buffer `main_v58` ends at the fold's `W13` and the four arguments as launched. -/
theorem run_named : θ_run defs (onTc (τ := τ) (main (F := F))) ⟨m, fun _ => 0, ρ⟩ (fun r => ∀ c : Dev nD,
      r.2.mem ((c.tc : Thread nD τ).loc main_v58) = W13 m ρ c main_v58
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v58 (by decide)),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c)⟩) (run_all m ρ)

/-- THE FRAME at any `F`. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_named m ρ)

end Cert.Kernel.Hand

end
-- ==== Proof.KI.ExpRegion.lean ====
import proofs.«138174_j12378095747451_2_alg».proof.Proof.Gen.KernelIdeal.Launch
import proofs.«138174_j12378095747451_2_alg».proof.Proof.Gen.KernelIdeal.Skeleton
import proofs.«138174_j12378095747451_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 0: the exponential kernel's half of the frame

The first pallas_call runs one body per block of 1024×128 elements: it reads its input block `x` and leaves in its four
output blocks `x·e^(5x)`, `e^(5x)`, `(1-x)·e^(5(1-x))` and `e^(5(1-x))`. Every load and every store goes through the
rectangle that is the whole block, so each output's buffer after the body is exactly the payload stored there.
Everything is stated at the contents `V` the core's buffers hold when the region is entered, and at any float type `F`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's one rectangle: the whole block -/

/-- The rectangle of every load and store of the body: offsets zero, the block's own sizes. -/
abbrev r0_0 : Rect S1024x128 := Rect.unit (s := S1024x128) ![0, 0] S1024x128.size Gen.inb_S1024x128_S1024x128_0_0

/-- Its offsets are zero. -/
theorem hz0 : (![0, 0] : Fin 2 → Nat) = fun _ => 0 := funext fun a => by fin_cases a <;> rfl

/-! ## What the body leaves in each output window's buffer -/

/-- Window 1's buffer after the body: its one store, of `x·e^(5x)`. -/
def out0_1 (x0 : Vec F S1024x128 .f32) : Vec F S1024x128 .f32 :=
  View.canon [⟨r0_0, k0_pay5 (View.ld x0 r0_0)⟩]
/-- Window 2's buffer after the body: its one store, of `e^(5x)`. -/
def out0_2 (x0 : Vec F S1024x128 .f32) : Vec F S1024x128 .f32 :=
  View.canon [⟨r0_0, k0_pay3 (View.ld x0 r0_0)⟩]
/-- Window 3's buffer after the body: its one store, of `(1-x)·e^(5(1-x))`. -/
def out0_3 (x0 : Vec F S1024x128 .f32) : Vec F S1024x128 .f32 :=
  View.canon [⟨r0_0, k0_pay6 (View.ld x0 r0_0)⟩]
/-- Window 4's buffer after the body: its one store, of `e^(5(1-x))`. -/
def out0_4 (x0 : Vec F S1024x128 .f32) : Vec F S1024x128 .f32 :=
  View.canon [⟨r0_0, k0_pay4 (View.ld x0 r0_0)⟩]

/-- A load through the whole block reads the block and one store through it leaves its payload: each output's
    buffer after the body is the payload of the input block. -/
theorem out0_1_eq (x0 : Vec F S1024x128 .f32) : out0_1 x0 = k0_pay5 x0 := by
  unfold out0_1; rw [View.canon_unit_zero hz0]; simp only [View.ld_unit_zero (S := S1024x128) hz0]
theorem out0_2_eq (x0 : Vec F S1024x128 .f32) : out0_2 x0 = k0_pay3 x0 := by
  unfold out0_2; rw [View.canon_unit_zero hz0]; simp only [View.ld_unit_zero (S := S1024x128) hz0]
theorem out0_3_eq (x0 : Vec F S1024x128 .f32) : out0_3 x0 = k0_pay6 x0 := by
  unfold out0_3; rw [View.canon_unit_zero hz0]; simp only [View.ld_unit_zero (S := S1024x128) hz0]
theorem out0_4_eq (x0 : Vec F S1024x128 .f32) : out0_4 x0 = k0_pay4 x0 := by
  unfold out0_4; rw [View.canon_unit_zero hz0]; simp only [View.ld_unit_zero (S := S1024x128) hz0]

/-- The one store covers the buffer: the rectangle is the whole block, so every index is in it. -/
theorem cover0 (p0 : Vec F S1024x128 .f32) (y : S1024x128.Idx) :
    ∃ pc ∈ ([⟨r0_0, p0⟩] : List (View.Piece (Elt F) S1024x128 .f32)), y ∈ pc.1.set :=
  ⟨_, List.mem_singleton_self _, View.mem_set_unit_zero hz0 Gen.inb_S1024x128_S1024x128_0_0 y⟩

/-! ## The body's triple -/

set_option maxHeartbeats 1000000 in
/-- The kernel body on whole staging memrefs, the input's at read contents `x0` and the four outputs' at anything, runs
    to the continuation holding the input's as it was and each output's at `out0_k x0`. The body loads each output
    before it stores there (the loaded value is unused), which changes nothing. -/
theorem sound_kernel0 (c : Dev nD) (E : Set ℕ) (i : grid0.Coords)
    (arg1 : Memref sig .tc .vmem S1024x128 .f32) (harg1 : arg1.IsWhole) (arg2 : Memref sig .tc .vmem S1024x128 .f32) (harg2 : arg2.IsWhole)
    (arg3 : Memref sig .tc .vmem S1024x128 .f32) (harg3 : arg3.IsWhole) (arg4 : Memref sig .tc .vmem S1024x128 .f32) (harg4 : arg4.IsWhole)
    (arg5 : Memref sig .tc .vmem S1024x128 .f32) (harg5 : arg5.IsWhole)
    (x0 : Vec F S1024x128 .f32) (K : PUnit → sProp 𝕄) :
    iprop(owns (c : Thread nD τ) arg1 fullShare x0 ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare (out0_1 x0)
            ∗ owns (c : Thread nD τ) arg3 fullShare (out0_2 x0) ∗ owns (c : Thread nD τ) arg4 fullShare (out0_3 x0)
            ∗ owns (c : Thread nD τ) arg5 fullShare (out0_4 x0)) -∗ K ⟨⟩))
      ⊢ wp frame (wpE (defs₀ (F := F)) Variants.none c none) E (cc0__exp_kernel i arg1 harg1 arg2 harg2 arg3 harg3 arg4 harg4 arg5 harg5) K := by
  simp only [cc0__exp_kernel_eq_skeleton]; unfold cc0__exp_kernel_skel
  unfold owns
  iintro ⟨⟨%f0, %hf0, H0⟩, ⟨%d1, %f1, -, H1⟩, ⟨%d2, %f2, -, H2⟩, ⟨%d3, %f3, -, H3⟩, ⟨%d4, %f4, -, H4⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _)
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  iexists _; isplitr
  swap; · iexact H4
  ipureintro
  exact View.read_writes_eq_canon _ _ _ (cover0 _)

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the pipeline on core `c`: the arrays as the region finds them (`V`); after the body at point
    `t` the input's buffer at its block and each output's at `out0_k` of the input block; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
    | ⟨3, _⟩ => out0_3 (iblk0 V c 0 t)
    | ⟨4, _⟩ => out0_4 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 0 t) := by dsimp only [dat0]
theorem after0_4 (c : Dev nD) (t : Fin cfg0.N) : (dat0 V c).after 4 t = out0_4 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the input's memref holds its block (`before0_0`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) _)
  isplitl [H0]; · iexact H0
  isplitl [H1]; · iexists _; iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KI.LossRuns.lean ====
import proofs.«138174_j12378095747451_2_alg».proof.Proof.Gen.KernelIdeal.Launch
import proofs.«138174_j12378095747451_2_alg».proof.Proof.Gen.KernelIdeal.Skeleton
import proofs.«138174_j12378095747451_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the loss kernel, a scratch accumulator carried between grid points): what its runs share -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (zero the accumulator), from the grid coordinate. -/
abbrev cond1_0 (i : grid1.Coords) : Prop := (Scalar.cmpi .ne (Scalar.extui (Scalar.cmpi .eq (BitVec.ofNat 32 (i 0).val) 0#32)) 0#32) = 1#1
/-- It holds at the first point only — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second conditional (divide the accumulator into the output), from the grid coordinate. -/
abbrev cond1_1 (i : grid1.Coords) : Prop := k1_cond2 i = 1#1
/-- It holds at the last point only — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the first point the output window is idle: nothing is stored into it, -/
theorem idleAt1_3_A : ∀ t : Fin cfg1.N, cond1_0 (grid1.coords t) → ¬cond1_1 (grid1.coords t) → cfg1.idle 3 (grid1.coords t) = true := by decide +kernel
/-- and its block is not written back. -/
theorem noFlush1_3_A : ∀ t : Fin cfg1.N, cond1_0 (grid1.coords t) → ¬cond1_1 (grid1.coords t) → (cfg1.win 3).flush t = false := by decide +kernel
/-- The same at the points strictly between the first and the last. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last point the output window is live: the body stores into it. -/
theorem liveAt1_3_C : ∀ t : Fin cfg1.N, ¬cond1_0 (grid1.coords t) → cond1_1 (grid1.coords t) → cfg1.idle 3 (grid1.coords t) = false := by decide +kernel

/-! ## The staging and scratch memrefs -/

/-- The one staging buffer of output window 3, through which its contents are stated. -/
abbrev VO1_3 : View sig .tc .vmem S1x1 .f32 := (Memref.whole cc1_stg3_0 : Memref sig .tc .vmem S1x1 .f32).view
/-- Each window's current staging memref at point `t`, as the pipeline passes it, and its wholeness. -/
abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S1x1 .f32 := Memref.whole cc1_scratch0
/-- The accumulator the kernel carries between points, as a view: what it holds is stated through it. -/
abbrev VS1_0 : View sig .tc .vmem S1x1 .f32 := scM1_0.view

/-- The region's invariant with the scratch operand as a memref owned at some contents, every other scoped buffer
    (the other region's staging buffers) at anything: what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KI.LossRunA.lean ====
import proofs.«138174_j12378095747451_2_alg».proof.Proof.KI.LossRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output's staging memref and in the accumulator, as pieces (last first), at the
    first point (the accumulator zeroed, the output not stored), with the proof that on whole memrefs — the inputs' at
    their contents, the output's at contents handed back untouched, the accumulator at anything (it is stored whole
    before it is read) — the body runs to the continuation holding the inputs as they were and the accumulator with its
    pieces written. -/
noncomputable def kernelRun1_A (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S1024x128 .f32) (x1 : Vec F S1024x128 .f32) (x2 : Vec F S1024x128 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨[], ?_, fun xi3 E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.KI.LossRunB.lean ====
import proofs.«138174_j12378095747451_2_alg».proof.Proof.KI.LossRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output's staging memref and in the accumulator, as pieces (last first), at a point
    strictly between the first and the last (neither conditional taken), with the proof that on whole memrefs — the
    inputs' at their contents, the output's at contents handed back untouched, the accumulator at what the point before
    left — the body runs to the continuation holding the inputs as they were and the accumulator with its pieces written. -/
noncomputable def kernelRun1_B (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S1024x128 .f32) (x1 : Vec F S1024x128 .f32) (x2 : Vec F S1024x128 .f32) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨[], ?_, fun xi3 E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Hand

end
-- ==== Proof.KI.LossRunC.lean ====
import proofs.«138174_j12378095747451_2_alg».proof.Proof.KI.LossRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- What the body's stores leave in the output's staging memref and in the accumulator, as pieces (last first), at the
    last point (the accumulator not zeroed, the output stored), with the proof that on whole memrefs — the inputs' at
    their contents, the output's at anything, the accumulator at what the point before left — the body runs to the
    continuation holding the inputs as they were and the output and the accumulator with their pieces written. -/
noncomputable def kernelRun1_C (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x128 .f32) (x1 : Vec F S1024x128 .f32) (x2 : Vec F S1024x128 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg1 harg1 arg2 harg2 arg3 harg3 arg4 harg4 arg5 harg5) K } := by
  refine ⟨?_, ?_, fun E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Hand

end
-- ==== Proof.KI.LossRegion.lean ====
import proofs.«138174_j12378095747451_2_alg».proof.Proof.KI.LossRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the loss kernel): what the output and the accumulator hold point by point, the proof data, the body
    obligation -/

/-- The first point stores nothing into the output window (idle there and not written back): no pieces — a placeholder that nothing consults. -/
def out1_A_3 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S1024x128 .f32) (x1 : Vec F S1024x128 .f32) (x2 : Vec F S1024x128 .f32) : Vec F S1x1 .f32 :=
  VO1_3.read (Elt F) (VO1_3.writes (Elt F) VO1_3.junk (kernelRun1_A c i arg1 harg1 arg2 harg2 arg3 harg3 arg4 harg4 arg5 harg5 hc0 hc1 x0 x1 x2).1)

/-- The pieces stored into the accumulator at such a point cover it (one piece of the whole shape). -/
theorem scover1_A_0 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S1024x128 .f32) (x1 : Vec F S1024x128 .f32) (x2 : Vec F S1024x128 .f32) (y : S1x1.Idx) :
    ∃ pc ∈ (kernelRun1_A c i arg1 harg1 arg2 harg2 arg3 harg3 arg4 harg4 arg5 harg5 hc0 hc1 x0 x1 x2).2.1, y ∈ pc.1.set :=
  View.cover_of_tiledL (kernelRun1_A c i arg1 harg1 arg2 harg2 arg3 harg3 arg4 harg4 arg5 harg5 hc0 hc1 x0 x1 x2).2.1 S1x1.size (by sl_kernel_rfl) y

/-- What such a point leaves in the accumulator: its pieces read back over junk. -/
def sout1_A_0 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S1024x128 .f32) (x1 : Vec F S1024x128 .f32) (x2 : Vec F S1024x128 .f32) : Vec F S1x1 .f32 :=
  VS1_0.read (Elt F) (VS1_0.writes (Elt F) VS1_0.junk (kernelRun1_A c i arg1 harg1 arg2 harg2 arg3 harg3 arg4 harg4 arg5 harg5 hc0 hc1 x0 x1 x2).2.1)

/-- A point strictly between the first and the last stores nothing into the output window: no pieces — a placeholder that nothing consults. -/
def out1_B_3 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S1024x128 .f32) (x1 : Vec F S1024x128 .f32) (x2 : Vec F S1024x128 .f32) (xs0 : Vec F S1x1 .f32) : Vec F S1x1 .f32 :=
  VO1_3.read (Elt F) (VO1_3.writes (Elt F) VO1_3.junk (kernelRun1_B c i arg1 harg1 arg2 harg2 arg3 harg3 arg4 harg4 arg5 harg5 hc0 hc1 x0 x1 x2 xs0).1)

/-- The pieces stored into the accumulator at such a point cover it (one piece of the whole shape). -/
theorem scover1_B_0 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S1024x128 .f32) (x1 : Vec F S1024x128 .f32) (x2 : Vec F S1024x128 .f32) (xs0 : Vec F S1x1 .f32) (y : S1x1.Idx) :
    ∃ pc ∈ (kernelRun1_B c i arg1 harg1 arg2 harg2 arg3 harg3 arg4 harg4 arg5 harg5 hc0 hc1 x0 x1 x2 xs0).2.1, y ∈ pc.1.set :=
  View.cover_of_tiledL (kernelRun1_B c i arg1 harg1 arg2 harg2 arg3 harg3 arg4 harg4 arg5 harg5 hc0 hc1 x0 x1 x2 xs0).2.1 S1x1.size (by sl_kernel_rfl) y

/-- What such a point leaves in the accumulator: its pieces read back over junk. -/
def sout1_B_0 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S1024x128 .f32) (x1 : Vec F S1024x128 .f32) (x2 : Vec F S1024x128 .f32) (xs0 : Vec F S1x1 .f32) : Vec F S1x1 .f32 :=
  VS1_0.read (Elt F) (VS1_0.writes (Elt F) VS1_0.junk (kernelRun1_B c i arg1 harg1 arg2 harg2 arg3 harg3 arg4 harg4 arg5 harg5 hc0 hc1 x0 x1 x2 xs0).2.1)

/-- The last point's pieces for the output window cover its block (one store of the whole shape). -/
theorem cover1_C_3 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x128 .f32) (x1 : Vec F S1024x128 .f32) (x2 : Vec F S1024x128 .f32) (xs0 : Vec F S1x1 .f32) (y : S1x1.Idx) :
    ∃ pc ∈ (kernelRun1_C c i arg1 harg1 arg2 harg2 arg3 harg3 arg4 harg4 arg5 harg5 hc0 hc1 x0 x1 x2 xs0).1, y ∈ pc.1.set :=
  View.cover_of_tiledL (kernelRun1_C c i arg1 harg1 arg2 harg2 arg3 harg3 arg4 harg4 arg5 harg5 hc0 hc1 x0 x1 x2 xs0).1 S1x1.size (by sl_kernel_rfl) y

/-- What the last point leaves in the output window's staging buffer: its pieces read back over junk. -/
def out1_C_3 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x128 .f32) (x1 : Vec F S1024x128 .f32) (x2 : Vec F S1024x128 .f32) (xs0 : Vec F S1x1 .f32) : Vec F S1x1 .f32 :=
  VO1_3.read (Elt F) (VO1_3.writes (Elt F) VO1_3.junk (kernelRun1_C c i arg1 harg1 arg2 harg2 arg3 harg3 arg4 harg4 arg5 harg5 hc0 hc1 x0 x1 x2 xs0).1)

/-- The pieces stored into the accumulator at such a point cover it (one piece of the whole shape). -/
theorem scover1_C_0 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x128 .f32) (x1 : Vec F S1024x128 .f32) (x2 : Vec F S1024x128 .f32) (xs0 : Vec F S1x1 .f32) (y : S1x1.Idx) :
    ∃ pc ∈ (kernelRun1_C c i arg1 harg1 arg2 harg2 arg3 harg3 arg4 harg4 arg5 harg5 hc0 hc1 x0 x1 x2 xs0).2.1, y ∈ pc.1.set :=
  View.cover_of_tiledL (kernelRun1_C c i arg1 harg1 arg2 harg2 arg3 harg3 arg4 harg4 arg5 harg5 hc0 hc1 x0 x1 x2 xs0).2.1 S1x1.size (by sl_kernel_rfl) y

/-- What such a point leaves in the accumulator: its pieces read back over junk. -/
def sout1_C_0 (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x128 .f32) (x1 : Vec F S1024x128 .f32) (x2 : Vec F S1024x128 .f32) (xs0 : Vec F S1x1 .f32) : Vec F S1x1 .f32 :=
  VS1_0.read (Elt F) (VS1_0.writes (Elt F) VS1_0.junk (kernelRun1_C c i arg1 harg1 arg2 harg2 arg3 harg3 arg4 harg4 arg5 harg5 hc0 hc1 x0 x1 x2 xs0).2.1)

/-! ## What the output window and the accumulator hold after each point -/

/-- The accumulation. What the output window's staging buffer and the accumulator hold after the body at position `n`:
    the case the closed forms select at `n`, run at the point's memrefs and input blocks, the accumulator taken at
    what position `n - 1` left in it. -/
def outsAt1 (c : Dev nD) : (n : ℕ) → n < cfg1.N → Vec F S1x1 .f32 × Vec F S1x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      False.elim (by have hN : n + 1 < 8 := lt_of_lt_of_eq hn (show cfg1.N = 8 from N_1); omega)
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at the first point. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (by exfalso; have hN : n + 1 < 8 := lt_of_lt_of_eq hn (show cfg1.N = 8 from N_1); (try dsimp only at h0); omega)

/-- `outsAt1` at a point strictly between the first and the last: over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point: over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scoped buffer at anything);
    afterwards the other scoped buffers at anything, the accumulator at what the point before left in it, and the
    generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the loss pipeline on core `c`: the arrays as the region finds them (`V`); after the body at
    point `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in;
    the invariant hands the body the accumulator at what the point before left (at anything at the first point) and
    takes it back at this point's contents; the other scoped buffers, the generator register and the core's debts pass
    through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  by_cases h0 : t.val % 8 = 0
  · by_cases h1 : t.val % 8 = 7
    · exfalso; omega
    · -- the first point
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      have hz : t.val = 0 := by omega
      rw [PhiS1_castSucc V c t, PhiS1_zero V c _ _ hz, PhiA1_eq]
      iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR0 HR1 HR2 HR3 HR4 HR5 HR6 HR7 HR8 HR9 HS0 Hg]
      · isplitl [HR0 HR1 HR2 HR3 HR4 HR5 HR6 HR7 HR8 HR9 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · by_cases h1 : t.val % 8 = 7
    · -- the last point
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      have hz : t.val ≠ 0 := by omega
      rw [PhiS1_castSucc V c t, PhiS1_pos V c _ _ hz]
      iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HR0 HR1 HR2 HR3 HR4 HR5 HR6 HR7 HR8 HR9 HS0 Hg]
      · isplitl [HR0 HR1 HR2 HR3 HR4 HR5 HR6 HR7 HR8 HR9 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · -- a point strictly between
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨⟨HR0, HR1, HR2, HR3, HR4, HR5, HR6, HR7, HR8, HR9, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HR0 HR1 HR2 HR3 HR4 HR5 HR6 HR7 HR8 HR9 HS0 Hg]
      · isplitl [HR0 HR1 HR2 HR3 HR4 HR5 HR6 HR7 HR8 HR9 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HS0⟩, Hg⟩
  isplitl [HR0 HR1 HR2 HR3 HR4 HR5 HR6 HR7 HR8 HR9 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 8 := N_1; omega)

end Cert.KernelIdeal.Hand

end
-- ==== Proof.KI.Run.lean ====
import proofs.«138174_j12378095747451_2_alg».proof.Proof.KI.ExpRegion
import proofs.«138174_j12378095747451_2_alg».proof.Proof.KI.LossRegion
import proofs.«138174_j12378095747451_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at every boundary of @main: a fold from the launch memory

@main is three stretches of host operations, the first kernel region, seven stretches, the second region and one last
stretch. A stretch maps the contents by `StableHlo.after`; a region leaves its arrays at what its write-backs fold to
and every other buffer as it found it. -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
/-- The contents the first region is entered from, read at the TensorCore's references. -/
abbrev E3 : (c : Dev nD) → (b : Ref sig .tc) → Buf (Elt F) ((c : Thread nD τ).loc b) := fun c b => W3 m ρ c b
/-- After the first region: its four result arrays at what the eight write-backs leave. -/
def W4 (c : Dev nD) : Valuation τ sig (Elt F) :=
  Pipeline.withArrays spec0 c (W3 m ρ c) fun w => (dat0 (E3 m ρ) c).arrAt w cfg0.N
theorem W4_arr (c : Dev nD) (w : Fin cfg0.W) :
    W4 m ρ c (Proc.devRef .tc (Pipeline.arrRef spec0 w)) = (dat0 (E3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev E4 : (c : Dev nD) → (b : Ref sig .tc) → Buf (Elt F) ((c : Thread nD τ).loc b) := fun c b => W4 m ρ c b
theorem hF0 (c : Dev nD) (w : Fin cfg0.W) : (dat0 (E3 m ρ) c).arrAt w cfg0.N = E4 m ρ c (Pipeline.arrRef spec0 w) :=
  (W4_arr m ρ c w).symm
theorem hrest0 (c : Dev nD) : ∀ b, b ∉ Finset.univ.image (Pipeline.arrRef spec0) → E4 m ρ c b = E3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
abbrev W6 : Dev nD → Valuation τ sig (Elt F) := fun c => StableHlo.after hostOps1_1 (W5 m ρ c)
abbrev W7 : Dev nD → Valuation τ sig (Elt F) := fun c => StableHlo.after hostOps1_2 (W6 m ρ c)
abbrev W8 : Dev nD → Valuation τ sig (Elt F) := fun c => StableHlo.after hostOps1_3 (W7 m ρ c)
abbrev W9 : Dev nD → Valuation τ sig (Elt F) := fun c => StableHlo.after hostOps1_4 (W8 m ρ c)
abbrev W10 : Dev nD → Valuation τ sig (Elt F) := fun c => StableHlo.after hostOps1_5 (W9 m ρ c)
abbrev W11 : Dev nD → Valuation τ sig (Elt F) := fun c => StableHlo.after hostOps1_6 (W10 m ρ c)
/-- The contents the second region is entered from. -/
abbrev E11 : (c : Dev nD) → (b : Ref sig .tc) → Buf (Elt F) ((c : Thread nD τ).loc b) := fun c b => W11 m ρ c b
/-- After the second region: its one result array at what the last point's write-back leaves. -/
def W12 (c : Dev nD) : Valuation τ sig (Elt F) :=
  Pipeline.withArrays spec1 c (W11 m ρ c) fun w => (dat1 (E11 m ρ) c).arrAt w cfg1.N
theorem W12_arr (c : Dev nD) (w : Fin cfg1.W) :
    W12 m ρ c (Proc.devRef .tc (Pipeline.arrRef spec1 w)) = (dat1 (E11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev E12 : (c : Dev nD) → (b : Ref sig .tc) → Buf (Elt F) ((c : Thread nD τ).loc b) := fun c b => W12 m ρ c b
theorem hF1 (c : Dev nD) (w : Fin cfg1.W) : (dat1 (E11 m ρ) c).arrAt w cfg1.N = E12 m ρ c (Pipeline.arrRef spec1 w) :=
  (W12_arr m ρ c w).symm
theorem hrest1 (c : Dev nD) : ∀ b, b ∉ Finset.univ.image (Pipeline.arrRef spec1) → E12 m ρ c b = E11 m ρ c b :=
  fun b hb => W12_of_ne m ρ c b fun w e => hb (Finset.mem_image.mpr ⟨w, Finset.mem_univ _, e⟩)
abbrev W13 : Dev nD → Valuation τ sig (Elt F) := fun c => StableHlo.after hostOps2 (W12 m ρ c)

/-! ## The proof data of both pipelines and the thread state -/

/-- Both pipelines' proof data, each at the contents its region is entered from. -/
def pdatsH : (p : Fin 2) → (c : Dev nD) → Dat τ (Elt F) Unit ℕ (UR sig nD τ) ℕ (Pipeline.pin (pcfgs (F := F)) adm p) c
  | ⟨0, _⟩ => fun c => dat0 (E3 m ρ) c
  | ⟨1, _⟩ => fun c => dat1 (E11 m ρ) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
/-- A stretch of host operations as a segment, from the contents `W`. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev TH (c : Dev nD) : sProp 𝕄 := iprop(StableHlo.held (c : Thread nD τ) (Pipeline.ucRefs τ sig) (W13 m ρ c) ∗ ∃ r, prngReg c r)

/-! ## The two regions as segments -/

set_option backward.isDefEq.respectTransparency.types false in
/-- The first region: entered from every unscoped buffer at `W3`, left at `W4`. -/
def reg0H : Pipeline.RegionSeg (pcfgs (F := F)) adm (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E3 m ρ) c).loose
  hwaits := Pipeline.hwaits_of_owed_zero _ _ _ _ LH lvH 0 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec0 c (E3 m ρ c)
  hentry c := by
    rw [Pipeline.ownSems0_none]
    have hsplit := Pipeline.arrays_of_unscopedBufs (p := 0) (pcfgs (F := F)) adm (pdatsH m ρ) launch0.win launch0.arr_whole c
      ((pdatsH m ρ 0 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m ρ) ((pdatsH m ρ 0 c).share_full fun _ => rfl)
      (E3 m ρ c) (E4 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W11`, left at `W12`. Its invariant carries the
    accumulator between points; at its two ends it is the plain one (the scoped rest and the generator register). -/
def reg1H : Pipeline.RegionSeg (pcfgs (F := F)) adm (pdatsH m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E11 m ρ) c).loose
  hwaits := Pipeline.hwaits_of_owed_zero _ _ _ _ LH lvH 1 fun _ _ => rfl
  pre c := iprop(StableHlo.held (c : Thread nD τ) (Pipeline.ucRefs τ sig) (W11 m ρ c) ∗ RH c)
  post c := iprop(StableHlo.held (c : Thread nD τ) (Pipeline.ucRefs τ sig) (W12 m ρ c) ∗ RH c)
  X c := iprop(∃ r, prngReg c r)
  Y c := iprop(∃ r, prngReg c r)
  Z c := Pipeline.unscopedRest (Ix := Unit) (Name := ℕ) (U := UR sig nD τ) (Lvl := ℕ) spec1 c (E11 m ρ c)
  hentry c := by
    rw [Pipeline.ownSems0_none]
    have hsplit := Pipeline.arrays_of_unscopedBufs (p := 1) (pcfgs (F := F)) adm (pdatsH m ρ) launch1.win launch1.arr_whole c
      ((pdatsH m ρ 1 c).share_full fun _ => rfl) (E11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 1).pre c (fun _ => fullShare) (adm (F := F) 1).1
          ∗ Pipeline.scopedRest (Pipeline.pin (pcfgs (F := F)) adm 1).spec c) ⊢ (Pipeline.ΦA spec1 c : sProp 𝕄) from by
      unfold Pipeline.ΦA
      iintro ⟨Hp, -, Hr⟩
      isplitl [Hr]; · iexact Hr
      iexact Hp).trans (hin1 (E11 m ρ) c)
  hout c :=
    (hout1 (E11 m ρ) c).trans (by
      rw [Pipeline.ownSems0_none]
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdatsH m ρ) ((pdatsH m ρ 1 c).share_full fun _ => rfl)
      (E11 m ρ c) (E12 m ρ c) ((pdatsH m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's thirteen segments in order. -/
abbrev segsH : List (Pipeline.Seg (pcfgs (F := F)) adm (pdatsH m ρ) () defs₀ 𝒱H LH lvH) :=
  [ .host (hsegH hostOps0 hostOps0_sub hostOps0_fresh (W0 m ρ)),
    .host (hsegH hostOps0_1 hostOps0_1_sub hostOps0_1_fresh (W1 m ρ)),
    .host (hsegH hostOps0_2 hostOps0_2_sub hostOps0_2_fresh (W2 m ρ)),
    .region (reg0H m ρ),
    .host (hsegH hostOps1 hostOps1_sub hostOps1_fresh (W4 m ρ)),
    .host (hsegH hostOps1_1 hostOps1_1_sub hostOps1_1_fresh (W5 m ρ)),
    .host (hsegH hostOps1_2 hostOps1_2_sub hostOps1_2_fresh (W6 m ρ)),
    .host (hsegH hostOps1_3 hostOps1_3_sub hostOps1_3_fresh (W7 m ρ)),
    .host (hsegH hostOps1_4 hostOps1_4_sub hostOps1_4_fresh (W8 m ρ)),
    .host (hsegH hostOps1_5 hostOps1_5_sub hostOps1_5_fresh (W9 m ρ)),
    .host (hsegH hostOps1_6 hostOps1_6_sub hostOps1_6_fresh (W10 m ρ)),
    .region (reg1H m ρ),
    .host (hsegH hostOps2 hostOps2_sub hostOps2_fresh (W12 m ρ)) ]

/-- @main is the run of the segments. -/
theorem main_runH (c : Dev nD) : main (F := F) c = Pipeline.Seg.run (segsH m ρ) := (main_chain c).trans (by chain_rfl)

set_option backward.isDefEq.respectTransparency.types false in
/-- THE RUN. From any memory with zero counters every weakly fair execution of @main terminates, nothing faulting, and
    every unscoped buffer of every core ends at the fold's last contents `W13`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TH m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c =>
      show iprop(StableHlo.held (c : Thread nD τ) (Pipeline.ucRefs τ sig) (W13 m ρ c) ∗ RH c)
          ⊢ iprop(TH m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

/-! ## The arguments end as launched -/

/-- A buffer no stretch writes and no region stages ends holding its launch contents. -/
theorem W13_of_untouched (c : Dev nD) (r : Ref sig .tc)
    (h0 : r ∉ hostOps0_W) (h1 : r ∉ hostOps0_1_W) (h2 : r ∉ hostOps0_2_W) (h3 : ∀ w, Pipeline.arrRef spec0 w ≠ r)
    (h4 : r ∉ hostOps1_W) (h5 : r ∉ hostOps1_1_W) (h6 : r ∉ hostOps1_2_W) (h7 : r ∉ hostOps1_3_W) (h8 : r ∉ hostOps1_4_W)
    (h9 : r ∉ hostOps1_5_W) (h10 : r ∉ hostOps1_6_W) (h11 : ∀ w, Pipeline.arrRef spec1 w ≠ r) (h12 : r ∉ hostOps2_W) :
    W13 m ρ c r = m ((c : Thread nD τ).loc r) :=
  (StableHlo.after_of_writes_sub hostOps2 _ hostOps2_writes h12).trans <|
  (W12_of_ne m ρ c r h11).trans <|
  (StableHlo.after_of_writes_sub hostOps1_6 _ hostOps1_6_writes h10).trans <|
  (StableHlo.after_of_writes_sub hostOps1_5 _ hostOps1_5_writes h9).trans <|
  (StableHlo.after_of_writes_sub hostOps1_4 _ hostOps1_4_writes h8).trans <|
  (StableHlo.after_of_writes_sub hostOps1_3 _ hostOps1_3_writes h7).trans <|
  (StableHlo.after_of_writes_sub hostOps1_2 _ hostOps1_2_writes h6).trans <|
  (StableHlo.after_of_writes_sub hostOps1_1 _ hostOps1_1_writes h5).trans <|
  (StableHlo.after_of_writes_sub hostOps1 _ hostOps1_writes h4).trans <|
  (W4_of_ne m ρ c r h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

theorem W13_main_arg0 (c : Dev nD) : W13 m ρ c main_arg0 = m ((c : Thread nD τ).loc main_arg0) :=
  W13_of_untouched m ρ c main_arg0 (by decide) (by decide) (by decide) (by decide) (by decide) (by decide) (by decide) (by decide) (by decide) (by decide) (by decide) (by decide) (by decide)
theorem W13_main_arg1 (c : Dev nD) : W13 m ρ c main_arg1 = m ((c : Thread nD τ).loc main_arg1) :=
  W13_of_untouched m ρ c main_arg1 (by decide) (by decide) (by decide) (by decide) (by decide) (by decide) (by decide) (by decide) (by decide) (by decide) (by decide) (by decide) (by decide)
theorem W13_main_arg2 (c : Dev nD) : W13 m ρ c main_arg2 = m ((c : Thread nD τ).loc main_arg2) :=
  W13_of_untouched m ρ c main_arg2 (by decide) (by decide) (by decide) (by decide) (by decide) (by decide) (by decide) (by decide) (by decide) (by decide) (by decide) (by decide) (by decide)
theorem W13_main_arg3 (c : Dev nD) : W13 m ρ c main_arg3 = m ((c : Thread nD τ).loc main_arg3) :=
  W13_of_untouched m ρ c main_arg3 (by decide) (by decide) (by decide) (by decide) (by decide) (by decide) (by decide) (by decide) (by decide) (by decide) (by decide) (by decide) (by decide)

/-- THE FRAME at any `F`, with the result buffer's final contents named: every weakly fair execution of @main terminates,
    nothing faulting, the result buffer `main_v58` ends at the fold's `W13` and the four arguments as launched. -/
theorem run_named : θ_run defs (onTc (τ := τ) (main (F := F))) ⟨m, fun _ => 0, ρ⟩ (fun r => ∀ c : Dev nD,
      r.2.mem ((c.tc : Thread nD τ).loc main_v58) = W13 m ρ c main_v58
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v58 (by decide)),
     (h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c)⟩) (run_all m ρ)

/-- THE FRAME at any `F`. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_named m ρ)

end Cert.KernelIdeal.Hand

end
-- ==== Proof.Spec.lean ====
/-
  The loss both programs compute, as one closed formula over the extended reals.

  Data: the variables' values `x j` (j < 1000000), the clause targets `cc j`, and for each polarity the
  3000000 edges' words — `gp k`, `gn k` the variable an edge reads (the second row of an adjacency array), `sp k`,
  `sn k` the clause it adds to (the first row).

  A positive edge contributes the literal value `x v` weighted by `e^(5 x v)`, a negative edge `1 - x v`
  weighted by `e^(5 (1 - x v))`; a clause's numerator is the sum of the weighted values of its edges, its denominator
  the sum of the weights; the clause's score is the logistic of `10 (num / den - 1/2)`, written out as
  `1 / (1 + e^(-z))`, and the loss is the mean over the clauses of the squared distance of the score to the target.

  An edge's variable word is read as an array index the way a gather reads it (a negative word wrapped once by the
  array's length, then read signed and clamped into the array); an edge's clause word the way a scatter reads it
  (signed, NOT clamped: an edge whose clause word is outside `[0, 1000000)` contributes to no clause).
-/
import Idealize.ShloMosaic.PureOps.Ideal
import Idealize.ShloMosaic.Lib.ValueIdx

noncomputable section

open scoped BigOperators

namespace Cert.Spec

open Idealize.ShloMosaic

/-- The literals of the two programs, as the extended reals their words denote. -/
def one : EReal := Ideal.ofBits .f32 0x3F800000#32
def five : EReal := Ideal.ofBits .f32 0x40A00000#32
def half : EReal := Ideal.ofBits .f32 0x3F000000#32
def ten : EReal := Ideal.ofBits .f32 0x41200000#32
def million : EReal := Ideal.ofBits .f32 0x49742400#32

/-- A variable word wrapped once when negative (an index counted from the array's end). -/
def wrap (w : BitVec 32) : BitVec 32 :=
  Scalar.select (Scalar.cmpi .slt w 0#32) (Scalar.addi w 1000000#32) w

/-- The variable a gather reads at the word `w`: signed, clamped into `[0, 999999]`. -/
def varOf (w : BitVec 32) : Fin 1000000 := ⟨min w.toInt.toNat (1000000 - 1), by omega⟩

/-- The clause a scatter adds to at the word `w`: signed, and none when outside `[0, 1000000)`. -/
def clauseOf (w : BitVec 32) : Option (Fin 1000000) :=
  if h : 0 ≤ w.toInt ∧ w.toInt < 1000000 then some ⟨w.toInt.toNat, by omega⟩ else none

section

variable (x cc : Fin 1000000 → EReal) (gp gn sp sn : Fin 3000000 → BitVec 32)

/-- The weight and the weighted value of a positive literal of variable `v`, and of a negative one. -/
def wPos (v : Fin 1000000) : EReal := Ideal.exp (five * x v)
def vPos (v : Fin 1000000) : EReal := x v * Ideal.exp (five * x v)
def wNeg (v : Fin 1000000) : EReal := Ideal.exp (five * (one - x v))
def vNeg (v : Fin 1000000) : EReal := (one - x v) * Ideal.exp (five * (one - x v))

/-- A clause's numerator: the weighted values of its positive edges, then of its negative edges. -/
def num (j : Fin 1000000) : EReal :=
  (∑ k ∈ Finset.univ.filter (fun k => clauseOf (sp k) = some j), vPos x (varOf (wrap (gp k))))
    + ∑ k ∈ Finset.univ.filter (fun k => clauseOf (sn k) = some j), vNeg x (varOf (wrap (gn k)))

/-- A clause's denominator: the weights of its positive edges, then of its negative edges. -/
def den (j : Fin 1000000) : EReal :=
  (∑ k ∈ Finset.univ.filter (fun k => clauseOf (sp k) = some j), wPos x (varOf (wrap (gp k))))
    + ∑ k ∈ Finset.univ.filter (fun k => clauseOf (sn k) = some j), wNeg x (varOf (wrap (gn k)))

/-- The logistic of `z`, written out. -/
def sigm (z : EReal) : EReal := Ideal.div one (one + Ideal.exp (-z))

/-- A clause's squared error. -/
def sqErr (j : Fin 1000000) : EReal :=
  (sigm (ten * (Ideal.div (num x gp gn sp sn j) (den x gp gn sp sn j) - half)) - cc j)
    * (sigm (ten * (Ideal.div (num x gp gn sp sn j) (den x gp gn sp sn j) - half)) - cc j)

/-- The loss: the mean squared error over the clauses. -/
def loss : EReal := Ideal.div (∑ j : Fin 1000000, sqErr x cc gp gn sp sn j) million

end

/-! ## The same, entry by entry: the scalar functions the kernels apply -/

/-- The four per-variable quantities as functions of the variable's value `r`. -/
def eP (r : EReal) : EReal := Ideal.exp (five * r)
def vP (r : EReal) : EReal := r * Ideal.exp (five * r)
def eN (r : EReal) : EReal := Ideal.exp (five * (one - r))
def vN (r : EReal) : EReal := (one - r) * Ideal.exp (five * (one - r))

theorem wPos_eq (x : Fin 1000000 → EReal) (v : Fin 1000000) : wPos x v = eP (x v) := rfl
theorem vPos_eq (x : Fin 1000000 → EReal) (v : Fin 1000000) : vPos x v = vP (x v) := rfl
theorem wNeg_eq (x : Fin 1000000 → EReal) (v : Fin 1000000) : wNeg x v = eN (x v) := rfl
theorem vNeg_eq (x : Fin 1000000 → EReal) (v : Fin 1000000) : vNeg x v = vN (x v) := rfl

/-- One clause's squared error from its numerator `n`, its denominator `d` and its target `c`. -/
def sq (n d c : EReal) : EReal :=
  (sigm (ten * (Ideal.div n d - half)) - c) * (sigm (ten * (Ideal.div n d - half)) - c)

theorem sqErr_eq (x cc : Fin 1000000 → EReal) (gp gn sp sn : Fin 3000000 → BitVec 32) (j : Fin 1000000) :
    sqErr x cc gp gn sp sn j = sq (num x gp gn sp sn j) (den x gp gn sp sn j) (cc j) := rfl

/-- The padded layout's cell at flat position `q` (row-major in 8192 rows of 128): a clause's squared error when `q` is a
    clause, nothing when `q` is padding. -/
def cell (q : Nat) (n d c : EReal) : EReal := if q < 1000000 then sq n d c else 0

end Cert.Spec

end
-- ==== Proof.KI.Payloads.lean ====
import proofs.«138174_j12378095747451_2_alg».proof.Proof.Gen.KernelIdeal.Skeleton
import proofs.«138174_j12378095747451_2_alg».proof.Proof.Spec
import Idealize.ShloMosaic.Lib.ValueIdx
import Idealize.ShloMosaic.Lib.Pipeline.Value
import Idealize.ShloMosaic.Lib.ValueLayout
import Idealize.ShloMosaic.PureOps.Ideal.Laws

/-!
# The kernels' payloads read at an index, over the extended reals

Each value a kernel body stores is a tree of pointwise operations, two lane/row sums and shape casts of the blocks it
loaded. Read at one index over the extended reals these are the scalar functions of `Cert.Spec`: the four
per-variable quantities of the first kernel; for the second kernel the zeroed accumulator, the accumulator's update by
the sum of a column, the final division by the number of clauses, and a row's sum of the masked squared errors.
-/

set_option maxRecDepth 16384

noncomputable section

open scoped BigOperators

namespace Cert.KernelIdeal.Hand

open Cert.KernelIdeal Cert.KernelIdeal.Gen
open Idealize.ShloMosaic Idealize.ShloMosaic.ValueIdx

/-! ## The first kernel: four pointwise payloads -/

/-- The body's shape cast of the loaded block to its own shape changes nothing. -/
theorem pay_cast (x : Vec Ideal S1024x128 .f32) : k0_pay1 (F := Ideal) x = x := by
  unfold k0_pay1; exact shapeCast_self _ _

/-- `1 - x`, entry by entry. -/
theorem pay_oneSub (x : Vec Ideal S1024x128 .f32) (i : S1024x128.Idx) : k0_pay2 (F := Ideal) x i = Cert.Spec.one - x i := by
  unfold k0_pay2; rw [pay_cast]; rfl

/-- `e^(5x)`. -/
theorem pay_eP (x : Vec Ideal S1024x128 .f32) (i : S1024x128.Idx) : k0_pay3 (F := Ideal) x i = Cert.Spec.eP (x i) := by
  unfold k0_pay3; rw [pay_cast]; rfl

/-- `e^(5(1-x))`. -/
theorem pay_eN (x : Vec Ideal S1024x128 .f32) (i : S1024x128.Idx) : k0_pay4 (F := Ideal) x i = Cert.Spec.eN (x i) := by
  show Ideal.exp (Cert.Spec.five * k0_pay2 (F := Ideal) x i) = _
  rw [pay_oneSub]; rfl

/-- `x·e^(5x)`. -/
theorem pay_vP (x : Vec Ideal S1024x128 .f32) (i : S1024x128.Idx) : k0_pay5 (F := Ideal) x i = Cert.Spec.vP (x i) := by
  show k0_pay1 (F := Ideal) x i * k0_pay3 (F := Ideal) x i = _
  rw [pay_cast, pay_eP]; rfl

/-- `(1-x)·e^(5(1-x))`. -/
theorem pay_vN (x : Vec Ideal S1024x128 .f32) (i : S1024x128.Idx) : k0_pay6 (F := Ideal) x i = Cert.Spec.vN (x i) := by
  show k0_pay2 (F := Ideal) x i * k0_pay4 (F := Ideal) x i = _
  rw [pay_oneSub, pay_eN]; rfl

/-! ## The second kernel: the accumulator's three payloads -/

/-- The accumulator is zeroed with the zero word, which is the real `0`. -/
theorem pay_zero : k1_pay3 (F := Ideal) (ix2 (0 : Fin 1) (0 : Fin 1)) = 0 := by
  unfold k1_pay3; rw [shapeCast_self]
  exact Ideal.ofBits_zero_f32

/-- The accumulator's update: what it held plus the sum of the column of row sums (the sum over axis 0 of a [1024,1]
    vector, cast from [1] to [1,1]). -/
theorem pay_acc (v38 : FVec Ideal S1024x1 .f32) (v41 : Vec Ideal S1x1 .f32) :
    k1_pay1 (F := Ideal) v38 v41 (ix2 (0 : Fin 1) (0 : Fin 1)) = v41 (ix2 0 0) + ∑ r : Fin 1024, v38 (ix2 r (0 : Fin 1)) := by
  unfold k1_pay1; rw [shapeCast_self]
  rw [addf_apply]
  refine congrArg (v41 (ix2 0 0) + ·) ?_
  refine (shapeCast_apply _ _ (ix2 (0 : Fin 1) (0 : Fin 1)) (ix1 (0 : Fin 1)) ?_).trans ?_
  · rw [Shape.rowMajor_val_one, Shape.rowMajor_val_two]; rfl
  refine (Ideal.multiReduction_add_single v38 _ _ _ _ (ix1 (0 : Fin 1))).trans ?_
  refine Finset.sum_congr rfl fun r _ => congrArg v38 (funext fun a => ?_)
  match a with
  | ⟨0, _⟩ => rfl
  | ⟨1, _⟩ => rfl

/-- The output: the accumulator divided by the number of clauses. -/
theorem pay_fin (v49 : Vec Ideal S1x1 .f32) :
    k1_pay2 (F := Ideal) v49 (ix2 (0 : Fin 1) (0 : Fin 1)) = Ideal.div (v49 (ix2 0 0)) Cert.Spec.million := by
  unfold k1_pay2; rfl

end Cert.KernelIdeal.Hand

end
-- ==== Proof.KI.ExpValue.lean ====
/-
  The first region's four result arrays after the run, each as one function of the array it read: entry by entry
  `x e^(5x)`, `e^(5x)`, `(1 - x) e^(5(1 - x))`, `e^(5(1 - x))`. Point `t` of the grid reads rows
  `[1024 t, 1024 t + 1024)` of the input and writes the same rows of each result; the eight blocks tile the 8192 rows.
-/
import proofs.«138174_j12378095747451_2_alg».proof.Proof.KI.ExpRegion
import proofs.«138174_j12378095747451_2_alg».proof.Proof.KI.Payloads

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

/-- The printed index maps, decided over the grid: every window's block at point `t` is block row `t`, block column 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## Result window 1 -/

/-- What point `t` writes back is block `t` of the entrywise function of the input array. -/
theorem flushed0_1_eq (c : Dev nD) (t : Fin cfg0.N) :
    (dat0 V c).flushed 1 t = ((cfg0.win 1).blk t).view.read (Elt Ideal) (fun i => Cert.Spec.vP (V c main_v2 i)) := by
  show (cfg0.win 1).cut (grid0.coords t) ((dat0 V c).after 1 t) = _
  rw [after0_1, out0_1_eq]
  obtain ⟨e00, e01, e10, e11, e20, e21, e30, e31, e40, e41⟩ := idx_facts0 t
  funext j
  refine (pay_vP (iblk0 V c 0 t) j).trans ?_
  show Cert.Spec.vP (V c main_v2 (((cfg0.win 0).blk t).view.emb j)) = Cert.Spec.vP (V c main_v2 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 1024 + 1 * (j 0).val = win0_1.index t (0 : Fin 2) * 1024 + 1 * (j 0).val; omega
    | ⟨1, _⟩ => show win0_0.index t (1 : Fin 2) * 128 + 1 * (j 1).val = win0_1.index t (1 : Fin 2) * 128 + 1 * (j 1).val; omega
  rw [h0]

/-- An index of the array is in point `t`'s block iff each coordinate is in the block's range on its axis. -/
theorem mem_blk0_1 (t : Fin cfg0.N) (i : S8192x128.Idx) :
    i ∈ ((cfg0.win 1).blk t).view.set ↔ ∀ a : Fin 2, win0_1.index t a * S1024x128.size a ≤ (i a).val ∧ (i a).val < win0_1.index t a * S1024x128.size a + S1024x128.size a := by
  show i ∈ ((View.whole main_v3_0).slice (win0_1.rect t)).set ↔ _
  rw [View.set_slice_whole, Rect.mem_set_unit]
  exact Iff.rfl

/-- Every index is in the block of the point its row falls in. -/
theorem cover0_1 (i : S8192x128.Idx) :
    ∃ t : Fin cfg0.N, (cfg0.win 1).flush t = true ∧ i ∈ ((cfg0.win 1).blk t).view.set := by
  have hi0 : (i 0).val < 8192 := (i 0).isLt
  have hi1 : (i 1).val < 128 := (i 1).isLt
  have hN : cfg0.N = 8 := N_0
  refine ⟨⟨(i 0).val / 1024, by rw [hN]; omega⟩, flush0_1 _, ?_⟩
  rw [mem_blk0_1]
  obtain ⟨e00, e01, e10, e11, e20, e21, e30, e31, e40, e41⟩ := idx_facts0 ⟨(i 0).val / 1024, by rw [hN]; omega⟩
  intro a
  match a with
  | ⟨0, _⟩ => show win0_1.index _ (0 : Fin 2) * 1024 ≤ (i 0).val ∧ (i 0).val < win0_1.index _ (0 : Fin 2) * 1024 + 1024; simp only [] at e10; omega
  | ⟨1, _⟩ => show win0_1.index _ (1 : Fin 2) * 128 ≤ (i 1).val ∧ (i 1).val < win0_1.index _ (1 : Fin 2) * 128 + 128; omega

/-- The array after the run. -/
theorem final0_1 (c : Dev nD) : (dat0 V c).arrAt 1 cfg0.N = fun i => Cert.Spec.vP (V c main_v2 i) :=
  (dat0 V c).arrAt_eq_of_cover 1 (fun i => Cert.Spec.vP (V c main_v2 i)) (fun t _ => flushed0_1_eq V c t) (cover0_1)

/-! ## Result window 2 -/

/-- What point `t` writes back is block `t` of the entrywise function of the input array. -/
theorem flushed0_2_eq (c : Dev nD) (t : Fin cfg0.N) :
    (dat0 V c).flushed 2 t = ((cfg0.win 2).blk t).view.read (Elt Ideal) (fun i => Cert.Spec.eP (V c main_v2 i)) := by
  show (cfg0.win 2).cut (grid0.coords t) ((dat0 V c).after 2 t) = _
  rw [after0_2, out0_2_eq]
  obtain ⟨e00, e01, e10, e11, e20, e21, e30, e31, e40, e41⟩ := idx_facts0 t
  funext j
  refine (pay_eP (iblk0 V c 0 t) j).trans ?_
  show Cert.Spec.eP (V c main_v2 (((cfg0.win 0).blk t).view.emb j)) = Cert.Spec.eP (V c main_v2 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 128 + 1 * (j 1).val = win0_2.index t (1 : Fin 2) * 128 + 1 * (j 1).val; omega
  rw [h0]

/-- An index of the array is in point `t`'s block iff each coordinate is in the block's range on its axis. -/
theorem mem_blk0_2 (t : Fin cfg0.N) (i : S8192x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v3_1).slice (win0_2.rect t)).set ↔ _
  rw [View.set_slice_whole, Rect.mem_set_unit]
  exact Iff.rfl

/-- Every index is in the block of the point its row falls in. -/
theorem cover0_2 (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  have hN : cfg0.N = 8 := N_0
  refine ⟨⟨(i 0).val / 1024, by rw [hN]; omega⟩, flush0_2 _, ?_⟩
  rw [mem_blk0_2]
  obtain ⟨e00, e01, e10, e11, e20, e21, e30, e31, e40, e41⟩ := idx_facts0 ⟨(i 0).val / 1024, by rw [hN]; omega⟩
  intro a
  match a with
  | ⟨0, _⟩ => show win0_2.index _ (0 : Fin 2) * 1024 ≤ (i 0).val ∧ (i 0).val < win0_2.index _ (0 : Fin 2) * 1024 + 1024; simp only [] at e20; omega
  | ⟨1, _⟩ => show win0_2.index _ (1 : Fin 2) * 128 ≤ (i 1).val ∧ (i 1).val < win0_2.index _ (1 : Fin 2) * 128 + 128; omega

/-- The array after the run. -/
theorem final0_2 (c : Dev nD) : (dat0 V c).arrAt 2 cfg0.N = fun i => Cert.Spec.eP (V c main_v2 i) :=
  (dat0 V c).arrAt_eq_of_cover 2 (fun i => Cert.Spec.eP (V c main_v2 i)) (fun t _ => flushed0_2_eq V c t) (cover0_2)

/-! ## Result window 3 -/

/-- What point `t` writes back is block `t` of the entrywise function of the input array. -/
theorem flushed0_3_eq (c : Dev nD) (t : Fin cfg0.N) :
    (dat0 V c).flushed 3 t = ((cfg0.win 3).blk t).view.read (Elt Ideal) (fun i => Cert.Spec.vN (V c main_v2 i)) := by
  show (cfg0.win 3).cut (grid0.coords t) ((dat0 V c).after 3 t) = _
  rw [after0_3, out0_3_eq]
  obtain ⟨e00, e01, e10, e11, e20, e21, e30, e31, e40, e41⟩ := idx_facts0 t
  funext j
  refine (pay_vN (iblk0 V c 0 t) j).trans ?_
  show Cert.Spec.vN (V c main_v2 (((cfg0.win 0).blk t).view.emb j)) = Cert.Spec.vN (V c main_v2 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 128 + 1 * (j 1).val = win0_3.index t (1 : Fin 2) * 128 + 1 * (j 1).val; omega
  rw [h0]

/-- An index of the array is in point `t`'s block iff each coordinate is in the block's range on its axis. -/
theorem mem_blk0_3 (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v3_2).slice (win0_3.rect t)).set ↔ _
  rw [View.set_slice_whole, Rect.mem_set_unit]
  exact Iff.rfl

/-- Every index is in the block of the point its row falls in. -/
theorem cover0_3 (i : S8192x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  have hN : cfg0.N = 8 := N_0
  refine ⟨⟨(i 0).val / 1024, by rw [hN]; omega⟩, flush0_3 _, ?_⟩
  rw [mem_blk0_3]
  obtain ⟨e00, e01, e10, e11, e20, e21, e30, e31, e40, e41⟩ := idx_facts0 ⟨(i 0).val / 1024, by rw [hN]; omega⟩
  intro a
  match a with
  | ⟨0, _⟩ => show win0_3.index _ (0 : Fin 2) * 1024 ≤ (i 0).val ∧ (i 0).val < win0_3.index _ (0 : Fin 2) * 1024 + 1024; simp only [] at e30; omega
  | ⟨1, _⟩ => show win0_3.index _ (1 : Fin 2) * 128 ≤ (i 1).val ∧ (i 1).val < win0_3.index _ (1 : Fin 2) * 128 + 128; omega

/-- The array after the run. -/
theorem final0_3 (c : Dev nD) : (dat0 V c).arrAt 3 cfg0.N = fun i => Cert.Spec.vN (V c main_v2 i) :=
  (dat0 V c).arrAt_eq_of_cover 3 (fun i => Cert.Spec.vN (V c main_v2 i)) (fun t _ => flushed0_3_eq V c t) (cover0_3)

/-! ## Result window 4 -/

/-- What point `t` writes back is block `t` of the entrywise function of the input array. -/
theorem flushed0_4_eq (c : Dev nD) (t : Fin cfg0.N) :
    (dat0 V c).flushed 4 t = ((cfg0.win 4).blk t).view.read (Elt Ideal) (fun i => Cert.Spec.eN (V c main_v2 i)) := by
  show (cfg0.win 4).cut (grid0.coords t) ((dat0 V c).after 4 t) = _
  rw [after0_4, out0_4_eq]
  obtain ⟨e00, e01, e10, e11, e20, e21, e30, e31, e40, e41⟩ := idx_facts0 t
  funext j
  refine (pay_eN (iblk0 V c 0 t) j).trans ?_
  show Cert.Spec.eN (V c main_v2 (((cfg0.win 0).blk t).view.emb j)) = Cert.Spec.eN (V c main_v2 (((cfg0.win 4).blk t).view.emb j))
  have h0 : ((cfg0.win 0).blk t).view.emb j = ((cfg0.win 4).blk t).view.emb j := by
    funext a; apply Fin.ext
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 128 + 1 * (j 1).val = win0_4.index t (1 : Fin 2) * 128 + 1 * (j 1).val; omega
  rw [h0]

/-- An index of the array is in point `t`'s block iff each coordinate is in the block's range on its axis. -/
theorem mem_blk0_4 (t : Fin cfg0.N) (i : S8192x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v3_3).slice (win0_4.rect t)).set ↔ _
  rw [View.set_slice_whole, Rect.mem_set_unit]
  exact Iff.rfl

/-- Every index is in the block of the point its row falls in. -/
theorem cover0_4 (i : S8192x128.Idx) :
    ∃ t : Fin cfg0.N, (cfg0.win 4).flush t = true ∧ i ∈ ((cfg0.win 4).blk t).view.set := by
  have hi0 : (i 0).val < 8192 := (i 0).isLt
  have hi1 : (i 1).val < 128 := (i 1).isLt
  have hN : cfg0.N = 8 := N_0
  refine ⟨⟨(i 0).val / 1024, by rw [hN]; omega⟩, flush0_4 _, ?_⟩
  rw [mem_blk0_4]
  obtain ⟨e00, e01, e10, e11, e20, e21, e30, e31, e40, e41⟩ := idx_facts0 ⟨(i 0).val / 1024, by rw [hN]; omega⟩
  intro a
  match a with
  | ⟨0, _⟩ => show win0_4.index _ (0 : Fin 2) * 1024 ≤ (i 0).val ∧ (i 0).val < win0_4.index _ (0 : Fin 2) * 1024 + 1024; simp only [] at e40; omega
  | ⟨1, _⟩ => show win0_4.index _ (1 : Fin 2) * 128 ≤ (i 1).val ∧ (i 1).val < win0_4.index _ (1 : Fin 2) * 128 + 128; omega

/-- The array after the run. -/
theorem final0_4 (c : Dev nD) : (dat0 V c).arrAt 4 cfg0.N = fun i => Cert.Spec.eN (V c main_v2 i) :=
  (dat0 V c).arrAt_eq_of_cover 4 (fun i => Cert.Spec.eN (V c main_v2 i)) (fun t _ => flushed0_4_eq V c t) (cover0_4)

end Cert.KernelIdeal.Hand

end
-- ==== Proof.KI.HostValue.lean ====
/-
  The host's layout steps around the two grid regions, read at an index, at the ideal values.

  Before the first region the variables' column [1000000, 1] is flattened, padded with zeros to 1048576 entries and
  laid out as 8192 rows of 128: entry (p, l) of the result is entry 128 p + l of the column when that is below
  1000000, and zero otherwise. Before the second region the clauses' numerators, denominators and targets are padded
  and laid out the same way. After the second region the [1, 1] result is read as a scalar.
-/
import proofs.«138174_j12378095747451_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws
import proofs.«138174_j12378095747451_2_alg».proof.Proof.Spec

set_option maxRecDepth 16384

noncomputable section

namespace Cert.KernelIdeal.Hand

open Cert.KernelIdeal Cert.KernelIdeal.Gen Idealize.ShloMosaic Idealize.ShloMosaic.TcCoe Idealize.ShloMosaic.StableHlo
  Idealize.ShloMosaic.ValueIdx

/-- A vector of 1000000 entries padded at the end to 1048576 and laid out row-major as [8192, 128], at row `p` and
    lane `l`: the vector's entry `128 p + l` when there is one, the padding value otherwise. -/
theorem padded_apply {α : Type} (X : S1000000.Idx → α) (z : S_.Idx → α) (p : Fin 8192) (l : Fin 128) :
    shapeCast S8192x128 (pad S1048576 ![0] ![48576] ![0] X z pads_S1000000_S1048576_0485760 h_S_)
        shapeCasts_S1048576_S8192x128 (ix2 p l)
      = if h : 128 * p.val + l.val < 1000000 then X (ix1 ⟨128 * p.val + l.val, h⟩) else z ix0 := by
  have hq : 128 * p.val + l.val < 1048576 := by omega
  refine (shapeCast_apply _ shapeCasts_S1048576_S8192x128 (ix2 p l) (ix1 ⟨128 * p.val + l.val, hq⟩) (by
    rw [Shape.rowMajor_val_two, Shape.rowMajor_val_one]
    show 128 * p.val + l.val = p.val * 128 + l.val; omega)).trans ?_
  split
  · next h =>
    exact pad_apply_of_inside _ _ _ X z pads_S1000000_S1048576_0485760 h_S_ _ (ix1 ⟨_, h⟩) (fun a => match a with
      | ⟨0, _⟩ => by show 128 * p.val + l.val = 0 + (128 * p.val + l.val) * (0 + 1); omega)
  · next h =>
    refine (pad_apply_of_not_inside _ _ _ X z pads_S1000000_S1048576_0485760 h_S_ _ (0 : Fin 1) ?_).trans
      (congrArg z (funext fun a => a.elim0))
    show ¬ (0 ≤ 128 * p.val + l.val ∧ (128 * p.val + l.val - 0) % (0 + 1) = 0
      ∧ (128 * p.val + l.val - 0) / (0 + 1) < 1000000)
    omega

/-- The padding scalar — the integer zero converted — is the real zero. -/
theorem padZero_apply : (sitofp (F := Ideal) .f32 (constantI S_ 32 0#32) : S_.Idx → EReal) ix0 = 0 := by
  show (((0#32 : BitVec 32).toInt : ℝ) : EReal) = 0
  simp

/-- What the first region's input window holds: the padded layout of the variables' column. -/
theorem entry0_apply (V : Valuation τ sig (Elt Ideal)) (p : Fin 8192) (l : Fin 128) :
    (StableHlo.after hostOps0_2 (StableHlo.after hostOps0_1 (StableHlo.after hostOps0 V)) (Proc.devRef .tc main_v2)
        : S8192x128.Idx → EReal) (ix2 p l)
      = if h : 128 * p.val + l.val < 1000000 then
          (V (Proc.devRef .tc main_arg0) : S1000000x1.Idx → EReal) (ix2 ⟨128 * p.val + l.val, h⟩ (0 : Fin 1))
        else (0 : EReal) := by
  have e : (StableHlo.after hostOps0_2 (StableHlo.after hostOps0_1 (StableHlo.after hostOps0 V)) (Proc.devRef .tc main_v2)
        : S8192x128.Idx → EReal)
      = shapeCast S8192x128 (pad S1048576 ![0] ![48576] ![0]
          (shapeCast S1000000 (V (Proc.devRef .tc main_arg0) : S1000000x1.Idx → EReal) shapeCasts_S1000000x1_S1000000)
          (sitofp (F := Ideal) .f32 (constantI S_ 32 0#32)) pads_S1000000_S1048576_0485760 h_S_)
          shapeCasts_S1048576_S8192x128 := by
    after_results; rfl
  refine (congrFun e (ix2 p l)).trans ((padded_apply _ _ p l).trans ?_)
  split
  · next h =>
    exact shapeCast_apply _ shapeCasts_S1000000x1_S1000000 (ix1 ⟨_, h⟩) (ix2 ⟨_, h⟩ (0 : Fin 1)) (by
      rw [Shape.rowMajor_val_two, Shape.rowMajor_val_one]
      show (128 * p.val + l.val) * 1 + 0 = 128 * p.val + l.val; omega)
  · exact padZero_apply

/-- The long stretch between the regions ends by writing the integer zero the first pad converts. -/
theorem hostOps1_zero (V : Valuation τ sig (Elt Ideal)) :
    (StableHlo.after hostOps1 V (Proc.devRef .tc main_c_5) : S_.Idx → BitVec 32) = constantI S_ 32 0#32 := by
  after_results

/-- What the second region's first input window holds: the padded layout of the numerators (the pad's zero is the
    integer zero the preceding stretch wrote, `hc`). -/
theorem entry1_num_apply (V : Valuation τ sig (Elt Ideal))
    (hc : (V (Proc.devRef .tc main_c_5) : S_.Idx → BitVec 32) = constantI S_ 32 0#32) (p : Fin 8192) (l : Fin 128) :
    (StableHlo.after hostOps1_6 (StableHlo.after hostOps1_5 (StableHlo.after hostOps1_4 (StableHlo.after hostOps1_3
        (StableHlo.after hostOps1_2 (StableHlo.after hostOps1_1 V))))) (Proc.devRef .tc main_v54)
        : S8192x128.Idx → EReal) (ix2 p l)
      = if h : 128 * p.val + l.val < 1000000 then
          (V (Proc.devRef .tc main_v48) : S1000000.Idx → EReal) (ix1 ⟨128 * p.val + l.val, h⟩)
        else (0 : EReal) := by
  have e : (StableHlo.after hostOps1_6 (StableHlo.after hostOps1_5 (StableHlo.after hostOps1_4 (StableHlo.after hostOps1_3
        (StableHlo.after hostOps1_2 (StableHlo.after hostOps1_1 V))))) (Proc.devRef .tc main_v54)
        : S8192x128.Idx → EReal)
      = shapeCast S8192x128 (pad S1048576 ![0] ![48576] ![0]
          (V (Proc.devRef .tc main_v48) : S1000000.Idx → EReal)
          (sitofp (F := Ideal) .f32 (V (Proc.devRef .tc main_c_5) : S_.Idx → BitVec 32)) pads_S1000000_S1048576_0485760 h_S_)
          shapeCasts_S1048576_S8192x128 := by
    after_results; rfl
  rw [hc] at e
  refine (congrFun e (ix2 p l)).trans ((padded_apply _ _ p l).trans ?_)
  split
  · rfl
  · exact padZero_apply

/-- The second input window: the padded layout of the denominators. -/
theorem entry1_den_apply (V : Valuation τ sig (Elt Ideal)) (p : Fin 8192) (l : Fin 128) :
    (StableHlo.after hostOps1_6 (StableHlo.after hostOps1_5 (StableHlo.after hostOps1_4 (StableHlo.after hostOps1_3
        (StableHlo.after hostOps1_2 (StableHlo.after hostOps1_1 V))))) (Proc.devRef .tc main_v55)
        : S8192x128.Idx → EReal) (ix2 p l)
      = if h : 128 * p.val + l.val < 1000000 then
          (V (Proc.devRef .tc main_v50) : S1000000.Idx → EReal) (ix1 ⟨128 * p.val + l.val, h⟩)
        else (0 : EReal) := by
  have e : (StableHlo.after hostOps1_6 (StableHlo.after hostOps1_5 (StableHlo.after hostOps1_4 (StableHlo.after hostOps1_3
        (StableHlo.after hostOps1_2 (StableHlo.after hostOps1_1 V))))) (Proc.devRef .tc main_v55)
        : S8192x128.Idx → EReal)
      = shapeCast S8192x128 (pad S1048576 ![0] ![48576] ![0]
          (V (Proc.devRef .tc main_v50) : S1000000.Idx → EReal)
          (sitofp (F := Ideal) .f32 (constantI S_ 32 0#32)) pads_S1000000_S1048576_0485760 h_S_)
          shapeCasts_S1048576_S8192x128 := by
    after_results; rfl
  refine (congrFun e (ix2 p l)).trans ((padded_apply _ _ p l).trans ?_)
  split
  · rfl
  · exact padZero_apply

/-- The third input window: the padded layout of the targets. -/
theorem entry1_cc_apply (V : Valuation τ sig (Elt Ideal)) (p : Fin 8192) (l : Fin 128) :
    (StableHlo.after hostOps1_6 (StableHlo.after hostOps1_5 (StableHlo.after hostOps1_4 (StableHlo.after hostOps1_3
        (StableHlo.after hostOps1_2 (StableHlo.after hostOps1_1 V))))) (Proc.devRef .tc main_v56)
        : S8192x128.Idx → EReal) (ix2 p l)
      = if h : 128 * p.val + l.val < 1000000 then
          (V (Proc.devRef .tc main_arg3) : S1000000.Idx → EReal) (ix1 ⟨128 * p.val + l.val, h⟩)
        else (0 : EReal) := by
  have e : (StableHlo.after hostOps1_6 (StableHlo.after hostOps1_5 (StableHlo.after hostOps1_4 (StableHlo.after hostOps1_3
        (StableHlo.after hostOps1_2 (StableHlo.after hostOps1_1 V))))) (Proc.devRef .tc main_v56)
        : S8192x128.Idx → EReal)
      = shapeCast S8192x128 (pad S1048576 ![0] ![48576] ![0]
          (V (Proc.devRef .tc main_arg3) : S1000000.Idx → EReal)
          (sitofp (F := Ideal) .f32 (constantI S_ 32 0#32)) pads_S1000000_S1048576_0485760 h_S_)
          shapeCasts_S1048576_S8192x128 := by
    after_results; rfl
  refine (congrFun e (ix2 p l)).trans ((padded_apply _ _ p l).trans ?_)
  split
  · rfl
  · exact padZero_apply

/-- The program's result: the one entry of the second region's [1, 1] output. -/
theorem result_apply (V : Valuation τ sig (Elt Ideal)) :
    (StableHlo.after hostOps2 V (Proc.devRef .tc main_v58) : S_.Idx → EReal)
      = fun _ => (V (Proc.devRef .tc main_v57) : S1x1.Idx → EReal) (ix2 (0 : Fin 1) (0 : Fin 1)) := by
  have e : (StableHlo.after hostOps2 V (Proc.devRef .tc main_v58) : S_.Idx → EReal)
      = shapeCast S_ (V (Proc.devRef .tc main_v57) : S1x1.Idx → EReal) shapeCasts_S1x1_S_ := by
    after_results; rfl
  refine e.trans (funext fun j => ?_)
  exact shapeCast_apply _ shapeCasts_S1x1_S_ j (ix2 (0 : Fin 1) (0 : Fin 1)) (by
    rw [Shape.rowMajor_val_two]
    have := (S_.rowMajor j).isLt
    show 0 * 1 + 0 = (S_.rowMajor j).val
    have h1 : S_.numel = 1 := rfl
    omega)

end Cert.KernelIdeal.Hand
end
-- ==== Proof.KI.Padv.lean ====
/-
  The padded layout: a vector of 1000000 entries laid out in 8192 rows of 128, zero past its end.
-/
import Idealize.ShloMosaic.PureOps.Ideal

noncomputable section

namespace Cert.KernelIdeal.Hand

/-- Entry `128 p + l` of the vector when there is one, else 0. -/
def padv (X : Fin 1000000 → EReal) (p : Fin 8192) (l : Fin 128) : EReal :=
  if h : 128 * p.val + l.val < 1000000 then X ⟨128 * p.val + l.val, h⟩ else 0

end Cert.KernelIdeal.Hand

end
-- ==== Proof.KI.KernelTables.lean ====
/-
  The kernel's buffers along @main, read at an index in terms of the launch memory: the first region's input is the
  padded layout of the variables' values, its four result arrays the per-variable tables in that layout, and the
  adjacency arrays and the targets reach the later stretches as launched.
-/
import proofs.«138174_j12378095747451_2_alg».proof.Proof.KI.Run
import proofs.«138174_j12378095747451_2_alg».proof.Proof.KI.ExpValue
import proofs.«138174_j12378095747451_2_alg».proof.Proof.KI.HostValue
import proofs.«138174_j12378095747451_2_alg».proof.Proof.KI.Padv

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ) (ρ : Dev nD → PrngReg) (c : Dev nD)

/-- The variables' values, the targets and the edges' words, as the launch memory holds them. -/
abbrev xOf : Fin 1000000 → EReal := fun j => (m ((c : Thread nD τ).loc main_arg0) : S1000000x1.Idx → EReal) (ix2 j (0 : Fin 1))
abbrev ccOf : Fin 1000000 → EReal := fun j => (m ((c : Thread nD τ).loc main_arg3) : S1000000.Idx → EReal) (ix1 j)
abbrev gpOf : Fin 3000000 → BitVec 32 := fun k => (m ((c : Thread nD τ).loc main_arg1) : IVec S2x3000000 32) (ix2 (1 : Fin 2) k)
abbrev gnOf : Fin 3000000 → BitVec 32 := fun k => (m ((c : Thread nD τ).loc main_arg2) : IVec S2x3000000 32) (ix2 (1 : Fin 2) k)
abbrev spOf : Fin 3000000 → BitVec 32 := fun k => (m ((c : Thread nD τ).loc main_arg1) : IVec S2x3000000 32) (ix2 (0 : Fin 2) k)
abbrev snOf : Fin 3000000 → BitVec 32 := fun k => (m ((c : Thread nD τ).loc main_arg2) : IVec S2x3000000 32) (ix2 (0 : Fin 2) k)

/-- The first region's input: the padded layout of the variables' values. -/
theorem W3_main_v2 (p : Fin 8192) (l : Fin 128) :
    (W3 m ρ c (Proc.devRef .tc main_v2) : S8192x128.Idx → EReal) (ix2 p l) = padv (xOf m c) p l :=
  entry0_apply (W0 m ρ c) p l

/-- The first region's result arrays: the four per-variable quantities, entry by entry of the padded layout. -/
theorem W4_main_v3_0 (p : Fin 8192) (l : Fin 128) :
    (W4 m ρ c (Proc.devRef .tc main_v3_0) : S8192x128.Idx → EReal) (ix2 p l) = Cert.Spec.vP (padv (xOf m c) p l) :=
  (congrFun ((W4_arr m ρ c 1).trans (final0_1 (E3 m ρ) c)) (ix2 p l)).trans (congrArg Cert.Spec.vP (W3_main_v2 m ρ c p l))
theorem W4_main_v3_1 (p : Fin 8192) (l : Fin 128) :
    (W4 m ρ c (Proc.devRef .tc main_v3_1) : S8192x128.Idx → EReal) (ix2 p l) = Cert.Spec.eP (padv (xOf m c) p l) :=
  (congrFun ((W4_arr m ρ c 2).trans (final0_2 (E3 m ρ) c)) (ix2 p l)).trans (congrArg Cert.Spec.eP (W3_main_v2 m ρ c p l))
theorem W4_main_v3_2 (p : Fin 8192) (l : Fin 128) :
    (W4 m ρ c (Proc.devRef .tc main_v3_2) : S8192x128.Idx → EReal) (ix2 p l) = Cert.Spec.vN (padv (xOf m c) p l) :=
  (congrFun ((W4_arr m ρ c 3).trans (final0_3 (E3 m ρ) c)) (ix2 p l)).trans (congrArg Cert.Spec.vN (W3_main_v2 m ρ c p l))
theorem W4_main_v3_3 (p : Fin 8192) (l : Fin 128) :
    (W4 m ρ c (Proc.devRef .tc main_v3_3) : S8192x128.Idx → EReal) (ix2 p l) = Cert.Spec.eN (padv (xOf m c) p l) :=
  (congrFun ((W4_arr m ρ c 4).trans (final0_4 (E3 m ρ) c)) (ix2 p l)).trans (congrArg Cert.Spec.eN (W3_main_v2 m ρ c p l))

/-- The padded layout read back at a variable's own position. -/
theorem padv_at (X : Fin 1000000 → EReal) (v : Fin 1000000) :
    padv X ⟨v.val / 128, by have := v.isLt; omega⟩ ⟨v.val % 128, Nat.mod_lt _ (by norm_num)⟩ = X v := by
  unfold padv
  have hv : 128 * (v.val / 128) + v.val % 128 = v.val := Nat.div_add_mod v.val 128
  rw [dif_pos (by show 128 * (v.val / 128) + v.val % 128 < 1000000; rw [hv]; exact v.isLt)]
  exact congrArg X (Fin.ext hv)

/-- A buffer the first three stretches do not write and the first region does not stage holds its launch contents
    after the first region; and after the long stretch too, if that does not write it either. -/
theorem W4_of_untouched (r : Ref sig .tc)
    (h0 : r ∉ hostOps0_W) (h1 : r ∉ hostOps0_1_W) (h2 : r ∉ hostOps0_2_W) (h3 : ∀ w, Pipeline.arrRef spec0 w ≠ r) :
    W4 m ρ c r = m ((c : Thread nD τ).loc r) :=
  (W4_of_ne m ρ c r h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl
theorem W5_of_untouched (r : Ref sig .tc)
    (h0 : r ∉ hostOps0_W) (h1 : r ∉ hostOps0_1_W) (h2 : r ∉ hostOps0_2_W) (h3 : ∀ w, Pipeline.arrRef spec0 w ≠ r)
    (h4 : r ∉ hostOps1_W) : W5 m ρ c r = m ((c : Thread nD τ).loc r) :=
  (StableHlo.after_of_writes_sub hostOps1 _ hostOps1_writes h4).trans (W4_of_untouched m ρ c r h0 h1 h2 h3)

theorem W4_main_arg1 : W4 m ρ c main_arg1 = m ((c : Thread nD τ).loc main_arg1) :=
  W4_of_untouched m ρ c main_arg1 (by decide) (by decide) (by decide) (by decide)
theorem W4_main_arg2 : W4 m ρ c main_arg2 = m ((c : Thread nD τ).loc main_arg2) :=
  W4_of_untouched m ρ c main_arg2 (by decide) (by decide) (by decide) (by decide)
theorem W5_main_arg3 : W5 m ρ c main_arg3 = m ((c : Thread nD τ).loc main_arg3) :=
  W5_of_untouched m ρ c main_arg3 (by decide) (by decide) (by decide) (by decide) (by decide)

end Cert.KernelIdeal.Hand

end
-- ==== Proof.LibTake.lean ====
/-
  General lemmas: what `x[idx]` lowers to, read at an index. A gather of a vector, or of the rows of a matrix, at a
  column of start indices [E, 1] is the operand at the start index read signed and clamped into the operand's
  rows; and the two broadcasts that carry a per-row vector to a column and a column across the columns.
-/
import Idealize.ShloMosaic.Lib.ValueIdx
import Idealize.ShloMosaic.Lib.Pipeline.Value

noncomputable section

namespace Cert.LibTake

open Idealize.ShloMosaic Idealize.ShloMosaic.ValueIdx

variable {α : Type}

/-- The dimension numbers of `x[idx]` for a vector `x` of `N` entries and a column of `E` start indices. -/
abbrev vecTake (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- Entry `e` of the gather is the vector at start index `idx[e, 0]`, read signed and clamped into `[0, N − 1]`. -/
theorem vecTake_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecTake N E wf) x idx y
      = x (ix1 ⟨min (idx (ix2 (y 0) (⟨0, Nat.one_pos⟩ : Fin 1))).toInt.toNat (N - 1), by omega⟩) := by
  unfold Host.gather
  congr 1
  funext a
  obtain rfl : a = 0 := Subsingleton.elim _ _
  refine Fin.ext ?_
  show (vecTake N E wf).start y idx 0 + (vecTake N E wf).batchCoord y 0 + (vecTake N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTake N E wf).startIndexMap from List.mem_singleton.mpr rfl)]
  have hsi : (vecTake N E wf).siIdx y ⟨List.idxOf (0 : Fin 1) (vecTake N E wf).startIndexMap,
      List.idxOf_lt_length_iff.2 (List.mem_singleton.mpr rfl)⟩ = ix2 (y 0) (⟨0, Nat.one_pos⟩ : Fin 1) := by
    funext b; refine Fin.ext ?_
    match b with
    | ⟨0, _⟩ => rfl
    | ⟨1, _⟩ => rfl
  rw [hsi]
  rfl

/-- The dimension numbers of `x[idx]` for a matrix `x` of `N` rows of `C` entries and a column of `E` start indices:
    whole rows are taken. -/
abbrev rowTake (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

/-- Entry `(e, c)` of the gather is the matrix at row `idx[e, 0]` (read signed and clamped into `[0, N − 1]`),
    column `c`. -/
theorem rowTake_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowTake N C E wf) x idx y
      = x (ix2 ⟨min (idx (ix2 (y 0) (⟨0, Nat.one_pos⟩ : Fin 1))).toInt.toNat (N - 1), by omega⟩ (y 1)) := by
  unfold Host.gather
  congr 1
  funext a
  refine Fin.ext ?_
  match a with
  | ⟨0, _⟩ =>
    show (rowTake N C E wf).start y idx (0 : Fin 2) + (rowTake N C E wf).batchCoord y (0 : Fin 2)
      + (rowTake N C E wf).offCoord y (0 : Fin 2) = min (idx (ix2 (y 0) (⟨0, Nat.one_pos⟩ : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTake N C E wf).startIndexMap from List.mem_singleton.mpr rfl)]
    have hsi : (rowTake N C E wf).siIdx y ⟨List.idxOf (0 : Fin 2) (rowTake N C E wf).startIndexMap,
        List.idxOf_lt_length_iff.2 (List.mem_singleton.mpr rfl)⟩ = ix2 (y 0) (⟨0, Nat.one_pos⟩ : Fin 1) := by
      funext b; refine Fin.ext ?_
      match b with
      | ⟨0, _⟩ => rfl
      | ⟨1, _⟩ => rfl
    rw [hsi]
    rfl
  | ⟨1, _⟩ =>
    show (rowTake N C E wf).start y idx (1 : Fin 2) + (rowTake N C E wf).batchCoord y (1 : Fin 2)
      + (rowTake N C E wf).offCoord y (1 : Fin 2) = (y 1).val
    have hs : (rowTake N C E wf).start y idx (1 : Fin 2) = 0 := by
      unfold GatherDims.start
      rw [dif_neg (show ¬ ((1 : Fin 2) ∈ ([0] : List (Fin 2))) from by decide)]
    rw [hs, GatherDims.batchCoord_eq_zero _ _ _ List.not_mem_nil]
    simp only [Nat.zero_add, Nat.add_zero]
    unfold GatherDims.offCoord
    rw [dif_pos ((GatherDims.mem_sKept _ _).mpr ⟨(show ¬ ((1 : Fin 2) ∈ ([0] : List (Fin 2))) from by decide), List.not_mem_nil⟩)]
    rfl

/-- A per-row vector carried to a column: entry `(e, u)` is the vector's entry `e`. -/
theorem bcastCol_apply {E : Nat} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) := by
  unfold broadcastInDim
  congr 1
  funext a
  obtain rfl : a = 0 := Subsingleton.elim _ _
  refine Fin.ext ?_
  by_cases h1 : (⟨1, ![E]⟩ : Shape).size 0 = 1
  · rw [dif_pos h1]
    have : E = 1 := h1
    have := e.isLt
    show 0 = e.val
    omega
  · rw [dif_neg h1]; rfl

/-- A column carried across `C` columns: entry `(e, c)` is the column's entry `e`. -/
theorem bcastAcross_apply {E C : Nat} (h : (⟨2, ![E, 1]⟩ : Shape).BroadcastsInDim ⟨2, ![E, C]⟩ ![0, 1])
    (v : (⟨2, ![E, 1]⟩ : Shape).Idx → α) (e : Fin E) (c : Fin C) :
    broadcastInDim ⟨2, ![E, C]⟩ ![0, 1] h v (ix2 e c) = v (ix2 e (⟨0, Nat.one_pos⟩ : Fin 1)) := by
  unfold broadcastInDim
  congr 1
  funext a
  refine Fin.ext ?_
  match a with
  | ⟨0, _⟩ =>
    split
    · rename_i h1
      have hE : E = 1 := h1
      have := e.isLt
      show 0 = e.val
      omega
    · rfl
  | ⟨1, _⟩ =>
    split
    · rfl
    · rename_i h1
      exact absurd rfl h1

/-- A vector of `C` entries as one row: entry `(u, q)` is the vector's entry `q`. -/
theorem bcastRow_apply {C : Nat} (h : (⟨1, ![C]⟩ : Shape).BroadcastsInDim ⟨2, ![1, C]⟩ ![1])
    (v : (⟨1, ![C]⟩ : Shape).Idx → α) (u : Fin 1) (q : Fin C) :
    broadcastInDim ⟨2, ![1, C]⟩ ![1] h v (ix2 u q) = v (ix1 q) := by
  unfold broadcastInDim
  congr 1
  funext a
  obtain rfl : a = 0 := Subsingleton.elim _ _
  refine Fin.ext ?_
  split
  · rename_i h1
    have hC : C = 1 := h1
    have := q.isLt
    show 0 = q.val
    omega
  · rfl

/-- A row carried down `N` rows: entry `(r, q)` is the row's entry `q`. -/
theorem bcastDown_apply {N C : Nat} (h : (⟨2, ![1, C]⟩ : Shape).BroadcastsInDim ⟨2, ![N, C]⟩ ![0, 1])
    (v : (⟨2, ![1, C]⟩ : Shape).Idx → α) (r : Fin N) (q : Fin C) :
    broadcastInDim ⟨2, ![N, C]⟩ ![0, 1] h v (ix2 r q) = v (ix2 (⟨0, Nat.one_pos⟩ : Fin 1) q) := by
  unfold broadcastInDim
  congr 1
  funext a
  refine Fin.ext ?_
  match a with
  | ⟨0, _⟩ =>
    split
    · rfl
    · rename_i h1
      exact absurd rfl h1
  | ⟨1, _⟩ =>
    split
    · rename_i h1
      have hC : C = 1 := h1
      have := q.isLt
      show 0 = q.val
      omega
    · rfl

/-- A vector of `N` entries recast as a column: entry `(r, u)` is the vector's entry `r`. -/
theorem castCol_apply {N : Nat} (h : (⟨1, ![N]⟩ : Shape).ShapeCasts ⟨2, ![N, 1]⟩)
    (v : (⟨1, ![N]⟩ : Shape).Idx → α) (r : Fin N) (u : Fin 1) :
    shapeCast ⟨2, ![N, 1]⟩ v h (ix2 r u) = v (ix1 r) := by
  refine shapeCast_apply v h (ix2 r u) (ix1 r) ?_
  rw [Shape.rowMajor_val_two, Shape.rowMajor_val_one]
  show r.val = r.val * 1 + u.val
  have := u.isLt
  omega

/-- A vector of `C` entries recast as a row: entry `(u, q)` is the vector's entry `q`. -/
theorem castRow_apply {C : Nat} (h : (⟨1, ![C]⟩ : Shape).ShapeCasts ⟨2, ![1, C]⟩)
    (v : (⟨1, ![C]⟩ : Shape).Idx → α) (u : Fin 1) (q : Fin C) :
    shapeCast ⟨2, ![1, C]⟩ v h (ix2 u q) = v (ix1 q) := by
  refine shapeCast_apply v h (ix2 u q) (ix1 q) ?_
  rw [Shape.rowMajor_val_two, Shape.rowMajor_val_one]
  show q.val = u.val * C + q.val
  have := u.isLt
  have hu : u.val = 0 := by omega
  rw [hu]; omega

end Cert.LibTake

end
-- ==== Proof.LibColumns.lean ====
/-
  Column-wise layout steps read at an index written by coordinates, for any extents and any element type:
  a block of consecutive columns cut out of a matrix (extract_strided_slice with offsets [0, c]; also one column as
  a function of the index), consecutive entries cut out of a vector, two matrices with the same rows set side by
  side (a concatenation along axis 1: a column of the left and of the right part), and six single columns set side
  by side (column k of the result is the k-th of them).  Imports only the library's index and layout modules.
-/
import Idealize.ShloMosaic.Lib.Pipeline.Value
import Idealize.ShloMosaic.Lib.ValueIdx

noncomputable section

namespace Cert.LibColumns

open Idealize.ShloMosaic Idealize.ShloMosaic.ValueIdx

variable {α : Type}

/-- Columns c, c+1, … of a matrix cut out as a narrower matrix: entry (p, q) is entry (p, c + q). -/
theorem colsSlice_apply {a b b' : Nat} (c : Nat) (x : (⟨2, ![a, b]⟩ : Shape).Idx → α)
    (h : (⟨2, ![a, b]⟩ : Shape).Slices ![0, c] ⟨2, ![a, b']⟩) (p : Fin a) (q : Fin b') (j : Fin b) (hj : j.val = c + q.val) :
    extractStridedSlice ⟨2, ![a, b']⟩ ![0, c] x h (ix2 p q) = x (ix2 p j) :=
  extractStridedSlice_apply ![0, c] x h (ix2 p q) (ix2 p j) (fun d => match d with
    | ⟨0, _⟩ => by show p.val = 0 + p.val; omega
    | ⟨1, _⟩ => by show j.val = c + q.val; exact hj)

/-- Column c of a matrix cut out as a one-column matrix, as a function of the index: row i₀ of it holds entry (i₀, c). -/
theorem colSlice_fun {a b : Nat} (c : Nat) (hc : c < b) (x : (⟨2, ![a, b]⟩ : Shape).Idx → α)
    (h : (⟨2, ![a, b]⟩ : Shape).Slices ![0, c] ⟨2, ![a, 1]⟩) :
    extractStridedSlice ⟨2, ![a, 1]⟩ ![0, c] x h = fun i => x (ix2 (i 0) (⟨c, hc⟩ : Fin b)) := by
  funext i
  have h1 : (i 1 : Fin 1) = (0 : Fin 1) := Fin.ext (by have := idx2_lt1 i; show (i 1).val = 0; omega)
  have hi : i = ix2 (i 0) (0 : Fin 1) := (eq_ix2 i).trans (congrArg (ix2 (i 0)) h1)
  exact (congrArg (extractStridedSlice ⟨2, ![a, 1]⟩ ![0, c] x h) hi).trans
    (colsSlice_apply c x h (i 0) (0 : Fin 1) (⟨c, hc⟩ : Fin b) rfl)

/-- Entries c, c+1, … of a vector cut out as a shorter vector: entry q is entry c + q. -/
theorem vecSlice_apply {b b' : Nat} (c : Nat) (x : (⟨1, ![b]⟩ : Shape).Idx → α)
    (h : (⟨1, ![b]⟩ : Shape).Slices ![c] ⟨1, ![b']⟩) (q : Fin b') (j : Fin b) (hj : j.val = c + q.val) :
    extractStridedSlice ⟨1, ![b']⟩ ![c] x h (ix1 q) = x (ix1 j) :=
  extractStridedSlice_apply ![c] x h (ix1 q) (ix1 j) (fun d => match d with
    | ⟨0, _⟩ => by show j.val = c + q.val; exact hj)

/-- Two matrices with the same rows set side by side: a column of the left one. -/
theorem hcat_left {a b1 b2 b : Nat} (x1 : (⟨2, ![a, b1]⟩ : Shape).Idx → α) (x2 : (⟨2, ![a, b2]⟩ : Shape).Idx → α)
    (h : Shape.Concatenates [(⟨2, ![a, b1]⟩ : Shape), ⟨2, ![a, b2]⟩] ⟨2, ![a, b]⟩ 1) (p : Fin a) (q : Fin b) (q1 : Fin b1)
    (hq : q1.val = q.val) :
    concatenate ⟨2, ![a, b]⟩ 1 [⟨⟨2, ![a, b1]⟩, x1⟩, ⟨⟨2, ![a, b2]⟩, x2⟩] h (ix2 p q) = x1 (ix2 p q1) :=
  concatenate_pair_apply_left 1 x1 x2 h (ix2 p q) rfl (ix2 p q1) (fun d => match d with
    | ⟨0, _⟩ => rfl
    | ⟨1, _⟩ => hq)

/-- Two matrices with the same rows set side by side: a column of the right one. -/
theorem hcat_right {a b1 b2 b : Nat} (x1 : (⟨2, ![a, b1]⟩ : Shape).Idx → α) (x2 : (⟨2, ![a, b2]⟩ : Shape).Idx → α)
    (h : Shape.Concatenates [(⟨2, ![a, b1]⟩ : Shape), ⟨2, ![a, b2]⟩] ⟨2, ![a, b]⟩ 1) (p : Fin a) (q : Fin b) (q2 : Fin b2)
    (hq : q2.val + b1 = q.val) :
    concatenate ⟨2, ![a, b]⟩ 1 [⟨⟨2, ![a, b1]⟩, x1⟩, ⟨⟨2, ![a, b2]⟩, x2⟩] h (ix2 p q) = x2 (ix2 p q2) :=
  concatenate_pair_apply_right 1 x1 x2 h (ix2 p q) rfl rfl (ix2 p q2) (fun d => match d with
    | ⟨0, _⟩ => fun _ => rfl
    | ⟨1, _⟩ => fun hd => absurd rfl hd) hq

/-- Six single columns set side by side: column k of the result is the k-th of them. -/
theorem hcat6_apply {a : Nat} (x0 x1 x2 x3 x4 x5 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩] ⟨2, ![a, 6]⟩ 1)
    (p : Fin a) (k : Fin 6) :
    concatenate ⟨2, ![a, 6]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩] h (ix2 p k)
      = ![x0 (ix2 p (0 : Fin 1)), x1 (ix2 p (0 : Fin 1)), x2 (ix2 p (0 : Fin 1)), x3 (ix2 p (0 : Fin 1)),
          x4 (ix2 p (0 : Fin 1)), x5 (ix2 p (0 : Fin 1))] k := by
  have hi : ∀ (k : Fin 6) (d : Fin (⟨2, ![a, 1]⟩ : Shape).rank), d.cast (rfl : (⟨2, ![a, 1]⟩ : Shape).rank = (⟨2, ![a, 6]⟩ : Shape).rank) ≠ 1 →
      ((ix2 p (0 : Fin 1) : (⟨2, ![a, 1]⟩ : Shape).Idx) d).val = ((ix2 p k : (⟨2, ![a, 6]⟩ : Shape).Idx) (d.cast rfl)).val :=
    fun k d => match d with
      | ⟨0, _⟩ => fun _ => rfl
      | ⟨1, _⟩ => fun hd => absurd rfl hd
  match k with
  | ⟨0, _⟩ => exact concatenate_apply_piece 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩, ⟨⟨2, ![a, 1]⟩, x5⟩] h _ 0 (by show (0 : Nat) < 6; omega) _ x0 rfl rfl 0 rfl (ix2 p (0 : Fin 1)) (hi _) rfl
  | ⟨1, _⟩ => exact concatenate_apply_piece 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩, ⟨⟨2, ![a, 1]⟩, x5⟩] h _ 1 (by show (1 : Nat) < 6; omega) _ x1 rfl rfl 1 rfl (ix2 p (0 : Fin 1)) (hi _) rfl
  | ⟨2, _⟩ => exact concatenate_apply_piece 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩, ⟨⟨2, ![a, 1]⟩, x5⟩] h _ 2 (by show (2 : Nat) < 6; omega) _ x2 rfl rfl 2 rfl (ix2 p (0 : Fin 1)) (hi _) rfl
  | ⟨3, _⟩ => exact concatenate_apply_piece 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩, ⟨⟨2, ![a, 1]⟩, x5⟩] h _ 3 (by show (3 : Nat) < 6; omega) _ x3 rfl rfl 3 rfl (ix2 p (0 : Fin 1)) (hi _) rfl
  | ⟨4, _⟩ => exact concatenate_apply_piece 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩, ⟨⟨2, ![a, 1]⟩, x5⟩] h _ 4 (by show (4 : Nat) < 6; omega) _ x4 rfl rfl 4 rfl (ix2 p (0 : Fin 1)) (hi _) rfl
  | ⟨5, _⟩ => exact concatenate_apply_piece 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩, ⟨⟨2, ![a, 1]⟩, x5⟩] h _ 5 (by show (5 : Nat) < 6; omega) _ x5 rfl rfl 5 rfl (ix2 p (0 : Fin 1)) (hi _) rfl

end Cert.LibColumns

end
-- ==== Proof.KI.HostStage.lean ====
/-
  The host operations between the two kernel regions, read at an index over the extended reals.

  The four arrays the first region wrote are re-laid flat and cut to the 1000000 variables; the two adjacency arrays are
  cut into their variable words (second row) and clause words (first row); for each polarity the two per-variable
  quantities are set side by side as a table of two columns, the table's rows are gathered at the wrapped variable
  words, and the gathered rows are added into zeros at the clause words; the two polarities' sums are added, and the
  two columns of the result are the clauses' numerators and denominators.
-/
import proofs.«138174_j12378095747451_2_alg».proof.Proof.Gen.KernelIdeal.Launch
import proofs.«138174_j12378095747451_2_alg».proof.Proof.Spec
import proofs.«138174_j12378095747451_2_alg».proof.Proof.LibTake
import proofs.«138174_j12378095747451_2_alg».proof.Proof.LibColumns
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.StableHlo Idealize.ShloMosaic.ValueIdx

/-! ## The stretch as staged functions of its six operands -/

/-- A matrix of 8192 rows of 128 re-laid flat and cut to its first 1000000 entries. -/
def cutFlat {α : Type} (o : S8192x128.Idx → α) : S1000000.Idx → α :=
  extractStridedSlice S1000000 ![0] (shapeCast S1048576 o shapeCasts_S8192x128_S1048576) slices_S1048576_S1000000_0

/-- The second row of an adjacency array as a vector: the edges' variable words. -/
def varWords (a : IVec S2x3000000 32) : IVec S3000000 32 :=
  shapeCast S3000000 (extractStridedSlice S1x3000000 ![1, 0] a slices_S2x3000000_S1x3000000_1_0) shapeCasts_S1x3000000_S3000000

/-- The first row of an adjacency array as a vector: the edges' clause words. -/
def clauseWords (a : IVec S2x3000000 32) : IVec S3000000 32 :=
  shapeCast S3000000 (extractStridedSlice S1x3000000 ![0, 0] a slices_S2x3000000_S1x3000000_0_0) shapeCasts_S1x3000000_S3000000

/-- A per-variable vector as a one-column matrix. -/
def col {α : Type} (v : S1000000.Idx → α) : S1000000x1.Idx → α :=
  broadcastInDim S1000000x1 ![0] bcast_S1000000_S1000000x1_0 v

/-- A per-edge vector of words as a one-column matrix. -/
def wordCol (v : IVec S3000000 32) : IVec S3000000x1 32 :=
  broadcastInDim S3000000x1 ![0] bcast_S3000000_S3000000x1_0 v

/-- Two one-column matrices set side by side. -/
def table {α : Type} (a b : S1000000x1.Idx → α) : S1000000x2.Idx → α :=
  concatenate S1000000x2 1 [⟨S1000000x1, a⟩, ⟨S1000000x1, b⟩] concatenates_S1000000x1_S1000000x1_S1000000x2_d1

theorem table_fold {α : Type} (a b : S1000000x1.Idx → α) :
    concatenate S1000000x2 1 [⟨S1000000x1, a⟩, ⟨S1000000x1, b⟩] concatenates_S1000000x1_S1000000x1_S1000000x2_d1 = table a b := rfl

/-- The variable words, a negative one wrapped once by the number of variables. -/
def wrapWords (v : IVec S3000000 32) : IVec S3000000 32 :=
  select (cmpi .slt v (broadcastInDim S3000000 ![] bcast_S_S3000000 (constantI S_ 32 0#32)))
    (addi v (broadcastInDim S3000000 ![] bcast_S_S3000000 (constantI S_ 32 1000000#32))) v

/-- The rows of the table of two per-variable vectors gathered at the wrapped variable words. -/
def gathered (p q : S1000000.Idx → EReal) (v : IVec S3000000 32) : S3000000x2.Idx → EReal :=
  Host.gather gather_S1000000x2_S3000000x1_S3000000x2_1_0_n_n_0_1_12 (table (col p) (col q)) (wordCol (wrapWords v))

/-- Per-edge rows added into zeros at the clause words. -/
def scattered (c : IVec S3000000 32) (u : S3000000x2.Idx → EReal) : S1000000x2.Idx → EReal :=
  Host.scatterAdd (F := Ideal) (φ := .f32) scatter_S1000000x2_S3000000x1_S3000000x2_1_0_0_1
    (broadcastInDim S1000000x2 ![] bcast_S_S1000000x2 (constant (F := Ideal) S_ .f32 0x00000000#32)) (wordCol c) u

/-- Both polarities' sums: column 0 the clauses' numerators, column 1 their denominators. -/
def sums (o0 o1 o2 o3 : S8192x128.Idx → EReal) (a1 a2 : IVec S2x3000000 32) : S1000000x2.Idx → EReal :=
  addf (F := Ideal) (φ := .f32)
    (scattered (clauseWords a1) (gathered (cutFlat o0) (cutFlat o1) (varWords a1)))
    (scattered (clauseWords a2) (gathered (cutFlat o2) (cutFlat o3) (varWords a2)))

/-- The numerators: column 0 as a vector. -/
def numT (o0 o1 o2 o3 : S8192x128.Idx → EReal) (a1 a2 : IVec S2x3000000 32) : S1000000.Idx → EReal :=
  shapeCast S1000000 (extractStridedSlice S1000000x1 ![0, 0] (sums o0 o1 o2 o3 a1 a2) slices_S1000000x2_S1000000x1_0_0)
    shapeCasts_S1000000x1_S1000000

/-- The denominators: column 1 as a vector. -/
def denT (o0 o1 o2 o3 : S8192x128.Idx → EReal) (a1 a2 : IVec S2x3000000 32) : S1000000.Idx → EReal :=
  shapeCast S1000000 (extractStridedSlice S1000000x1 ![0, 1] (sums o0 o1 o2 o3 a1 a2) slices_S1000000x2_S1000000x1_0_1)
    shapeCasts_S1000000x1_S1000000

/-- What the numerators' buffer holds after the stretch. -/
theorem num_after (V : Valuation τ sig (Elt Ideal)) :
    (StableHlo.after (hostOps1 (F := Ideal)) V (Proc.devRef .tc main_v48) : S1000000.Idx → EReal)
      = numT (V (Proc.devRef .tc main_v3_0)) (V (Proc.devRef .tc main_v3_1)) (V (Proc.devRef .tc main_v3_2))
          (V (Proc.devRef .tc main_v3_3)) (V (Proc.devRef .tc main_arg1)) (V (Proc.devRef .tc main_arg2)) := by
  simp (disch := decide) only [after_cons, after_nil, table_fold,
      nullary_result', unary_result', binary_result', ternary_result', reshape_result',
      nullary_result_ne', unary_result_ne', binary_result_ne', ternary_result_ne', reshape_result_ne']
  rfl

/-- What the denominators' buffer holds after the stretch. -/
theorem den_after (V : Valuation τ sig (Elt Ideal)) :
    (StableHlo.after (hostOps1 (F := Ideal)) V (Proc.devRef .tc main_v50) : S1000000.Idx → EReal)
      = denT (V (Proc.devRef .tc main_v3_0)) (V (Proc.devRef .tc main_v3_1)) (V (Proc.devRef .tc main_v3_2))
          (V (Proc.devRef .tc main_v3_3)) (V (Proc.devRef .tc main_arg1)) (V (Proc.devRef .tc main_arg2)) := by
  simp (disch := decide) only [after_cons, after_nil, table_fold,
      nullary_result', unary_result', binary_result', ternary_result', reshape_result',
      nullary_result_ne', unary_result_ne', binary_result_ne', ternary_result_ne', reshape_result_ne']
  rfl

end Cert.KernelIdeal.Hand

end
-- ==== Proof.LibRowScatter.lean ====
/-
  General lemmas for `x.at[idx].add(u)` on the rows of a matrix: a scatter-add into a matrix of `N` rows of `C` entries
  from a column of `E` index words and `E` update rows. Update row `k` lands, whole, on the row its word names read
  signed, and nowhere when the word is outside `[0, N)`; so entry `(j, q)` of the result is the operand's entry plus
  the sum, over the update rows whose word names `j`, of their entries in column `q`.
-/
import Idealize.ShloMosaic.PureOps.Ideal
import Idealize.ShloMosaic.Lib.ValueIdx

noncomputable section

open scoped BigOperators

namespace Cert.LibRowScatter

open Idealize.ShloMosaic Idealize.ShloMosaic.ValueIdx

/-- The dimension numbers of `x.at[idx].add(u)` for a matrix `x` of `N` rows of `C` entries, a column of `E` index
    words and `E` update rows: whole rows are added. -/
abbrev rowScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

/-- The row a word names: the word read signed, and none when it is outside `[0, N)`. -/
def lands (N : Nat) {w : Nat} (W : BitVec w) : Option (Fin N) :=
  if h : 0 ≤ W.toInt ∧ W.toInt < (N : Int) then some ⟨W.toInt.toNat, by omega⟩ else none

section
variable {N C E w : Nat} (wf : ScatterDims.WF ⟨2, ![N, C]⟩ ⟨2, ![E, 1]⟩ ⟨2, ![E, C]⟩ [1] [0] [0] 1)

/-- On the row axis the window of update `j` starts at its index word, read signed … -/
theorem rowScatter_start0 (j : (⟨2, ![E, C]⟩ : Shape).Idx) (idx : IVec ⟨2, ![E, 1]⟩ w) :
    (rowScatter N C E wf).start j idx (0 : Fin 2) = (idx (ix2 (j 0) (⟨0, Nat.one_pos⟩ : Fin 1))).toInt := by
  unfold ScatterDims.start
  rw [dif_pos (show (0 : Fin 2) ∈ (rowScatter N C E wf).scatterDimsToOperandDims from List.mem_singleton.mpr rfl)]
  have hsi : (rowScatter N C E wf).siIdx j ⟨List.idxOf (0 : Fin 2) (rowScatter N C E wf).scatterDimsToOperandDims,
      List.idxOf_lt_length_iff.2 (List.mem_singleton.mpr rfl)⟩ = ix2 (j 0) (⟨0, Nat.one_pos⟩ : Fin 1) := by
    funext b; refine Fin.ext ?_
    match b with
    | ⟨0, _⟩ => rfl
    | ⟨1, _⟩ => rfl
  rw [hsi]
  try rfl

/-- … and on the column axis at zero. -/
theorem rowScatter_start1 (j : (⟨2, ![E, C]⟩ : Shape).Idx) (idx : IVec ⟨2, ![E, 1]⟩ w) :
    (rowScatter N C E wf).start j idx (1 : Fin 2) = 0 := by
  unfold ScatterDims.start
  rw [dif_neg]
  intro h
  have h2 := List.mem_singleton.mp h
  exact Nat.one_ne_zero (congrArg Fin.val h2)

/-- The window is one row: its row coordinate is zero … -/
theorem rowScatter_window0 (j : (⟨2, ![E, C]⟩ : Shape).Idx) : (rowScatter N C E wf).window j (0 : Fin 2) = 0 := by
  unfold ScatterDims.window
  rw [dif_neg]
  intro h
  have h2 := (List.mem_filter.mp h).2
  simp at h2

/-- … and its column coordinate the update's. -/
theorem rowScatter_window1 (j : (⟨2, ![E, C]⟩ : Shape).Idx) : (rowScatter N C E wf).window j (1 : Fin 2) = (j 1).val := by
  unfold ScatterDims.window
  have hm : (1 : Fin 2) ∈ (List.finRange 2).filter (fun a => a ∉ [(0 : Fin 2)]) := by decide
  rw [dif_pos (show (1 : Fin 2) ∈ (rowScatter N C E wf).sKept from hm)]
  rfl

/-- Update row `k` lands, column by column, on the row its word names, and nowhere when the word is outside `[0, N)`. -/
theorem rowScatter_lands (k : Fin E) (q : Fin C) (idx : IVec ⟨2, ![E, 1]⟩ w) :
    (rowScatter N C E wf).resultIdx? (ix2 k q) idx
      = if h : 0 ≤ (idx (ix2 k (⟨0, Nat.one_pos⟩ : Fin 1))).toInt ∧ (idx (ix2 k (⟨0, Nat.one_pos⟩ : Fin 1))).toInt < (N : Int) then
          some (ix2 ⟨(idx (ix2 k (⟨0, Nat.one_pos⟩ : Fin 1))).toInt.toNat, by omega⟩ q)
        else none := by
  have s0 : (rowScatter N C E wf).start (ix2 k q) idx (0 : Fin 2) + ((rowScatter N C E wf).window (ix2 k q) (0 : Fin 2) : Int)
      = (idx (ix2 k (⟨0, Nat.one_pos⟩ : Fin 1))).toInt := by
    rw [rowScatter_start0, rowScatter_window0, Nat.cast_zero, add_zero]
    try rfl
  have s1 : (rowScatter N C E wf).start (ix2 k q) idx (1 : Fin 2) + ((rowScatter N C E wf).window (ix2 k q) (1 : Fin 2) : Int)
      = (q.val : Int) := by
    rw [rowScatter_start1, rowScatter_window1, zero_add]
    try rfl
  unfold ScatterDims.resultIdx?
  by_cases h : 0 ≤ (idx (ix2 k (⟨0, Nat.one_pos⟩ : Fin 1))).toInt ∧ (idx (ix2 k (⟨0, Nat.one_pos⟩ : Fin 1))).toInt < (N : Int)
  · have hall : ∀ a : Fin 2, 0 ≤ (rowScatter N C E wf).start (ix2 k q) idx a + ((rowScatter N C E wf).window (ix2 k q) a : Int)
        ∧ (rowScatter N C E wf).start (ix2 k q) idx a + ((rowScatter N C E wf).window (ix2 k q) a : Int)
          < ((⟨2, ![N, C]⟩ : Shape).size a : Int) := by
      intro a
      match a with
      | ⟨0, _⟩ =>
        show 0 ≤ (rowScatter N C E wf).start (ix2 k q) idx (0 : Fin 2) + ((rowScatter N C E wf).window (ix2 k q) (0 : Fin 2) : Int)
          ∧ (rowScatter N C E wf).start (ix2 k q) idx (0 : Fin 2) + ((rowScatter N C E wf).window (ix2 k q) (0 : Fin 2) : Int) < (N : Int)
        rw [s0]; exact h
      | ⟨1, _⟩ =>
        show 0 ≤ (rowScatter N C E wf).start (ix2 k q) idx (1 : Fin 2) + ((rowScatter N C E wf).window (ix2 k q) (1 : Fin 2) : Int)
          ∧ (rowScatter N C E wf).start (ix2 k q) idx (1 : Fin 2) + ((rowScatter N C E wf).window (ix2 k q) (1 : Fin 2) : Int) < (C : Int)
        rw [s1]; have := q.isLt; omega
    rw [dif_pos hall, dif_pos h]
    congr 1
    funext a
    refine Fin.ext ?_
    match a with
    | ⟨0, _⟩ =>
      show ((rowScatter N C E wf).start (ix2 k q) idx (0 : Fin 2) + ((rowScatter N C E wf).window (ix2 k q) (0 : Fin 2) : Int)).toNat
        = (idx (ix2 k (⟨0, Nat.one_pos⟩ : Fin 1))).toInt.toNat
      rw [s0]
    | ⟨1, _⟩ =>
      show ((rowScatter N C E wf).start (ix2 k q) idx (1 : Fin 2) + ((rowScatter N C E wf).window (ix2 k q) (1 : Fin 2) : Int)).toNat
        = q.val
      rw [s1]; simp
  · rw [dif_neg h, dif_neg]
    intro hall
    have h0 := hall (0 : Fin 2)
    rw [s0] at h0
    exact h h0

/-- So update entry `(k, q')` lands on entry `(j, q)` exactly when row `k`'s word names `j` and the columns agree. -/
theorem rowScatter_lands_iff (k : Fin E) (q' : Fin C) (idx : IVec ⟨2, ![E, 1]⟩ w) (j : Fin N) (q : Fin C) :
    (rowScatter N C E wf).resultIdx? (ix2 k q') idx = some (ix2 j q)
      ↔ lands N (idx (ix2 k (⟨0, Nat.one_pos⟩ : Fin 1))) = some j ∧ q' = q := by
  rw [rowScatter_lands]
  unfold lands
  by_cases h : 0 ≤ (idx (ix2 k (⟨0, Nat.one_pos⟩ : Fin 1))).toInt ∧ (idx (ix2 k (⟨0, Nat.one_pos⟩ : Fin 1))).toInt < (N : Int)
  · rw [dif_pos h, dif_pos h]
    constructor
    · intro e
      have e' := Option.some.inj e
      have e0 := congrFun e' (0 : Fin 2)
      have e1 := congrFun e' (1 : Fin 2)
      exact ⟨congrArg some e0, e1⟩
    · rintro ⟨e0, rfl⟩
      rw [Option.some.inj e0]
  · rw [dif_neg h, dif_neg h]
    constructor
    · intro e; exact absurd e (by simp)
    · rintro ⟨e, -⟩; exact absurd e (by simp)

/-- Entry `(j, q)` of the scatter-add: the operand's entry plus the entries in column `q` of the update rows whose
    word names row `j`. -/
theorem rowScatter_apply (x : (⟨2, ![N, C]⟩ : Shape).Idx → EReal) (idx : IVec ⟨2, ![E, 1]⟩ w)
    (upd : (⟨2, ![E, C]⟩ : Shape).Idx → EReal) (j : Fin N) (q : Fin C) :
    Ideal.hostScatterAdd (rowScatter N C E wf) x idx upd (ix2 j q)
      = x (ix2 j q) + ∑ k ∈ Finset.univ.filter (fun k : Fin E => lands N (idx (ix2 k (⟨0, Nat.one_pos⟩ : Fin 1))) = some j),
          upd (ix2 k q) := by
  unfold Ideal.hostScatterAdd
  refine congrArg (x (ix2 j q) + ·) (Eq.symm ?_)
  refine Finset.sum_bij (fun k _ => ix2 k q) ?_ ?_ ?_ ?_
  · intro k hk
    have hk' := (Finset.mem_filter.mp hk).2
    exact Finset.mem_filter.mpr ⟨Finset.mem_univ _, (rowScatter_lands_iff wf k q idx j q).mpr ⟨hk', rfl⟩⟩
  · intro k _ k' _ e
    exact congrFun e (0 : Fin 2)
  · intro u hu
    have hu' := (Finset.mem_filter.mp hu).2
    rw [eq_ix2 u] at hu'
    obtain ⟨h1, h2⟩ := (rowScatter_lands_iff wf (u 0) (u 1) idx j q).mp hu'
    refine ⟨u 0, Finset.mem_filter.mpr ⟨Finset.mem_univ _, h1⟩, ?_⟩
    rw [← h2]; exact (eq_ix2 u).symm
  · intro k _; rfl

end

end Cert.LibRowScatter

end
-- ==== Proof.KI.RowScatter.lean ====
import proofs.«138174_j12378095747451_2_alg».proof.Proof.Gen.KernelIdeal
import proofs.«138174_j12378095747451_2_alg».proof.Proof.Spec
import proofs.«138174_j12378095747451_2_alg».proof.Proof.LibRowScatter

/-!
# The program's scatter-add of edge rows onto clause rows, at an index

The program accumulates, for each polarity, the 3000000 edges' two-entry rows onto the 1000000 clauses' rows with one
scatter-add whose index column holds the edges' clause words. Entry `(j, q)` of the result is the operand's entry plus
the sum of the entries in column `q` of the edges whose clause word names clause `j`, the word read as `Cert.Spec.clauseOf`
reads it.
-/

set_option maxRecDepth 16384

noncomputable section

open scoped BigOperators

namespace Cert.KernelIdeal.Hand

open Cert.KernelIdeal Cert.KernelIdeal.Gen
open Idealize.ShloMosaic Idealize.ShloMosaic.ValueIdx

/-- The row a clause word names among the 1000000 clause rows is `Cert.Spec.clauseOf` of the word. -/
theorem lands_eq_clauseOf (W : BitVec 32) : Cert.LibRowScatter.lands 1000000 W = Cert.Spec.clauseOf W := by
  unfold Cert.LibRowScatter.lands Cert.Spec.clauseOf
  rfl

/-- The program's dimension numbers are the row scatter's at its extents. -/
theorem scatter_eq_rowScatter :
    scatter_S1000000x2_S3000000x1_S3000000x2_1_0_0_1
      = Cert.LibRowScatter.rowScatter 1000000 2 3000000 Gen.scatter_S1000000x2_S3000000x1_S3000000x2_1_0_0_1_wf := rfl

/-- Entry `(j, q)` of the program's scatter-add over the extended reals. -/
theorem clauseScatter_apply (x : S1000000x2.Idx → EReal) (idx : IVec S3000000x1 32) (upd : S3000000x2.Idx → EReal)
    (j : Fin 1000000) (q : Fin 2) :
    Ideal.hostScatterAdd scatter_S1000000x2_S3000000x1_S3000000x2_1_0_0_1 x idx upd (ix2 j q)
      = x (ix2 j q) + ∑ k ∈ Finset.univ.filter (fun k : Fin 3000000 => Cert.Spec.clauseOf (idx (ix2 k (⟨0, Nat.one_pos⟩ : Fin 1))) = some j),
          upd (ix2 k q) := by
  rw [scatter_eq_rowScatter, Cert.LibRowScatter.rowScatter_apply]
  simp only [lands_eq_clauseOf]

/-- The same for the printed operation `Host.scatterAdd` read over the extended reals. -/
theorem clauseScatterAdd_apply (x : FVec Ideal S1000000x2 .f32) (idx : IVec S3000000x1 32) (upd : FVec Ideal S3000000x2 .f32)
    (j : Fin 1000000) (q : Fin 2) :
    Host.scatterAdd (F := Ideal) scatter_S1000000x2_S3000000x1_S3000000x2_1_0_0_1 x idx upd (ix2 j q)
      = x (ix2 j q) + ∑ k ∈ Finset.univ.filter (fun k : Fin 3000000 => Cert.Spec.clauseOf (idx (ix2 k (⟨0, Nat.one_pos⟩ : Fin 1))) = some j),
          upd (ix2 k q) :=
  clauseScatter_apply x idx upd j q

end Cert.KernelIdeal.Hand

end
-- ==== Proof.KI.Scatter.lean ====
/-
  The host operations between the two kernel regions, read at an index over the extended reals: each staged function
  of the stretch at an index, and from them a clause's numerator and denominator as the two sums over its edges.
-/
import proofs.«138174_j12378095747451_2_alg».proof.Proof.KI.HostStage
import proofs.«138174_j12378095747451_2_alg».proof.Proof.KI.RowScatter

set_option maxRecDepth 16384

noncomputable section

open scoped BigOperators

namespace Cert.KernelIdeal.Hand

open Cert.KernelIdeal Cert.KernelIdeal.Gen
open Idealize.ShloMosaic Idealize.ShloMosaic.TcCoe Idealize.ShloMosaic.StableHlo Idealize.ShloMosaic.ValueIdx

/-! ## The staged functions read at an index -/

/-- Entry v of a matrix of 8192 rows of 128 re-laid flat: row v / 128, column v % 128. -/
def flat (o : S8192x128.Idx → EReal) (v : Fin 1000000) : EReal :=
  o (ix2 ⟨v.val / 128, by have := v.isLt; omega⟩ ⟨v.val % 128, Nat.mod_lt _ (by norm_num)⟩)

theorem cutFlat_apply (o : S8192x128.Idx → EReal) (v : Fin 1000000) : cutFlat o (ix1 v) = flat o v := by
  unfold cutFlat
  have hv := v.isLt
  refine (Cert.LibColumns.vecSlice_apply 0 _ slices_S1048576_S1000000_0 v ⟨v.val, by omega⟩
    (by show v.val = 0 + v.val; omega)).trans ?_
  refine shapeCast_apply o shapeCasts_S8192x128_S1048576 _ _ ?_
  rw [Shape.rowMajor_val_two, Shape.rowMajor_val_one]
  show v.val / 128 * 128 + v.val % 128 = v.val
  omega

theorem varWords_apply (a : IVec S2x3000000 32) (k : Fin 3000000) : varWords a (ix1 k) = a (ix2 (1 : Fin 2) k) := by
  unfold varWords
  refine (shapeCast_apply _ shapeCasts_S1x3000000_S3000000 (ix1 k) (ix2 (0 : Fin 1) k) ?_).trans ?_
  · rw [Shape.rowMajor_val_two, Shape.rowMajor_val_one]
    show 0 * 3000000 + k.val = k.val
    omega
  · exact extractStridedSlice_apply ![1, 0] a slices_S2x3000000_S1x3000000_1_0 (ix2 (0 : Fin 1) k) (ix2 (1 : Fin 2) k)
      (fun d => match d with
        | ⟨0, _⟩ => by show 1 = 1 + 0; rfl
        | ⟨1, _⟩ => by show k.val = 0 + k.val; omega)

theorem clauseWords_apply (a : IVec S2x3000000 32) (k : Fin 3000000) : clauseWords a (ix1 k) = a (ix2 (0 : Fin 2) k) := by
  unfold clauseWords
  refine (shapeCast_apply _ shapeCasts_S1x3000000_S3000000 (ix1 k) (ix2 (0 : Fin 1) k) ?_).trans ?_
  · rw [Shape.rowMajor_val_two, Shape.rowMajor_val_one]
    show 0 * 3000000 + k.val = k.val
    omega
  · exact extractStridedSlice_apply ![0, 0] a slices_S2x3000000_S1x3000000_0_0 (ix2 (0 : Fin 1) k) (ix2 (0 : Fin 2) k)
      (fun d => match d with
        | ⟨0, _⟩ => by show 0 = 0 + 0; rfl
        | ⟨1, _⟩ => by show k.val = 0 + k.val; omega)

theorem col_apply {α : Type} (v : S1000000.Idx → α) (e : Fin 1000000) (u : Fin 1) : col v (ix2 e u) = v (ix1 e) :=
  Cert.LibTake.bcastCol_apply bcast_S1000000_S1000000x1_0 v e u

theorem wordCol_apply (v : IVec S3000000 32) (e : Fin 3000000) (u : Fin 1) : wordCol v (ix2 e u) = v (ix1 e) :=
  Cert.LibTake.bcastCol_apply bcast_S3000000_S3000000x1_0 v e u

theorem table_apply0 {α : Type} (a b : S1000000x1.Idx → α) (p : Fin 1000000) :
    table a b (ix2 p (0 : Fin 2)) = a (ix2 p (0 : Fin 1)) :=
  Cert.LibColumns.hcat_left a b concatenates_S1000000x1_S1000000x1_S1000000x2_d1 p (0 : Fin 2) (0 : Fin 1) rfl

theorem table_apply1 {α : Type} (a b : S1000000x1.Idx → α) (p : Fin 1000000) :
    table a b (ix2 p (1 : Fin 2)) = b (ix2 p (0 : Fin 1)) :=
  Cert.LibColumns.hcat_right a b concatenates_S1000000x1_S1000000x1_S1000000x2_d1 p (1 : Fin 2) (0 : Fin 1) rfl

theorem wrapWords_apply (v : IVec S3000000 32) (i : S3000000.Idx) : wrapWords v i = Cert.Spec.wrap (v i) := rfl

/-- The printed dimension numbers are those of taking whole rows of a matrix at a column of start indices. -/
theorem gather_eq_rowTake : gather_S1000000x2_S3000000x1_S3000000x2_1_0_n_n_0_1_12
    = Cert.LibTake.rowTake 1000000 2 3000000 gather_S1000000x2_S3000000x1_S3000000x2_1_0_n_n_0_1_12_wf := rfl

theorem gathered_apply (p q : S1000000.Idx → EReal) (v : IVec S3000000 32) (k : Fin 3000000) (c : Fin 2) :
    gathered p q v (ix2 k c) = table (col p) (col q) (ix2 (Cert.Spec.varOf (Cert.Spec.wrap (v (ix1 k)))) c) := by
  unfold gathered
  rw [gather_eq_rowTake]
  have e : wordCol (wrapWords v) (ix2 k (⟨0, Nat.one_pos⟩ : Fin 1)) = Cert.Spec.wrap (v (ix1 k)) :=
    wordCol_apply (wrapWords v) k _
  exact (Cert.LibTake.rowTake_apply (by norm_num) _ (table (col p) (col q)) (wordCol (wrapWords v)) (ix2 k c)).trans
    (congrArg (fun w => table (col p) (col q) (ix2 (Cert.Spec.varOf w) c)) e)

/-- A gathered row's first entry: the first vector at the edge's variable. -/
theorem gathered_apply0 (p q : S1000000.Idx → EReal) (v : IVec S3000000 32) (k : Fin 3000000) :
    gathered p q v (ix2 k (0 : Fin 2)) = p (ix1 (Cert.Spec.varOf (Cert.Spec.wrap (v (ix1 k))))) := by
  rw [gathered_apply, table_apply0, col_apply]

/-- A gathered row's second entry: the second vector at the edge's variable. -/
theorem gathered_apply1 (p q : S1000000.Idx → EReal) (v : IVec S3000000 32) (k : Fin 3000000) :
    gathered p q v (ix2 k (1 : Fin 2)) = q (ix1 (Cert.Spec.varOf (Cert.Spec.wrap (v (ix1 k))))) := by
  rw [gathered_apply, table_apply1, col_apply]

theorem sums_apply (o0 o1 o2 o3 : S8192x128.Idx → EReal) (a1 a2 : IVec S2x3000000 32) (i : S1000000x2.Idx) :
    sums o0 o1 o2 o3 a1 a2 i
      = scattered (clauseWords a1) (gathered (cutFlat o0) (cutFlat o1) (varWords a1)) i
        + scattered (clauseWords a2) (gathered (cutFlat o2) (cutFlat o3) (varWords a2)) i := by
  unfold sums
  exact addf_apply _ _ i

theorem numT_apply (o0 o1 o2 o3 : S8192x128.Idx → EReal) (a1 a2 : IVec S2x3000000 32) (j : Fin 1000000) :
    numT o0 o1 o2 o3 a1 a2 (ix1 j) = sums o0 o1 o2 o3 a1 a2 (ix2 j (0 : Fin 2)) := by
  unfold numT
  refine (shapeCast_apply _ shapeCasts_S1000000x1_S1000000 (ix1 j) (ix2 j (0 : Fin 1)) ?_).trans ?_
  · rw [Shape.rowMajor_val_two, Shape.rowMajor_val_one]
    show j.val * 1 + 0 = j.val
    omega
  · exact Cert.LibColumns.colsSlice_apply 0 _ slices_S1000000x2_S1000000x1_0_0 j (0 : Fin 1) (0 : Fin 2) rfl

theorem denT_apply (o0 o1 o2 o3 : S8192x128.Idx → EReal) (a1 a2 : IVec S2x3000000 32) (j : Fin 1000000) :
    denT o0 o1 o2 o3 a1 a2 (ix1 j) = sums o0 o1 o2 o3 a1 a2 (ix2 j (1 : Fin 2)) := by
  unfold denT
  refine (shapeCast_apply _ shapeCasts_S1000000x1_S1000000 (ix1 j) (ix2 j (0 : Fin 1)) ?_).trans ?_
  · rw [Shape.rowMajor_val_two, Shape.rowMajor_val_one]
    show j.val * 1 + 0 = j.val
    omega
  · exact Cert.LibColumns.colsSlice_apply 1 _ slices_S1000000x2_S1000000x1_0_1 j (0 : Fin 1) (1 : Fin 2) rfl

/-- The zeros a scatter starts from. -/
theorem zeros_apply (i : S1000000x2.Idx) :
    broadcastInDim S1000000x2 ![] bcast_S_S1000000x2 (constant (F := Ideal) S_ .f32 0x00000000#32) i = (0 : EReal) :=
  (broadcastInDim_apply _ bcast_S_S1000000x2 (constant (F := Ideal) S_ .f32 0x00000000#32) i ix0 (fun a => a.elim0)).trans
    Ideal.ofBits_zero_f32

/-- Entry (j, q) of the rows added at the clause words: the sum, over the edges whose clause word names clause j, of
    the edge's entry q. -/
theorem scattered_apply (c : IVec S3000000 32) (u : S3000000x2.Idx → EReal) (j : Fin 1000000) (q : Fin 2) :
    scattered c u (ix2 j q)
      = ∑ k ∈ Finset.univ.filter (fun k : Fin 3000000 => Cert.Spec.clauseOf (c (ix1 k)) = some j), u (ix2 k q) := by
  unfold scattered
  rw [clauseScatterAdd_apply, zeros_apply, zero_add]
  refine Finset.sum_congr (Finset.filter_congr fun k _ => ?_) (fun _ _ => rfl)
  rw [wordCol_apply]

/-! ## A clause's numerator and denominator -/

/-- Clause j's numerator: the weighted values of its positive edges' variables, then of its negative edges'. -/
theorem numT_sum (o0 o1 o2 o3 : S8192x128.Idx → EReal) (a1 a2 : IVec S2x3000000 32) (j : Fin 1000000) :
    numT o0 o1 o2 o3 a1 a2 (ix1 j)
      = (∑ k ∈ Finset.univ.filter (fun k : Fin 3000000 => Cert.Spec.clauseOf (a1 (ix2 (0 : Fin 2) k)) = some j),
          flat o0 (Cert.Spec.varOf (Cert.Spec.wrap (a1 (ix2 (1 : Fin 2) k)))))
        + (∑ k ∈ Finset.univ.filter (fun k : Fin 3000000 => Cert.Spec.clauseOf (a2 (ix2 (0 : Fin 2) k)) = some j),
          flat o2 (Cert.Spec.varOf (Cert.Spec.wrap (a2 (ix2 (1 : Fin 2) k))))) := by
  rw [numT_apply, sums_apply, scattered_apply, scattered_apply]
  refine congrArg₂ (· + ·) ?_ ?_
  · refine Finset.sum_congr (Finset.filter_congr fun k _ => ?_) (fun k _ => ?_)
    · rw [clauseWords_apply]
    · rw [gathered_apply0, cutFlat_apply, varWords_apply]
  · refine Finset.sum_congr (Finset.filter_congr fun k _ => ?_) (fun k _ => ?_)
    · rw [clauseWords_apply]
    · rw [gathered_apply0, cutFlat_apply, varWords_apply]

/-- Clause j's denominator: the weights of its positive edges' variables, then of its negative edges'. -/
theorem denT_sum (o0 o1 o2 o3 : S8192x128.Idx → EReal) (a1 a2 : IVec S2x3000000 32) (j : Fin 1000000) :
    denT o0 o1 o2 o3 a1 a2 (ix1 j)
      = (∑ k ∈ Finset.univ.filter (fun k : Fin 3000000 => Cert.Spec.clauseOf (a1 (ix2 (0 : Fin 2) k)) = some j),
          flat o1 (Cert.Spec.varOf (Cert.Spec.wrap (a1 (ix2 (1 : Fin 2) k)))))
        + (∑ k ∈ Finset.univ.filter (fun k : Fin 3000000 => Cert.Spec.clauseOf (a2 (ix2 (0 : Fin 2) k)) = some j),
          flat o3 (Cert.Spec.varOf (Cert.Spec.wrap (a2 (ix2 (1 : Fin 2) k))))) := by
  rw [denT_apply, sums_apply, scattered_apply, scattered_apply]
  refine congrArg₂ (· + ·) ?_ ?_
  · refine Finset.sum_congr (Finset.filter_congr fun k _ => ?_) (fun k _ => ?_)
    · rw [clauseWords_apply]
    · rw [gathered_apply1, cutFlat_apply, varWords_apply]
  · refine Finset.sum_congr (Finset.filter_congr fun k _ => ?_) (fun k _ => ?_)
    · rw [clauseWords_apply]
    · rw [gathered_apply1, cutFlat_apply, varWords_apply]

/-- The numerators' buffer after the stretch, at clause j. -/
theorem num_apply (V : Valuation τ sig (Elt Ideal)) (j : Fin 1000000) :
    (StableHlo.after (hostOps1 (F := Ideal)) V (Proc.devRef .tc main_v48) : S1000000.Idx → EReal) (ix1 j)
      = (∑ k ∈ Finset.univ.filter (fun k : Fin 3000000 =>
            Cert.Spec.clauseOf ((V (Proc.devRef .tc main_arg1) : IVec S2x3000000 32) (ix2 (0 : Fin 2) k)) = some j),
          flat (V (Proc.devRef .tc main_v3_0))
            (Cert.Spec.varOf (Cert.Spec.wrap ((V (Proc.devRef .tc main_arg1) : IVec S2x3000000 32) (ix2 (1 : Fin 2) k)))))
        + (∑ k ∈ Finset.univ.filter (fun k : Fin 3000000 =>
            Cert.Spec.clauseOf ((V (Proc.devRef .tc main_arg2) : IVec S2x3000000 32) (ix2 (0 : Fin 2) k)) = some j),
          flat (V (Proc.devRef .tc main_v3_2))
            (Cert.Spec.varOf (Cert.Spec.wrap ((V (Proc.devRef .tc main_arg2) : IVec S2x3000000 32) (ix2 (1 : Fin 2) k))))) :=
  (congrFun (num_after V) (ix1 j)).trans
    (numT_sum (V (Proc.devRef .tc main_v3_0)) (V (Proc.devRef .tc main_v3_1)) (V (Proc.devRef .tc main_v3_2))
      (V (Proc.devRef .tc main_v3_3)) (V (Proc.devRef .tc main_arg1)) (V (Proc.devRef .tc main_arg2)) j)

/-- The denominators' buffer after the stretch, at clause j. -/
theorem den_apply (V : Valuation τ sig (Elt Ideal)) (j : Fin 1000000) :
    (StableHlo.after (hostOps1 (F := Ideal)) V (Proc.devRef .tc main_v50) : S1000000.Idx → EReal) (ix1 j)
      = (∑ k ∈ Finset.univ.filter (fun k : Fin 3000000 =>
            Cert.Spec.clauseOf ((V (Proc.devRef .tc main_arg1) : IVec S2x3000000 32) (ix2 (0 : Fin 2) k)) = some j),
          flat (V (Proc.devRef .tc main_v3_1))
            (Cert.Spec.varOf (Cert.Spec.wrap ((V (Proc.devRef .tc main_arg1) : IVec S2x3000000 32) (ix2 (1 : Fin 2) k)))))
        + (∑ k ∈ Finset.univ.filter (fun k : Fin 3000000 =>
            Cert.Spec.clauseOf ((V (Proc.devRef .tc main_arg2) : IVec S2x3000000 32) (ix2 (0 : Fin 2) k)) = some j),
          flat (V (Proc.devRef .tc main_v3_3))
            (Cert.Spec.varOf (Cert.Spec.wrap ((V (Proc.devRef .tc main_arg2) : IVec S2x3000000 32) (ix2 (1 : Fin 2) k))))) :=
  (congrFun (den_after V) (ix1 j)).trans
    (denT_sum (V (Proc.devRef .tc main_v3_0)) (V (Proc.devRef .tc main_v3_1)) (V (Proc.devRef .tc main_v3_2))
      (V (Proc.devRef .tc main_v3_3)) (V (Proc.devRef .tc main_arg1)) (V (Proc.devRef .tc main_arg2)) j)

end Cert.KernelIdeal.Hand

end
-- ==== Proof.KI.LossPieces.lean ====
import proofs.«138174_j12378095747451_2_alg».proof.Proof.KI.LossRegion
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the loss kernel): what the pieces its runs found ARE, in the skeleton's payloads -/

/-- Zero offsets, however they are spelt. -/
theorem hz1 : (![0, 0] : Fin 2 → Nat) = fun _ => 0 := funext fun a => by fin_cases a <;> rfl

/-- What the first point leaves in the accumulator: the point's partial sum added to the zeros just stored. -/
theorem sout1_A_0_eq (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : cond1_0 i) (hc1 : ¬cond1_1 i)
    (x0 : Vec F S1024x128 .f32) (x1 : Vec F S1024x128 .f32) (x2 : Vec F S1024x128 .f32) :
    sout1_A_0 c i arg1 harg1 arg2 harg2 arg3 harg3 arg4 harg4 arg5 harg5 hc0 hc1 x0 x1 x2 = k1_pay1 (k1_pay4 i x0 x1 x2) (k1_pay3 (F := F)) := by
  unfold sout1_A_0
  rw [View.read_writes_eq_canon _ _ _ (scover1_A_0 c i arg1 harg1 arg2 harg2 arg3 harg3 arg4 harg4 arg5 harg5 hc0 hc1 x0 x1 x2)]
  unfold kernelRun1_A
  dsimp only
  sl_unfold_words
  rw [View.canon_cons_unit_zero (S := S1x1) hz1, View.readCov_unit_zero (S := S1x1) _ hz1]
  simp only [View.readAt_eq_ld, harg1.read_unread, harg2.read_unread, harg3.read_unread, View.ld_unit_zero (S := S1024x128) hz1]

/-- What a point strictly between the first and the last leaves in the accumulator: the point's partial sum added to
    what the point before left. -/
theorem sout1_B_0_eq (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : ¬cond1_1 i)
    (x0 : Vec F S1024x128 .f32) (x1 : Vec F S1024x128 .f32) (x2 : Vec F S1024x128 .f32) (xs0 : Vec F S1x1 .f32) :
    sout1_B_0 c i arg1 harg1 arg2 harg2 arg3 harg3 arg4 harg4 arg5 harg5 hc0 hc1 x0 x1 x2 xs0 = k1_pay1 (k1_pay4 i x0 x1 x2) xs0 := by
  unfold sout1_B_0
  rw [View.read_writes_eq_canon _ _ _ (scover1_B_0 c i arg1 harg1 arg2 harg2 arg3 harg3 arg4 harg4 arg5 harg5 hc0 hc1 x0 x1 x2 xs0)]
  unfold kernelRun1_B
  dsimp only
  sl_unfold_words
  rw [View.canon_unit_zero (S := S1x1) hz1]
  simp only [View.readAt_eq_ld, harg1.read_unread, harg2.read_unread, harg3.read_unread, harg5.read_unread, View.ld_unit_zero (S := S1024x128) hz1, View.ld_unit_zero (S := S1x1) hz1]

/-- The same at the last point. -/
theorem sout1_C_0_eq (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x128 .f32) (x1 : Vec F S1024x128 .f32) (x2 : Vec F S1024x128 .f32) (xs0 : Vec F S1x1 .f32) :
    sout1_C_0 c i arg1 harg1 arg2 harg2 arg3 harg3 arg4 harg4 arg5 harg5 hc0 hc1 x0 x1 x2 xs0 = k1_pay1 (k1_pay4 i x0 x1 x2) xs0 := by
  unfold sout1_C_0
  rw [View.read_writes_eq_canon _ _ _ (scover1_C_0 c i arg1 harg1 arg2 harg2 arg3 harg3 arg4 harg4 arg5 harg5 hc0 hc1 x0 x1 x2 xs0)]
  unfold kernelRun1_C
  dsimp only
  sl_unfold_words
  rw [View.canon_unit_zero (S := S1x1) hz1]
  simp only [View.readAt_eq_ld, harg1.read_unread, harg2.read_unread, harg3.read_unread, harg5.read_unread, View.ld_unit_zero (S := S1024x128) hz1, View.ld_unit_zero (S := S1x1) hz1]

/-- What the last point stores into the output window: the accumulator it has just updated, divided by the count. -/
theorem out1_C_3_eq (c : Dev nD) (i : grid1.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1x1 .f32) (harg4 : arg4.IsWhole) (arg5 : Memref sig .tc .vmem S1x1 .f32) (harg5 : arg5.IsWhole) (hc0 : ¬cond1_0 i) (hc1 : cond1_1 i)
    (x0 : Vec F S1024x128 .f32) (x1 : Vec F S1024x128 .f32) (x2 : Vec F S1024x128 .f32) (xs0 : Vec F S1x1 .f32) :
    out1_C_3 c i arg1 harg1 arg2 harg2 arg3 harg3 arg4 harg4 arg5 harg5 hc0 hc1 x0 x1 x2 xs0 = k1_pay2 (k1_pay1 (k1_pay4 i x0 x1 x2) xs0) := by
  unfold out1_C_3
  rw [View.read_writes_eq_canon _ _ _ (cover1_C_3 c i arg1 harg1 arg2 harg2 arg3 harg3 arg4 harg4 arg5 harg5 hc0 hc1 x0 x1 x2 xs0)]
  unfold kernelRun1_C
  dsimp only
  sl_unfold_words
  rw [View.canon_unit_zero (S := S1x1) hz1, View.readCov_unit_zero (S := S1x1) _ hz1]
  simp only [View.readAt_eq_ld, harg1.read_unread, harg2.read_unread, harg3.read_unread, harg5.read_unread, View.ld_unit_zero (S := S1024x128) hz1, View.ld_unit_zero (S := S1x1) hz1]

/-! ## The same, point by point -/

/-- The accumulator after the first point. -/
theorem outsAt1_zero_snd (c : Dev nD) (hn : 0 < cfg1.N) :
    (outsAt1 V c 0 hn).2 = k1_pay1 (k1_pay4 (grid1.coords (⟨0, hn⟩ : Fin cfg1.N)) (iblk1 V c 0 (⟨0, hn⟩ : Fin cfg1.N)) (iblk1 V c 1 (⟨0, hn⟩ : Fin cfg1.N)) (iblk1 V c 2 (⟨0, hn⟩ : Fin cfg1.N))) (k1_pay3 (F := F)) :=
  sout1_A_0_eq c (grid1.coords (⟨0, hn⟩ : Fin cfg1.N)) (ms1_0 (⟨0, hn⟩ : Fin cfg1.N)) (hs1_0 (⟨0, hn⟩ : Fin cfg1.N)) (ms1_1 (⟨0, hn⟩ : Fin cfg1.N)) (hs1_1 (⟨0, hn⟩ : Fin cfg1.N)) (ms1_2 (⟨0, hn⟩ : Fin cfg1.N)) (hs1_2 (⟨0, hn⟩ : Fin cfg1.N)) (ms1_3 (⟨0, hn⟩ : Fin cfg1.N)) (hs1_3 (⟨0, hn⟩ : Fin cfg1.N)) scM1_0 (Memref.isWhole_whole _) ((hcond1_0 ⟨0, hn⟩).mpr (Nat.zero_mod _)) (fun h => (fun h => by (try dsimp only at h); omega) ((hcond1_1 ⟨0, hn⟩).mp h)) (iblk1 V c 0 (⟨0, hn⟩ : Fin cfg1.N)) (iblk1 V c 1 (⟨0, hn⟩ : Fin cfg1.N)) (iblk1 V c 2 (⟨0, hn⟩ : Fin cfg1.N))

/-- The accumulator after a later point: the point's partial sum added to what the point before left. -/
theorem outsAt1_succ_snd (c : Dev nD) (n : ℕ) (hn : n + 1 < cfg1.N) :
    (outsAt1 V c (n + 1) hn).2 = k1_pay1 (k1_pay4 (grid1.coords (⟨n + 1, hn⟩ : Fin cfg1.N)) (iblk1 V c 0 (⟨n + 1, hn⟩ : Fin cfg1.N)) (iblk1 V c 1 (⟨n + 1, hn⟩ : Fin cfg1.N)) (iblk1 V c 2 (⟨n + 1, hn⟩ : Fin cfg1.N))) (outsAt1 V c n (Nat.lt_of_succ_lt hn)).2 := by
  have hN : n + 1 < 8 := lt_of_lt_of_eq hn (show cfg1.N = 8 from N_1)
  have h0 : ¬(n + 1) % 8 = 0 := by omega
  by_cases h1 : (n + 1) % 8 = 7
  · rw [outsAt1_C V c (⟨n + 1, hn⟩ : Fin cfg1.N) h0 h1]; dsimp only
    exact sout1_C_0_eq c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) (ms1_3 (⟨n + 1, hn⟩ : Fin cfg1.N)) (hs1_3 (⟨n + 1, hn⟩ : Fin cfg1.N)) scM1_0 (Memref.isWhole_whole _) (fun h => h0 ((hcond1_0 (⟨n + 1, hn⟩ : Fin cfg1.N)).mp h)) ((hcond1_1 (⟨n + 1, hn⟩ : Fin cfg1.N)).mpr h1) (iblk1 V c 0 (⟨n + 1, hn⟩ : Fin cfg1.N)) (iblk1 V c 1 (⟨n + 1, hn⟩ : Fin cfg1.N)) (iblk1 V c 2 (⟨n + 1, hn⟩ : Fin cfg1.N)) (outsAt1 V c n (Nat.lt_of_succ_lt hn)).2
  · rw [outsAt1_B V c (⟨n + 1, hn⟩ : Fin cfg1.N) h0 h1]; dsimp only
    exact sout1_B_0_eq c (grid1.coords (⟨n + 1, hn⟩ : Fin cfg1.N)) (ms1_0 (⟨n + 1, hn⟩ : Fin cfg1.N)) (hs1_0 (⟨n + 1, hn⟩ : Fin cfg1.N)) (ms1_1 (⟨n + 1, hn⟩ : Fin cfg1.N)) (hs1_1 (⟨n + 1, hn⟩ : Fin cfg1.N)) (ms1_2 (⟨n + 1, hn⟩ : Fin cfg1.N)) (hs1_2 (⟨n + 1, hn⟩ : Fin cfg1.N)) (ms1_3 (⟨n + 1, hn⟩ : Fin cfg1.N)) (hs1_3 (⟨n + 1, hn⟩ : Fin cfg1.N)) scM1_0 (Memref.isWhole_whole _) (fun h => h0 ((hcond1_0 (⟨n + 1, hn⟩ : Fin cfg1.N)).mp h)) (fun h => h1 ((hcond1_1 (⟨n + 1, hn⟩ : Fin cfg1.N)).mp h)) (iblk1 V c 0 (⟨n + 1, hn⟩ : Fin cfg1.N)) (iblk1 V c 1 (⟨n + 1, hn⟩ : Fin cfg1.N)) (iblk1 V c 2 (⟨n + 1, hn⟩ : Fin cfg1.N)) (outsAt1 V c n (Nat.lt_of_succ_lt hn)).2

/-- The output window's buffer after a point where the second conditional is taken: the accumulator as that point
    leaves it, divided by the count. -/
theorem outsAt1_fst_of_last (c : Dev nD) (t : Fin cfg1.N) (h1 : t.val % 8 = 7) :
    (outsAt1 V c t.val t.isLt).1 = k1_pay2 (outsAt1 V c t.val t.isLt).2 := by
  have hN : t.val < 8 := lt_of_lt_of_eq t.isLt (show cfg1.N = 8 from N_1)
  have h0 : ¬t.val % 8 = 0 := by omega
  rw [outsAt1_C V c t h0 h1]; dsimp only
  rw [out1_C_3_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
    sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2]

/-- The output window's buffer after the last point. -/
theorem outsAt1_last_fst (c : Dev nD) (hn : 7 < cfg1.N) :
    (outsAt1 V c 7 hn).1 = k1_pay2 (outsAt1 V c 7 hn).2 :=
  outsAt1_fst_of_last V c ⟨7, hn⟩ rfl

end Cert.KernelIdeal.Hand

end
-- ==== Proof.KI.PayRows.lean ====
import proofs.«138174_j12378095747451_2_alg».proof.Proof.KI.Payloads

/-!
# A row's sum of the masked squared errors, over the extended reals

The second kernel's body computes, for each of the 1024 rows of its block, the sum over the row's 128 lanes of the
squared error of the cell, masked to zero where the cell's flat position `128·(1024·t + r) + l` is not a clause
(`≥ 1000000`). The flat position is computed in 32-bit words from the block's grid coordinate and two iotas; it stays
below `2^20`, so the words are the numbers.
-/

set_option maxRecDepth 16384

noncomputable section

open scoped BigOperators

namespace Cert.KernelIdeal.Hand

open Cert.KernelIdeal Cert.KernelIdeal.Gen
open Idealize.ShloMosaic Idealize.ShloMosaic.ValueIdx

/-! ## The mask -/

/-- The mask at lane `l` of row `r` of block `t`: the flat position `128·(1024·t + r) + l`, computed in 32-bit words
    without overflow (it is below `2^20`), compared signed with `1000000`. -/
theorem mask_word (t r l : Nat) (ht : t < 8) (hr : r < 1024) (hl : l < 128) :
    Scalar.cmpi .slt (Scalar.addi (Scalar.muli (Scalar.addi (Scalar.muli (BitVec.ofNat 32 t) 1024#32) (BitVec.ofNat 32 r)) 128#32) (BitVec.ofNat 32 l)) 1000000#32
      = if 128 * (1024 * t + r) + l < 1000000 then 1#1 else 0#1 := by
  have e : Scalar.addi (Scalar.muli (Scalar.addi (Scalar.muli (BitVec.ofNat 32 t) 1024#32) (BitVec.ofNat 32 r)) 128#32) (BitVec.ofNat 32 l)
      = BitVec.ofNat 32 (128 * (1024 * t + r) + l) := by
    simp only [Scalar.addi, Scalar.muli, IntOp.addi, IntOp.muli]
    apply BitVec.eq_of_toNat_eq
    simp only [BitVec.toNat_add, BitVec.toNat_mul, BitVec.toNat_ofNat]
    omega
  rw [e]
  have hq : 128 * (1024 * t + r) + l < 2 ^ 20 := by omega
  generalize 128 * (1024 * t + r) + l = q at hq ⊢
  have hi : (BitVec.ofNat 32 q).toInt = (q : ℤ) := by
    rw [BitVec.toInt_eq_toNat_cond, BitVec.toNat_ofNat]
    have : q % 2 ^ 32 = q := Nat.mod_eq_of_lt (by omega)
    rw [this, if_pos (by omega)]
  have hm : (1000000#32 : BitVec 32).toInt = 1000000 := by decide
  simp only [Scalar.cmpi, IntOp.cmpi, BitVec.slt, hi, hm]
  by_cases h : q < 1000000
  · rw [if_pos h, decide_eq_true (by exact_mod_cast h)]; rfl
  · rw [if_neg h, decide_eq_false (by exact_mod_cast h)]; rfl

/-- One cell over the extended reals: where the mask holds, the select keeps the denominator and the squared distance
    of the logistic to the target (the kernel's `exp (0 - z)` is `exp (-z)`); where it does not, the zero word. -/
theorem cell_word (t r l : Nat) (ht : t < 8) (hr : r < 1024) (hl : l < 128) (n d c : EReal) :
    Scalar.select
        (Scalar.cmpi .slt (Scalar.addi (Scalar.muli (Scalar.addi (Scalar.muli (BitVec.ofNat 32 t) 1024#32) (BitVec.ofNat 32 r)) 128#32) (BitVec.ofNat 32 l)) 1000000#32)
        ((Ideal.div Cert.Spec.one (Cert.Spec.one + Ideal.exp (Ideal.ofBits .f32 0x00000000#32 - Cert.Spec.ten *
              (Ideal.div n (Scalar.select
                (Scalar.cmpi .slt (Scalar.addi (Scalar.muli (Scalar.addi (Scalar.muli (BitVec.ofNat 32 t) 1024#32) (BitVec.ofNat 32 r)) 128#32) (BitVec.ofNat 32 l)) 1000000#32)
                d Cert.Spec.one) - Cert.Spec.half))) - c)
          * (Ideal.div Cert.Spec.one (Cert.Spec.one + Ideal.exp (Ideal.ofBits .f32 0x00000000#32 - Cert.Spec.ten *
              (Ideal.div n (Scalar.select
                (Scalar.cmpi .slt (Scalar.addi (Scalar.muli (Scalar.addi (Scalar.muli (BitVec.ofNat 32 t) 1024#32) (BitVec.ofNat 32 r)) 128#32) (BitVec.ofNat 32 l)) 1000000#32)
                d Cert.Spec.one) - Cert.Spec.half))) - c))
        (Ideal.ofBits .f32 0x00000000#32)
      = Cert.Spec.cell (128 * (1024 * t + r) + l) n d c := by
  rw [mask_word t r l ht hr hl]
  unfold Cert.Spec.cell
  by_cases h : 128 * (1024 * t + r) + l < 1000000
  · simp only [if_pos h]
    unfold Scalar.select Cert.Spec.sq Cert.Spec.sigm
    have h1 : (1#1 : BitVec 1) = 1 := rfl
    rw [if_pos h1, if_pos h1, Ideal.ofBits_zero_f32, zero_sub]
  · simp only [if_neg h]
    unfold Scalar.select
    rw [if_neg (by decide)]
    exact Ideal.ofBits_zero_f32

/-- The row iota reads the row. -/
theorem iota_rows (h : S1024x128.Iotas .tc 32 [0]) : iota .tc S1024x128 32 [0] h = fun j => BitVec.ofNat 32 (j 0).val :=
  funext fun j => iota_single_apply _ _ _ _ h j
/-- The lane iota reads the lane. -/
theorem iota_lanes (h : S1024x128.Iotas .tc 32 [1]) : iota .tc S1024x128 32 [1] h = fun j => BitVec.ofNat 32 (j 1).val :=
  funext fun j => iota_single_apply _ _ _ _ h j

/-- A row's sum: the sum over the row's 128 lanes of the cells at the flat positions of block `i 0`, row `r`. -/
theorem pay_rows (i : grid1.Coords) (n d cc : Vec Ideal S1024x128 .f32) (r : Fin 1024) :
    k1_pay4 (F := Ideal) i n d cc (ix2 r (0 : Fin 1))
      = ∑ l : Fin 128, Cert.Spec.cell (128 * (1024 * (i 0).val + r.val) + l.val) (n (ix2 r l)) (d (ix2 r l)) (cc (ix2 r l)) := by
  have ht : (i 0).val < 8 := (i 0).isLt
  unfold k1_pay4
  simp only [shapeCast_self]
  rw [iota_rows, iota_lanes]
  refine (shapeCast_apply _ _ (ix2 r (0 : Fin 1)) (ix1 r) ?_).trans ?_
  · rw [Shape.rowMajor_val_one, Shape.rowMajor_val_two]
    show (r : ℕ) = (r : ℕ) * 1 + 0
    omega
  refine (Ideal.multiReduction_add_single _ _ _ _ _ (ix1 r)).trans ?_
  refine Finset.sum_congr rfl fun l _ => ?_
  have hl : (reduces_S1024x128_S1024).lift (ix1 r) l = ix2 r l := funext fun a => by
    match a with
    | ⟨0, _⟩ => rfl
    | ⟨1, _⟩ => rfl
  rw [hl]
  exact cell_word (i 0).val r.val l.val ht r.isLt l.isLt (n (ix2 r l)) (d (ix2 r l)) (cc (ix2 r l))

end Cert.KernelIdeal.Hand

end
-- ==== Proof.KI.LossValue.lean ====
/-
  The second region's result array after the run, in closed form over the extended reals: its one entry is the sum,
  over the 8192 rows of 128 cells of the padded layout, of the cells' masked squared errors, divided by the number of
  clauses. Point `t` of the grid reads rows `[1024 t, 1024 t + 1024)` of the three input arrays and adds their
  cells' sum to the accumulator; the last point divides the accumulator into the result.
-/
import proofs.«138174_j12378095747451_2_alg».proof.Proof.KI.LossPieces
import proofs.«138174_j12378095747451_2_alg».proof.Proof.KI.Payloads
import proofs.«138174_j12378095747451_2_alg».proof.Proof.KI.PayRows

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The grid and the index maps -/

/-- The printed index maps, decided over the grid: each input window's block at point `t` is block row `t`, block
    column 0; the result window's block is the whole one-entry array at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

/-- The one grid coordinate of point `t` is `t`. -/
theorem coords1 : ∀ t : Fin cfg1.N, ((grid1.coords t) 0).val = t.val :=
  (by decide +kernel : ∀ t : Fin grid1.N, ((grid1.coords t) 0).val = t.val)

/-- The one index of a one-entry array. -/
theorem idx11 (j : (⟨2, ![1, 1]⟩ : Shape).Idx) : j = ix2 (0 : Fin 1) (0 : Fin 1) := by
  have h0 : (j 0).val < 1 := (j 0).isLt
  have h1 : (j 1).val < 1 := (j 1).isLt
  funext a
  match a with
  | ⟨0, _⟩ => exact Fin.ext (by show (j 0).val = 0; omega)
  | ⟨1, _⟩ => exact Fin.ext (by show (j 1).val = 0; omega)

/-! ## Rows, blocks and their sums -/

/-- The sum of the cells of row `p` of the padded layout. -/
def row1 (c : Dev nD) (p : Fin 8192) : EReal :=
  ∑ l : Fin 128, Cert.Spec.cell (128 * p.val + l.val) (V c main_v54 (ix2 p l)) (V c main_v55 (ix2 p l)) (V c main_v56 (ix2 p l))

/-- The same at a row number, nothing past the last row. -/
def rowN (c : Dev nD) (p : ℕ) : EReal := if h : p < 8192 then row1 V c ⟨p, h⟩ else 0

/-- The sum of the cells of the 1024 rows of block `t`. -/
def blk1 (c : Dev nD) (t : ℕ) : EReal := ∑ r : Fin 1024, rowN V c (1024 * t + r.val)

/-- What point `t` adds to the accumulator — the sum over its block's rows of the body's row sums — is the sum of the
    cells of block `t`: the row sums by the payload's reading, the input blocks read where they lie in their arrays. -/
theorem blockSum1 (c : Dev nD) (t : Fin cfg1.N) :
    ∑ r : Fin 1024, k1_pay4 (F := Ideal) (grid1.coords t) (iblk1 V c 0 t) (iblk1 V c 1 t) (iblk1 V c 2 t) (ix2 r (0 : Fin 1))
      = blk1 V c t.val := by
  have hN : t.val < 8 := lt_of_lt_of_eq t.isLt (show cfg1.N = 8 from N_1)
  obtain ⟨e00, e01, e10, e11, e20, e21, e30, e31⟩ := idx_facts1 t
  have hc : ((grid1.coords t) 0).val = t.val := coords1 t
  unfold blk1
  refine Finset.sum_congr rfl fun r _ => ?_
  refine (pay_rows (grid1.coords t) (iblk1 V c 0 t) (iblk1 V c 1 t) (iblk1 V c 2 t) r).trans ?_
  have hr : r.val < 1024 := r.isLt
  have hp : 1024 * t.val + r.val < 8192 := by omega
  unfold rowN; rw [dif_pos hp]; unfold row1
  refine Finset.sum_congr rfl fun l _ => ?_
  rw [hc]
  have h0 : iblk1 V c 0 t (ix2 r l) = V c main_v54 (ix2 (⟨1024 * t.val + r.val, hp⟩ : Fin 8192) l) := by
    show V c main_v54 (((cfg1.win 0).blk t).view.emb (ix2 r l)) = _
    refine congrArg (V c main_v54) (funext fun a => Fin.ext ?_)
    match a with
    | ⟨0, _⟩ => show win1_0.index t (0 : Fin 2) * 1024 + 1 * r.val = 1024 * t.val + r.val; omega
    | ⟨1, _⟩ => show win1_0.index t (1 : Fin 2) * 128 + 1 * l.val = l.val; omega
  have h1 : iblk1 V c 1 t (ix2 r l) = V c main_v55 (ix2 (⟨1024 * t.val + r.val, hp⟩ : Fin 8192) l) := by
    show V c main_v55 (((cfg1.win 1).blk t).view.emb (ix2 r l)) = _
    refine congrArg (V c main_v55) (funext fun a => Fin.ext ?_)
    match a with
    | ⟨0, _⟩ => show win1_1.index t (0 : Fin 2) * 1024 + 1 * r.val = 1024 * t.val + r.val; omega
    | ⟨1, _⟩ => show win1_1.index t (1 : Fin 2) * 128 + 1 * l.val = l.val; omega
  have h2 : iblk1 V c 2 t (ix2 r l) = V c main_v56 (ix2 (⟨1024 * t.val + r.val, hp⟩ : Fin 8192) l) := by
    show V c main_v56 (((cfg1.win 2).blk t).view.emb (ix2 r l)) = _
    refine congrArg (V c main_v56) (funext fun a => Fin.ext ?_)
    match a with
    | ⟨0, _⟩ => show win1_2.index t (0 : Fin 2) * 1024 + 1 * r.val = 1024 * t.val + r.val; omega
    | ⟨1, _⟩ => show win1_2.index t (1 : Fin 2) * 128 + 1 * l.val = l.val; omega
  rw [h0, h1, h2]

/-! ## The accumulator and the result buffer, point by point -/

/-- After point `n` the accumulator's one entry is the sum of the cells of the blocks up to `n`. -/
theorem acc1 (c : Dev nD) : ∀ (n : ℕ) (hn : n < cfg1.N),
    (outsAt1 V c n hn).2 (ix2 (0 : Fin 1) (0 : Fin 1)) = ∑ t ∈ Finset.range (n + 1), blk1 V c t
  | 0, hn => by
    rw [outsAt1_zero_snd V c hn]
    refine (pay_acc _ _).trans ?_
    rw [pay_zero, zero_add, Finset.sum_range_one]
    exact blockSum1 V c ⟨0, hn⟩
  | n + 1, hn => by
    rw [outsAt1_succ_snd V c n hn]
    refine (pay_acc _ _).trans ?_
    rw [acc1 c n (Nat.lt_of_succ_lt hn), Finset.sum_range_succ _ (n + 1)]
    exact congrArg (_ + ·) (blockSum1 V c ⟨n + 1, hn⟩)

/-- The eight blocks' rows are the 8192 rows. -/
theorem regroup1 (g : ℕ → EReal) :
    ∑ t ∈ Finset.range 8, ∑ r : Fin 1024, g (1024 * t + r.val) = ∑ p : Fin 8192, g p.val := by
  rw [← Fin.sum_univ_eq_sum_range (fun t => ∑ r : Fin 1024, g (1024 * t + r.val)) 8]
  rw [← Fintype.sum_prod_type' (fun (t : Fin 8) (r : Fin 1024) => g (1024 * t.val + r.val))]
  exact Fintype.sum_equiv (finProdFinEquiv : Fin 8 × Fin 1024 ≃ Fin (8 * 1024)) _ (fun p : Fin 8192 => g p.val)
    (fun x => by show g (1024 * x.1.val + x.2.val) = g (x.2.val + 1024 * x.1.val); rw [Nat.add_comm])

/-- The sum of all the cells. -/
theorem total1 (c : Dev nD) : ∑ t ∈ Finset.range 8, blk1 V c t = ∑ p : Fin 8192, row1 V c p := by
  unfold blk1
  rw [regroup1 (rowN V c)]
  refine Finset.sum_congr rfl fun p _ => ?_
  unfold rowN; rw [dif_pos p.isLt]

/-! ## The result array -/

/-- What a point that writes back (the last) writes: the sum of all the cells divided by the number of clauses. -/
theorem flushed1_3_eq (c : Dev nD) (t : Fin cfg1.N) (hf : (cfg1.win 3).flush t = true) :
    (dat1 V c).flushed 3 t = ((cfg1.win 3).blk t).view.read (Elt Ideal)
      (fun _ => Ideal.div (∑ p : Fin 8192, row1 V c p) Cert.Spec.million) := by
  show (cfg1.win 3).cut (grid1.coords t) ((dat1 V c).after 3 t) = _
  rw [after1_3]
  have h7 : t.val % 8 = 7 := (flush1_3 t).mp hf
  have hN : t.val < 8 := lt_of_lt_of_eq t.isLt (show cfg1.N = 8 from N_1)
  have h8 : t.val + 1 = 8 := by omega
  funext j
  show (outsAt1 V c t.val t.isLt).1 ((cfg1.win 3).xinj (grid1.coords t) j) = Ideal.div (∑ p : Fin 8192, row1 V c p) Cert.Spec.million
  rw [idx11 ((cfg1.win 3).xinj (grid1.coords t) j), outsAt1_fst_of_last V c t h7]
  refine (pay_fin _).trans ?_
  rw [acc1 V c t.val t.isLt, h8, total1]

/-- An index of the array is in point `t`'s block iff each coordinate is in the block's range on its axis. -/
theorem mem_blk1_3 (t : Fin cfg1.N) (i : S1x1.Idx) :
    i ∈ ((cfg1.win 3).blk t).view.set ↔ ∀ a : Fin 2, win1_3.index t a * S1x1.size a ≤ (i a).val ∧ (i a).val < win1_3.index t a * S1x1.size a + S1x1.size a := by
  show i ∈ ((View.whole main_v57).slice (win1_3.rect t)).set ↔ _
  rw [View.set_slice_whole, Rect.mem_set_unit]
  exact Iff.rfl

/-- The one entry is in the last point's block, which is written back. -/
theorem cover1_3 (i : S1x1.Idx) :
    ∃ t : Fin cfg1.N, (cfg1.win 3).flush t = true ∧ i ∈ ((cfg1.win 3).blk t).view.set := by
  have hi0 : (i 0).val < 1 := (i 0).isLt
  have hi1 : (i 1).val < 1 := (i 1).isLt
  have hN : cfg1.N = 8 := N_1
  refine ⟨⟨7, by rw [hN]; omega⟩, (flush1_3 _).mpr rfl, ?_⟩
  rw [mem_blk1_3]
  obtain ⟨e00, e01, e10, e11, e20, e21, e30, e31⟩ := idx_facts1 ⟨7, by rw [hN]; omega⟩
  intro a
  match a with
  | ⟨0, _⟩ => show win1_3.index _ (0 : Fin 2) * 1 ≤ (i 0).val ∧ (i 0).val < win1_3.index _ (0 : Fin 2) * 1 + 1; omega
  | ⟨1, _⟩ => show win1_3.index _ (1 : Fin 2) * 1 ≤ (i 1).val ∧ (i 1).val < win1_3.index _ (1 : Fin 2) * 1 + 1; omega

/-- The result array after the run: at its one entry the mean over the clauses of the squared errors, as the sum of
    the padded layout's cells divided by the number of clauses. -/
theorem final1_3 (c : Dev nD) : (dat1 V c).arrAt 3 cfg1.N = fun _ => Ideal.div (∑ p : Fin 8192, ∑ l : Fin 128,
      Cert.Spec.cell (128 * p.val + l.val) (V c main_v54 (ix2 p l)) (V c main_v55 (ix2 p l)) (V c main_v56 (ix2 p l))) Cert.Spec.million :=
  (dat1 V c).arrAt_eq_of_cover 3 (fun _ => Ideal.div (∑ p : Fin 8192, row1 V c p) Cert.Spec.million)
    (fun t hf => flushed1_3_eq V c t hf) cover1_3

end Cert.KernelIdeal.Hand

end
-- ==== Proof.KI.SumCells.lean ====
/-
  The sum over the padded layout's cells is the sum over the clauses: the 8192 rows of 128 cells are the flat
  positions `q = 128 p + l` below 1048576; a cell below 1000000 holds its clause's squared error, a padding cell
  nothing.
-/
import Mathlib.Algebra.BigOperators.Fin
import Idealize.ShloMosaic.PureOps.Ideal
import proofs.«138174_j12378095747451_2_alg».proof.Proof.Spec
import proofs.«138174_j12378095747451_2_alg».proof.Proof.KI.Padv

noncomputable section

open scoped BigOperators

namespace Cert.KernelIdeal.Hand

/-- A sum over a grid of `R` rows of `L` cells of a function of the flat position that vanishes from `n` on is the
    sum over the positions below `n`. -/
theorem sum_grid {M : Type*} [AddCommMonoid M] (R L n : Nat) (hn : n ≤ R * L) (f : Nat → M)
    (hf : ∀ q, n ≤ q → f q = 0) :
    ∑ p : Fin R, ∑ l : Fin L, f (L * p.val + l.val) = ∑ j : Fin n, f j.val := by
  have h1 : ∑ p : Fin R, ∑ l : Fin L, f (L * p.val + l.val) = ∑ q : Fin (R * L), f q.val := by
    rw [← Equiv.sum_comp finProdFinEquiv (fun q : Fin (R * L) => f q.val), Fintype.sum_prod_type]
    refine Finset.sum_congr rfl fun p _ => Finset.sum_congr rfl fun l _ => ?_
    show f (L * p.val + l.val) = f (l.val + L * p.val)
    rw [Nat.add_comm]
  rw [h1, Fin.sum_univ_eq_sum_range (fun q => f q) (R * L), Fin.sum_univ_eq_sum_range (fun q => f q) n]
  symm
  refine Finset.sum_subset (Finset.range_mono hn) fun q _ hq => hf q ?_
  exact Nat.le_of_not_lt fun h => hq (Finset.mem_range.2 h)

/-- The padded layout's cells sum to the clauses' squared errors. -/
theorem sum_cells (N D C : Fin 1000000 → EReal) :
    ∑ p : Fin 8192, ∑ l : Fin 128, Cert.Spec.cell (128 * p.val + l.val) (padv N p l) (padv D p l) (padv C p l)
      = ∑ j : Fin 1000000, Cert.Spec.sq (N j) (D j) (C j) := by
  have key := sum_grid 8192 128 1000000 (by norm_num)
    (fun q => if h : q < 1000000 then Cert.Spec.sq (N ⟨q, h⟩) (D ⟨q, h⟩) (C ⟨q, h⟩) else 0)
    (fun q hq => dif_neg (by omega))
  refine Eq.trans ?_ (key.trans ?_)
  · refine Finset.sum_congr rfl fun p _ => Finset.sum_congr rfl fun l _ => ?_
    by_cases h : 128 * p.val + l.val < 1000000
    · simp only [Cert.Spec.cell, padv, if_pos h, dif_pos h]
    · simp only [Cert.Spec.cell, padv, if_neg h, dif_neg h]
  · exact Finset.sum_congr rfl fun j _ => dif_pos j.isLt

end Cert.KernelIdeal.Hand

end
-- ==== Proof.SpecArgs.lean ====
/-
  The specification's loss as a function of the four argument arrays in the layout both programs take them: the
  variables' values a column [1000000, 1], the two adjacency arrays [2, 3000000] (row 0 the clause words, row 1 the
  variable words; the first array the positive edges, the second the negative), the clause targets [1000000]; the
  result a scalar array.
-/
import proofs.«138174_j12378095747451_2_alg».proof.Proof.Spec

noncomputable section

namespace Cert.SpecArgs

open Idealize.ShloMosaic Idealize.ShloMosaic.ValueIdx

/-- The loss of the four argument arrays, as a scalar array. -/
def lossOf (a0 : (⟨2, ![1000000, 1]⟩ : Shape).Idx → EReal) (a1 a2 : IVec ⟨2, ![2, 3000000]⟩ 32)
    (a3 : (⟨1, ![1000000]⟩ : Shape).Idx → EReal) : (⟨0, ![]⟩ : Shape).Idx → EReal :=
  fun _ => Cert.Spec.loss (fun j => a0 (ix2 j (0 : Fin 1))) (fun j => a3 (ix1 j)) (fun k => a1 (ix2 (1 : Fin 2) k))
    (fun k => a2 (ix2 (1 : Fin 2) k)) (fun k => a1 (ix2 (0 : Fin 2) k)) (fun k => a2 (ix2 (0 : Fin 2) k))

theorem lossOf_apply (a0 : (⟨2, ![1000000, 1]⟩ : Shape).Idx → EReal) (a1 a2 : IVec ⟨2, ![2, 3000000]⟩ 32)
    (a3 : (⟨1, ![1000000]⟩ : Shape).Idx → EReal) (i : (⟨0, ![]⟩ : Shape).Idx) :
    lossOf a0 a1 a2 a3 i
      = Cert.Spec.loss (fun j => a0 (ix2 j (0 : Fin 1))) (fun j => a3 (ix1 j)) (fun k => a1 (ix2 (1 : Fin 2) k))
          (fun k => a2 (ix2 (1 : Fin 2) k)) (fun k => a1 (ix2 (0 : Fin 2) k)) (fun k => a2 (ix2 (0 : Fin 2) k)) := rfl

end Cert.SpecArgs

end
-- ==== Proof.KI.KernelValue.lean ====
/-
  The kernel's result in closed form. Along @main: the per-clause numerators and denominators the long stretch leaves
  are the specification's (the tables read back at the gathered variables, the scatter sums over each polarity's edges);
  the second region's inputs are their padded layouts and the targets'; its one result entry is the mean of the cells,
  which regroup into the mean over the clauses; the last stretch re-lays it as the scalar result.
-/
import proofs.«138174_j12378095747451_2_alg».proof.Proof.KI.KernelTables
import proofs.«138174_j12378095747451_2_alg».proof.Proof.KI.Scatter
import proofs.«138174_j12378095747451_2_alg».proof.Proof.KI.LossValue
import proofs.«138174_j12378095747451_2_alg».proof.Proof.KI.SumCells
import proofs.«138174_j12378095747451_2_alg».proof.Proof.SpecArgs

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ) (ρ : Dev nD → PrngReg) (c : Dev nD)

/-- A table read at a variable's flat position is the per-variable quantity of that variable. -/
theorem flat_v3_0 (v : Fin 1000000) : flat (W4 m ρ c (Proc.devRef .tc main_v3_0)) v = Cert.Spec.vP (xOf m c v) :=
  (W4_main_v3_0 m ρ c _ _).trans (congrArg Cert.Spec.vP (padv_at (xOf m c) v))
theorem flat_v3_1 (v : Fin 1000000) : flat (W4 m ρ c (Proc.devRef .tc main_v3_1)) v = Cert.Spec.eP (xOf m c v) :=
  (W4_main_v3_1 m ρ c _ _).trans (congrArg Cert.Spec.eP (padv_at (xOf m c) v))
theorem flat_v3_2 (v : Fin 1000000) : flat (W4 m ρ c (Proc.devRef .tc main_v3_2)) v = Cert.Spec.vN (xOf m c v) :=
  (W4_main_v3_2 m ρ c _ _).trans (congrArg Cert.Spec.vN (padv_at (xOf m c) v))
theorem flat_v3_3 (v : Fin 1000000) : flat (W4 m ρ c (Proc.devRef .tc main_v3_3)) v = Cert.Spec.eN (xOf m c v) :=
  (W4_main_v3_3 m ρ c _ _).trans (congrArg Cert.Spec.eN (padv_at (xOf m c) v))

/-- The numerators the long stretch leaves are the specification's. -/
theorem W5_num (j : Fin 1000000) :
    (W5 m ρ c (Proc.devRef .tc main_v48) : S1000000.Idx → EReal) (ix1 j)
      = Cert.Spec.num (xOf m c) (gpOf m c) (gnOf m c) (spOf m c) (snOf m c) j := by
  refine (num_apply (W4 m ρ c) j).trans ?_
  rw [W4_main_arg1 m ρ c, W4_main_arg2 m ρ c]
  unfold Cert.Spec.num
  refine congrArg₂ (fun s t : EReal => s + t) (Finset.sum_congr rfl fun k _ => ?_) (Finset.sum_congr rfl fun k _ => ?_)
  · exact flat_v3_0 m ρ c _
  · exact flat_v3_2 m ρ c _

/-- The denominators the long stretch leaves are the specification's. -/
theorem W5_den (j : Fin 1000000) :
    (W5 m ρ c (Proc.devRef .tc main_v50) : S1000000.Idx → EReal) (ix1 j)
      = Cert.Spec.den (xOf m c) (gpOf m c) (gnOf m c) (spOf m c) (snOf m c) j := by
  refine (den_apply (W4 m ρ c) j).trans ?_
  rw [W4_main_arg1 m ρ c, W4_main_arg2 m ρ c]
  unfold Cert.Spec.den
  refine congrArg₂ (fun s t : EReal => s + t) (Finset.sum_congr rfl fun k _ => ?_) (Finset.sum_congr rfl fun k _ => ?_)
  · exact flat_v3_1 m ρ c _
  · exact flat_v3_3 m ρ c _

/-- The second region's three inputs: the padded layouts of the numerators, the denominators and the targets. -/
theorem W11_main_v54 (p : Fin 8192) (l : Fin 128) :
    (W11 m ρ c (Proc.devRef .tc main_v54) : S8192x128.Idx → EReal) (ix2 p l)
      = padv (Cert.Spec.num (xOf m c) (gpOf m c) (gnOf m c) (spOf m c) (snOf m c)) p l := by
  refine (entry1_num_apply (W5 m ρ c) (hostOps1_zero (W4 m ρ c)) p l).trans ?_
  unfold padv
  by_cases h : 128 * p.val + l.val < 1000000
  · rw [dif_pos h, dif_pos h]; exact W5_num m ρ c _
  · rw [dif_neg h, dif_neg h]
theorem W11_main_v55 (p : Fin 8192) (l : Fin 128) :
    (W11 m ρ c (Proc.devRef .tc main_v55) : S8192x128.Idx → EReal) (ix2 p l)
      = padv (Cert.Spec.den (xOf m c) (gpOf m c) (gnOf m c) (spOf m c) (snOf m c)) p l := by
  refine (entry1_den_apply (W5 m ρ c) p l).trans ?_
  unfold padv
  by_cases h : 128 * p.val + l.val < 1000000
  · rw [dif_pos h, dif_pos h]; exact W5_den m ρ c _
  · rw [dif_neg h, dif_neg h]
theorem W11_main_v56 (p : Fin 8192) (l : Fin 128) :
    (W11 m ρ c (Proc.devRef .tc main_v56) : S8192x128.Idx → EReal) (ix2 p l) = padv (ccOf m c) p l := by
  refine (entry1_cc_apply (W5 m ρ c) p l).trans ?_
  unfold padv
  by_cases h : 128 * p.val + l.val < 1000000
  · rw [dif_pos h, dif_pos h, W5_main_arg3 m ρ c]
  · rw [dif_neg h, dif_neg h]

/-- THE KERNEL'S RESULT: the specification's loss of the argument arrays. -/
theorem kernel_value :
    (W13 m ρ c (Proc.devRef .tc main_v58) : S_.Idx → EReal)
      = Cert.SpecArgs.lossOf (m ((c : Thread nD τ).loc main_arg0)) (m ((c : Thread nD τ).loc main_arg1))
          (m ((c : Thread nD τ).loc main_arg2)) (m ((c : Thread nD τ).loc main_arg3)) := by
  refine (result_apply (W12 m ρ c)).trans (funext fun _ => ?_)
  refine (congrFun ((W12_arr m ρ c 3).trans (final1_3 (E11 m ρ) c)) (ix2 (0 : Fin 1) (0 : Fin 1))).trans ?_
  show Ideal.div _ Cert.Spec.million = Ideal.div _ Cert.Spec.million
  refine congrArg (fun s : EReal => Ideal.div s Cert.Spec.million) ?_
  refine (Finset.sum_congr rfl fun p _ => Finset.sum_congr rfl fun l _ => ?_).trans
    ((sum_cells (Cert.Spec.num (xOf m c) (gpOf m c) (gnOf m c) (spOf m c) (snOf m c))
      (Cert.Spec.den (xOf m c) (gpOf m c) (gnOf m c) (spOf m c) (snOf m c)) (ccOf m c)).trans
      (Finset.sum_congr rfl fun j _ => (Cert.Spec.sqErr_eq _ _ _ _ _ _ j).symm))
  exact (congrArg (fun n : EReal => Cert.Spec.cell (128 * p.val + l.val) n _ _) (W11_main_v54 m ρ c p l)).trans
    ((congrArg (fun d : EReal => Cert.Spec.cell (128 * p.val + l.val) _ d _) (W11_main_v55 m ρ c p l)).trans
      (congrArg (fun t : EReal => Cert.Spec.cell (128 * p.val + l.val) _ _ t) (W11_main_v56 m ρ c p l)))

/-- THE KERNEL'S RUN at Ideal: every weakly fair execution terminates with the loss of the argument arrays in the
    result buffer and the four arguments unchanged. -/
theorem kernel_run : θ_run (defs (F := Ideal)) (onTc (τ := τ) (main (F := Ideal))) ⟨m, fun _ => 0, ρ⟩ (fun r => ∀ c : Dev nD,
      r.2.mem ((c.tc : Thread nD τ).loc main_v58)
          = Cert.SpecArgs.lossOf (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (kernel_value m ρ c), (h c).2⟩) (run_named m ρ)

end Cert.KernelIdeal.Hand

end
-- ==== Proof.LibVecScatter.lean ====
/-
  General lemmas for one-dimensional host data: a scatter into a vector of `N` entries from a column of `E` index
  words lands update `e` on the entry its word names read signed, and on none when the word is outside `[0, N)`;
  a two-piece concatenation of vectors read in its first and in its second piece; a sum over a vector's indices
  as a sum over `Fin N`, and split at a cut `n₁ + n₂ = N`.
-/
import Idealize.ShloMosaic.Lib.ValueIdx
import Idealize.ShloMosaic.Lib.Pipeline.Value

noncomputable section

open scoped BigOperators

namespace Cert.LibVecScatter

open Idealize.ShloMosaic Idealize.ShloMosaic.ValueIdx

variable {α : Type}

/-! ## A scatter into a vector from a column of index words -/

/-- The dimension numbers of `x.at[idx].add(u)` for a vector `x` of `N` entries and a column of `E` index words. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

/-- The start of update `j`'s window: its index word, read signed. -/
theorem vecScatter_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) :
    (vecScatter N E wf).start j idx 0 = (idx (ix2 (j 0) (⟨0, Nat.one_pos⟩ : Fin 1))).toInt := by
  unfold ScatterDims.start
  rw [dif_pos (show (0 : Fin 1) ∈ (vecScatter N E wf).scatterDimsToOperandDims from List.mem_singleton.mpr rfl)]
  have hsi : (vecScatter N E wf).siIdx j ⟨List.idxOf (0 : Fin 1) (vecScatter N E wf).scatterDimsToOperandDims,
      List.idxOf_lt_length_iff.2 (List.mem_singleton.mpr rfl)⟩ = ix2 (j 0) (⟨0, Nat.one_pos⟩ : Fin 1) := by
    funext b; refine Fin.ext ?_
    match b with
    | ⟨0, _⟩ => rfl
    | ⟨1, _⟩ => rfl
  rw [hsi]
  rfl

/-- The window has one element: its coordinate is zero. -/
theorem vecScatter_window {N E : Nat} (wf : ScatterDims.WF ⟨1, ![N]⟩ ⟨2, ![E, 1]⟩ ⟨1, ![E]⟩ [] [0] [0] 1)
    (j : (⟨1, ![E]⟩ : Shape).Idx) : (vecScatter N E wf).window j 0 = 0 := by
  unfold ScatterDims.window
  rw [dif_neg]
  intro h
  have h2 := (List.mem_filter.mp h).2
  simp at h2

/-- Update `j` lands on entry `c` exactly when its index word, read signed, is `c`. -/
theorem vecScatter_lands {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (c : Fin N) :
    (vecScatter N E wf).resultIdx? j idx = some (ix1 c)
      ↔ (idx (ix2 (j 0) (⟨0, Nat.one_pos⟩ : Fin 1))).toInt = (c.val : Int) := by
  have hsum : ∀ a : Fin 1, (vecScatter N E wf).start j idx a + ((vecScatter N E wf).window j a : Int)
      = (idx (ix2 (j 0) (⟨0, Nat.one_pos⟩ : Fin 1))).toInt := by
    intro a
    obtain rfl : a = 0 := Subsingleton.elim _ _
    rw [vecScatter_start, vecScatter_window]; simp
  unfold ScatterDims.resultIdx?
  constructor
  · intro h
    split at h
    · rename_i hin
      have h1 := congrFun (Option.some.inj h) 0
      have h2 := congrArg Fin.val h1
      have h3 := hin 0
      rw [hsum 0] at h3
      simp only [hsum 0] at h2
      show _ = (c.val : Int)
      have : ((idx (ix2 (j 0) (⟨0, Nat.one_pos⟩ : Fin 1))).toInt.toNat : Int) = (c.val : Int) := by
        exact_mod_cast h2
      omega
    · exact absurd h (by simp)
  · intro h
    have hin : ∀ a : Fin 1, 0 ≤ (vecScatter N E wf).start j idx a + ((vecScatter N E wf).window j a : Int)
        ∧ (vecScatter N E wf).start j idx a + ((vecScatter N E wf).window j a : Int) < ((⟨1, ![N]⟩ : Shape).size a : Int) := by
      intro a
      obtain rfl : a = 0 := Subsingleton.elim _ _
      rw [hsum 0, h]
      have := c.isLt
      refine ⟨by omega, ?_⟩
      show (c.val : Int) < (N : Int)
      omega
    rw [dif_pos hin]
    congr 1
    funext a
    obtain rfl : a = 0 := Subsingleton.elim _ _
    refine Fin.ext ?_
    show ((vecScatter N E wf).start j idx 0 + ((vecScatter N E wf).window j 0 : Int)).toNat = c.val
    rw [hsum 0, h]; simp

/-! ## A two-piece concatenation of vectors -/

/-- Below the cut, the concatenation is its first piece. -/
theorem concat1_left {n₁ n₂ N : Nat} (h : Shape.Concatenates [(⟨1, ![n₁]⟩ : Shape), ⟨1, ![n₂]⟩] ⟨1, ![N]⟩ 0)
    (x₁ : (⟨1, ![n₁]⟩ : Shape).Idx → α) (x₂ : (⟨1, ![n₂]⟩ : Shape).Idx → α) (k : Fin n₁) (hk : k.val < N) :
    concatenate ⟨1, ![N]⟩ 0 [⟨⟨1, ![n₁]⟩, x₁⟩, ⟨⟨1, ![n₂]⟩, x₂⟩] h (ix1 ⟨k.val, hk⟩) = x₁ (ix1 k) :=
  concatenate_pair_apply_left 0 x₁ x₂ h _ rfl (ix1 k) (fun b => by
    match b with
    | ⟨0, _⟩ => rfl)

/-- From the cut on, the concatenation is its second piece, the cut less. -/
theorem concat1_right {n₁ n₂ N : Nat} (h : Shape.Concatenates [(⟨1, ![n₁]⟩ : Shape), ⟨1, ![n₂]⟩] ⟨1, ![N]⟩ 0)
    (x₁ : (⟨1, ![n₁]⟩ : Shape).Idx → α) (x₂ : (⟨1, ![n₂]⟩ : Shape).Idx → α) (k : Fin n₂) (hk : n₁ + k.val < N) :
    concatenate ⟨1, ![N]⟩ 0 [⟨⟨1, ![n₁]⟩, x₁⟩, ⟨⟨1, ![n₂]⟩, x₂⟩] h (ix1 ⟨n₁ + k.val, hk⟩) = x₂ (ix1 k) :=
  concatenate_pair_apply_right 0 x₁ x₂ h _ rfl rfl (ix1 k)
    (fun b hb => absurd (Subsingleton.elim _ _) hb)
    (by show k.val + n₁ = n₁ + k.val; omega)

/-! ## Sums over a vector's indices -/

/-- A vector's indices are `Fin N`. -/
def idx1Equiv (N : Nat) : Fin N ≃ (⟨1, ![N]⟩ : Shape).Idx where
  toFun := ix1
  invFun := fun j => j 0
  left_inv := fun _ => rfl
  right_inv := fun j => (eq_ix1 j).symm

theorem sum_idx1 {M : Type*} [AddCommMonoid M] {N : Nat} (f : (⟨1, ![N]⟩ : Shape).Idx → M) :
    ∑ j, f j = ∑ k : Fin N, f (ix1 k) :=
  (Equiv.sum_comp (idx1Equiv N) f).symm

/-- A sum over a vector's indices, split at a cut. -/
theorem sum_idx1_split {M : Type*} [AddCommMonoid M] {n₁ n₂ N : Nat} (hN : n₁ + n₂ = N)
    (f : (⟨1, ![N]⟩ : Shape).Idx → M) :
    ∑ j, f j = (∑ k : Fin n₁, f (ix1 ⟨k.val, by omega⟩)) + ∑ k : Fin n₂, f (ix1 ⟨n₁ + k.val, by omega⟩) := by
  subst hN
  rw [sum_idx1, Fin.sum_univ_add]
  rfl

end Cert.LibVecScatter

end
-- ==== Proof.RefIdx.lean ====
/-
  The reference's index-dependent stages read at an index: the edges' variable words (row 1 of an adjacency array,
  wrapped once when negative), the four gathers (the operand at the wrapped word read signed and clamped), the
  three concatenations (positive edges first, negative edges after), and which clause an update lands on (its
  clause word, row 0, read signed and not clamped).
-/
import proofs.«138174_j12378095747451_2_alg».proof.Proof.Gen.ReferenceIdeal.Read
import proofs.«138174_j12378095747451_2_alg».proof.Proof.Spec
import proofs.«138174_j12378095747451_2_alg».proof.Proof.LibTake
import proofs.«138174_j12378095747451_2_alg».proof.Proof.LibVecScatter

noncomputable section

open scoped BigOperators

namespace Cert.ReferenceIdeal.RefValue

open Cert.ReferenceIdeal Cert.ReferenceIdeal.Gen Cert.ReferenceIdeal.Read Idealize.ShloMosaic
  Idealize.ShloMosaic.ValueIdx Cert.LibTake Cert.LibVecScatter

variable (a0 : S1000000x1.Idx → EReal) (a1 a2 : IVec S2x3000000 32) (a3 : S1000000.Idx → EReal)

/-! ## Rows of an adjacency array -/

/-- Entry `k` of row 1 sliced out and flattened is entry `(1, k)`. -/
theorem row1_idx (k : Fin 3000000) : idx_main_v3 (idx_main_v4 (ix1 k)) = ix2 (1 : Fin 2) k := by
  funext a; refine Fin.ext ?_
  match a with
  | ⟨0, _⟩ => rfl
  | ⟨1, _⟩ => exact Nat.mod_eq_of_lt k.isLt

/-- Entry `k` of row 0 sliced out and flattened is entry `(0, k)`. -/
theorem row0_idx (k : Fin 3000000) : idx_main_v47 (idx_main_v48 (ix1 k)) = ix2 (0 : Fin 2) k := by
  funext a; refine Fin.ext ?_
  match a with
  | ⟨0, _⟩ => rfl
  | ⟨1, _⟩ => exact Nat.mod_eq_of_lt k.isLt

theorem v4_at (k : Fin 3000000) : val_main_v4 (F := Ideal) a1 (ix1 k) = a1 (ix2 (1 : Fin 2) k) := by
  rw [val_main_v4_apply, val_main_v3_apply]; exact congrArg a1 (row1_idx k)

theorem v13_at (k : Fin 3000000) : val_main_v13 (F := Ideal) a2 (ix1 k) = a2 (ix2 (1 : Fin 2) k) := by
  rw [val_main_v13_apply, val_main_v12_apply]; exact congrArg a2 (row1_idx k)

theorem v26_at (k : Fin 3000000) : val_main_v26 (F := Ideal) a1 (ix1 k) = a1 (ix2 (1 : Fin 2) k) := by
  rw [val_main_v26_apply, val_main_v25_apply]; exact congrArg a1 (row1_idx k)

theorem v38_at (k : Fin 3000000) : val_main_v38 (F := Ideal) a2 (ix1 k) = a2 (ix2 (1 : Fin 2) k) := by
  rw [val_main_v38_apply, val_main_v37_apply]; exact congrArg a2 (row1_idx k)

theorem v48_at (k : Fin 3000000) : val_main_v48 (F := Ideal) a1 (ix1 k) = a1 (ix2 (0 : Fin 2) k) := by
  rw [val_main_v48_apply, val_main_v47_apply]; exact congrArg a1 (row0_idx k)

theorem v50_at (k : Fin 3000000) : val_main_v50 (F := Ideal) a2 (ix1 k) = a2 (ix2 (0 : Fin 2) k) := by
  rw [val_main_v50_apply, val_main_v49_apply]; exact congrArg a2 (row0_idx k)

/-! ## The wrapped variable words -/

theorem v9_at (k : Fin 3000000) : val_main_v9 (F := Ideal) a1 (ix1 k) = Spec.wrap (a1 (ix2 (1 : Fin 2) k)) := by
  rw [val_main_v9_apply, val_main_v6_apply, val_main_v8_apply, val_main_v5_apply, val_main_v7_apply,
    val_main_c_apply, val_main_c_0_apply, v4_at]
  rfl

theorem v18_at (k : Fin 3000000) : val_main_v18 (F := Ideal) a2 (ix1 k) = Spec.wrap (a2 (ix2 (1 : Fin 2) k)) := by
  rw [val_main_v18_apply, val_main_v15_apply, val_main_v17_apply, val_main_v14_apply, val_main_v16_apply,
    val_main_c_1_apply, val_main_c_2_apply, v13_at]
  rfl

theorem v31_at (k : Fin 3000000) : val_main_v31 (F := Ideal) a1 (ix1 k) = Spec.wrap (a1 (ix2 (1 : Fin 2) k)) := by
  rw [val_main_v31_apply, val_main_v28_apply, val_main_v30_apply, val_main_v27_apply, val_main_v29_apply,
    val_main_c_4_apply, val_main_c_5_apply, v26_at]
  rfl

theorem v43_at (k : Fin 3000000) : val_main_v43 (F := Ideal) a2 (ix1 k) = Spec.wrap (a2 (ix2 (1 : Fin 2) k)) := by
  rw [val_main_v43_apply, val_main_v40_apply, val_main_v42_apply, val_main_v39_apply, val_main_v41_apply,
    val_main_c_7_apply, val_main_c_8_apply, v38_at]
  rfl

/-- A column of words at `(e, u)` is the vector of words at `e`. -/
theorem col_idx (y : S3000000.Idx) (u : Fin 1) : idx_main_v10 (ix2 (y 0) u) = y := by
  funext a
  match a with
  | ⟨0, _⟩ => rfl

theorem v10_at (y : S3000000.Idx) (u : Fin 1) : val_main_v10 (F := Ideal) a1 (ix2 (y 0) u) = val_main_v9 (F := Ideal) a1 y := by
  rw [val_main_v10_apply]; exact congrArg _ (col_idx y u)

theorem v19_at (y : S3000000.Idx) (u : Fin 1) : val_main_v19 (F := Ideal) a2 (ix2 (y 0) u) = val_main_v18 (F := Ideal) a2 y := by
  rw [val_main_v19_apply]; exact congrArg _ (col_idx y u)

theorem v32_at (y : S3000000.Idx) (u : Fin 1) : val_main_v32 (F := Ideal) a1 (ix2 (y 0) u) = val_main_v31 (F := Ideal) a1 y := by
  rw [val_main_v32_apply]; exact congrArg _ (col_idx y u)

theorem v44_at (y : S3000000.Idx) (u : Fin 1) : val_main_v44 (F := Ideal) a2 (ix2 (y 0) u) = val_main_v43 (F := Ideal) a2 y := by
  rw [val_main_v44_apply]; exact congrArg _ (col_idx y u)

/-! ## The gathers -/

/-- The gather of a vector over the variables at edge `k`: the vector at the edge's wrapped word, clamped. -/
theorem gather_at (x : S1000000.Idx → EReal) (idx : IVec S3000000x1 32) (W' : BitVec 32) (k : Fin 3000000)
    (hW : idx (ix2 ((ix1 k : S3000000.Idx) 0) (⟨0, Nat.one_pos⟩ : Fin 1)) = W') :
    Host.gather gather_S1000000_S3000000x1_S3000000_n_0_n_n_0_1_1 x idx (ix1 k) = x (ix1 (Spec.varOf W')) := by
  refine (vecTake_apply (N := 1000000) (E := 3000000) (by decide)
    gather_S1000000_S3000000x1_S3000000_n_0_n_n_0_1_1_wf x idx (ix1 k)).trans ?_
  subst hW
  rfl

/-! ## The variables' vectors -/

theorem v0_at (v : Fin 1000000) : val_main_v0 (F := Ideal) a0 (ix1 v) = a0 (ix2 v (0 : Fin 1)) := by
  rw [val_main_v0_apply]
  congr 1
  funext a; refine Fin.ext ?_
  match a with
  | ⟨0, _⟩ => exact Nat.div_one _
  | ⟨1, _⟩ => rfl

theorem v2_at (v : Fin 1000000) : val_main_v2 (F := Ideal) a0 (ix1 v) = Spec.one - a0 (ix2 v (0 : Fin 1)) := by
  rw [val_main_v2_apply, val_main_v1_apply, val_main_cst_apply, v0_at]
  rfl

theorem v24_at (v : Fin 1000000) :
    val_main_v24 (F := Ideal) a0 (ix1 v) = Ideal.exp (Spec.five * a0 (ix2 v (0 : Fin 1))) := by
  rw [val_main_v24_apply, val_main_v23_apply, val_main_v22_apply, val_main_cst_3_apply, v0_at]
  rfl

theorem v36_at (v : Fin 1000000) :
    val_main_v36 (F := Ideal) a0 (ix1 v) = Ideal.exp (Spec.five * (Spec.one - a0 (ix2 v (0 : Fin 1)))) := by
  rw [val_main_v36_apply, val_main_v35_apply, val_main_v34_apply, val_main_cst_6_apply, v2_at]
  rfl

/-! ## The four gathers at an edge -/

theorem v11_at (k : Fin 3000000) :
    val_main_v11 (F := Ideal) a0 a1 (ix1 k) = a0 (ix2 (Spec.varOf (Spec.wrap (a1 (ix2 (1 : Fin 2) k)))) (0 : Fin 1)) := by
  unfold val_main_v11
  rw [gather_at _ _ _ k ((v10_at a1 (ix1 k) _).trans (v9_at a1 k)), v0_at]

theorem v20_at (k : Fin 3000000) :
    val_main_v20 (F := Ideal) a0 a2 (ix1 k)
      = Spec.one - a0 (ix2 (Spec.varOf (Spec.wrap (a2 (ix2 (1 : Fin 2) k)))) (0 : Fin 1)) := by
  unfold val_main_v20
  rw [gather_at _ _ _ k ((v19_at a2 (ix1 k) _).trans (v18_at a2 k)), v2_at]

theorem v33_at (k : Fin 3000000) :
    val_main_v33 (F := Ideal) a0 a1 (ix1 k)
      = Ideal.exp (Spec.five * a0 (ix2 (Spec.varOf (Spec.wrap (a1 (ix2 (1 : Fin 2) k)))) (0 : Fin 1))) := by
  unfold val_main_v33
  rw [gather_at _ _ _ k ((v32_at a1 (ix1 k) _).trans (v31_at a1 k)), v24_at]

theorem v45_at (k : Fin 3000000) :
    val_main_v45 (F := Ideal) a0 a2 (ix1 k)
      = Ideal.exp (Spec.five * (Spec.one - a0 (ix2 (Spec.varOf (Spec.wrap (a2 (ix2 (1 : Fin 2) k)))) (0 : Fin 1)))) := by
  unfold val_main_v45
  rw [gather_at _ _ _ k ((v44_at a2 (ix1 k) _).trans (v43_at a2 k)), v36_at]

/-! ## The concatenations: positive edges first, negative edges after -/

theorem v21_left (k : Fin 3000000) (h : k.val < 6000000) :
    val_main_v21 (F := Ideal) a0 a1 a2 (ix1 ⟨k.val, h⟩) = val_main_v11 (F := Ideal) a0 a1 (ix1 k) := by
  unfold val_main_v21; exact concat1_left _ _ _ k h

theorem v21_right (k : Fin 3000000) (h : 3000000 + k.val < 6000000) :
    val_main_v21 (F := Ideal) a0 a1 a2 (ix1 ⟨3000000 + k.val, h⟩) = val_main_v20 (F := Ideal) a0 a2 (ix1 k) := by
  unfold val_main_v21; exact concat1_right _ _ _ k h

theorem v46_left (k : Fin 3000000) (h : k.val < 6000000) :
    val_main_v46 (F := Ideal) a0 a1 a2 (ix1 ⟨k.val, h⟩) = val_main_v33 (F := Ideal) a0 a1 (ix1 k) := by
  unfold val_main_v46; exact concat1_left _ _ _ k h

theorem v46_right (k : Fin 3000000) (h : 3000000 + k.val < 6000000) :
    val_main_v46 (F := Ideal) a0 a1 a2 (ix1 ⟨3000000 + k.val, h⟩) = val_main_v45 (F := Ideal) a0 a2 (ix1 k) := by
  unfold val_main_v46; exact concat1_right _ _ _ k h

theorem v51_left (k : Fin 3000000) (h : k.val < 6000000) :
    val_main_v51 (F := Ideal) a1 a2 (ix1 ⟨k.val, h⟩) = a1 (ix2 (0 : Fin 2) k) := by
  unfold val_main_v51; exact (concat1_left _ _ _ k h).trans (v48_at a1 k)

theorem v51_right (k : Fin 3000000) (h : 3000000 + k.val < 6000000) :
    val_main_v51 (F := Ideal) a1 a2 (ix1 ⟨3000000 + k.val, h⟩) = a2 (ix2 (0 : Fin 2) k) := by
  unfold val_main_v51; exact (concat1_right _ _ _ k h).trans (v50_at a2 k)

/-! ## The updates: an edge's weight and weighted value -/

theorem v46_pos (k : Fin 3000000) (h : k.val < 6000000) :
    val_main_v46 (F := Ideal) a0 a1 a2 (ix1 ⟨k.val, h⟩)
      = Spec.wPos (fun j => a0 (ix2 j (0 : Fin 1))) (Spec.varOf (Spec.wrap (a1 (ix2 (1 : Fin 2) k)))) := by
  rw [v46_left, v33_at]; rfl

theorem v46_neg (k : Fin 3000000) (h : 3000000 + k.val < 6000000) :
    val_main_v46 (F := Ideal) a0 a1 a2 (ix1 ⟨3000000 + k.val, h⟩)
      = Spec.wNeg (fun j => a0 (ix2 j (0 : Fin 1))) (Spec.varOf (Spec.wrap (a2 (ix2 (1 : Fin 2) k)))) := by
  rw [v46_right, v45_at]; rfl

theorem v52_pos (k : Fin 3000000) (h : k.val < 6000000) :
    val_main_v52 (F := Ideal) a0 a1 a2 (ix1 ⟨k.val, h⟩)
      = Spec.vPos (fun j => a0 (ix2 j (0 : Fin 1))) (Spec.varOf (Spec.wrap (a1 (ix2 (1 : Fin 2) k)))) := by
  rw [val_main_v52_apply, v21_left, v46_left, v11_at, v33_at]; rfl

theorem v52_neg (k : Fin 3000000) (h : 3000000 + k.val < 6000000) :
    val_main_v52 (F := Ideal) a0 a1 a2 (ix1 ⟨3000000 + k.val, h⟩)
      = Spec.vNeg (fun j => a0 (ix2 j (0 : Fin 1))) (Spec.varOf (Spec.wrap (a2 (ix2 (1 : Fin 2) k)))) := by
  rw [val_main_v52_apply, v21_right, v46_right, v20_at, v45_at]; rfl

/-! ## Which clause an update lands on -/

/-- A clause word names clause `c` exactly when, read signed, it is `c`. -/
theorem clauseOf_eq_some (w : BitVec 32) (c : Fin 1000000) : Spec.clauseOf w = some c ↔ w.toInt = (c.val : Int) := by
  unfold Spec.clauseOf
  have hc := c.isLt
  constructor
  · intro h
    split at h
    · have h1 := congrArg Fin.val (Option.some.inj h)
      simp only at h1
      omega
    · exact absurd h (by simp)
  · intro h
    rw [dif_pos ⟨by omega, by omega⟩]
    congr 1
    refine Fin.ext ?_
    show w.toInt.toNat = c.val
    omega

theorem colU_idx (y : S6000000.Idx) (u : Fin 1) : idx_main_v54 (ix2 (y 0) u) = y := by
  funext a
  match a with
  | ⟨0, _⟩ => rfl

theorem v54_at (y : S6000000.Idx) (u : Fin 1) :
    val_main_v54 (F := Ideal) a1 a2 (ix2 (y 0) u) = val_main_v51 (F := Ideal) a1 a2 y := by
  rw [val_main_v54_apply]; exact congrArg _ (colU_idx y u)

theorem v57_at (y : S6000000.Idx) (u : Fin 1) :
    val_main_v57 (F := Ideal) a1 a2 (ix2 (y 0) u) = val_main_v51 (F := Ideal) a1 a2 y := by
  rw [val_main_v57_apply]; exact congrArg _ (colU_idx y u)

theorem lands54_pos (k : Fin 3000000) (h : k.val < 6000000) (c : Fin 1000000) :
    scatter_S1000000_S6000000x1_S6000000_n_0_0_1.resultIdx? (ix1 ⟨k.val, h⟩ : S6000000.Idx) (val_main_v54 (F := Ideal) a1 a2)
        = some (ix1 c)
      ↔ Spec.clauseOf (a1 (ix2 (0 : Fin 2) k)) = some c := by
  refine (vecScatter_lands scatter_S1000000_S6000000x1_S6000000_n_0_0_1_wf _ _ c).trans ?_
  rw [v54_at, v51_left]
  exact (clauseOf_eq_some _ c).symm

theorem lands54_neg (k : Fin 3000000) (h : 3000000 + k.val < 6000000) (c : Fin 1000000) :
    scatter_S1000000_S6000000x1_S6000000_n_0_0_1.resultIdx? (ix1 ⟨3000000 + k.val, h⟩ : S6000000.Idx) (val_main_v54 (F := Ideal) a1 a2)
        = some (ix1 c)
      ↔ Spec.clauseOf (a2 (ix2 (0 : Fin 2) k)) = some c := by
  refine (vecScatter_lands scatter_S1000000_S6000000x1_S6000000_n_0_0_1_wf _ _ c).trans ?_
  rw [v54_at, v51_right]
  exact (clauseOf_eq_some _ c).symm

theorem lands57_pos (k : Fin 3000000) (h : k.val < 6000000) (c : Fin 1000000) :
    scatter_S1000000_S6000000x1_S6000000_n_0_0_1.resultIdx? (ix1 ⟨k.val, h⟩ : S6000000.Idx) (val_main_v57 (F := Ideal) a1 a2)
        = some (ix1 c)
      ↔ Spec.clauseOf (a1 (ix2 (0 : Fin 2) k)) = some c := by
  refine (vecScatter_lands scatter_S1000000_S6000000x1_S6000000_n_0_0_1_wf _ _ c).trans ?_
  rw [v57_at, v51_left]
  exact (clauseOf_eq_some _ c).symm

theorem lands57_neg (k : Fin 3000000) (h : 3000000 + k.val < 6000000) (c : Fin 1000000) :
    scatter_S1000000_S6000000x1_S6000000_n_0_0_1.resultIdx? (ix1 ⟨3000000 + k.val, h⟩ : S6000000.Idx) (val_main_v57 (F := Ideal) a1 a2)
        = some (ix1 c)
      ↔ Spec.clauseOf (a2 (ix2 (0 : Fin 2) k)) = some c := by
  refine (vecScatter_lands scatter_S1000000_S6000000x1_S6000000_n_0_0_1_wf _ _ c).trans ?_
  rw [v57_at, v51_right]
  exact (clauseOf_eq_some _ c).symm

end Cert.ReferenceIdeal.RefValue

end
-- ==== Proof.RefValue.lean ====
/-
  The reference's result is the loss of the specification: per clause the two accumulating scatters are the sums
  over the positive and over the negative edges that name the clause, the pointwise tail is the logistic's squared
  error, and the final reduction and division are the mean.
-/
import proofs.«138174_j12378095747451_2_alg».proof.Defs
import proofs.«138174_j12378095747451_2_alg».proof.Proof.Gen.ReferenceIdeal.Run
import proofs.«138174_j12378095747451_2_alg».proof.Proof.Gen.ReferenceIdeal.Read
import proofs.«138174_j12378095747451_2_alg».proof.Proof.Spec
import proofs.«138174_j12378095747451_2_alg».proof.Proof.RefIdx

noncomputable section

open scoped BigOperators

namespace Cert.ReferenceIdeal.RefValue

open Cert.ReferenceIdeal Cert.ReferenceIdeal.Gen Cert.ReferenceIdeal.Read Idealize.ShloMosaic
  Idealize.ShloMosaic.ValueIdx Cert.LibVecScatter

/-- The accumulating scatter at clause `c`: the operand's entry, plus the updates of the positive edges landing on
    `c`, plus those of the negative edges landing on `c` — the updates' indices split at the cut between the two
    concatenated halves. -/
theorem scatterAdd_split (x : S1000000.Idx → EReal) (idx : IVec S6000000x1 32) (upd : S6000000.Idx → EReal)
    (c : Fin 1000000) (P₁ P₂ : Fin 3000000 → Prop) [DecidablePred P₁] [DecidablePred P₂] (f₁ f₂ : Fin 3000000 → EReal)
    (h₁ : ∀ (k : Fin 3000000) (h : k.val < 6000000),
      scatter_S1000000_S6000000x1_S6000000_n_0_0_1.resultIdx? (ix1 ⟨k.val, h⟩ : S6000000.Idx) idx = some (ix1 c) ↔ P₁ k)
    (h₂ : ∀ (k : Fin 3000000) (h : 3000000 + k.val < 6000000),
      scatter_S1000000_S6000000x1_S6000000_n_0_0_1.resultIdx? (ix1 ⟨3000000 + k.val, h⟩ : S6000000.Idx) idx = some (ix1 c) ↔ P₂ k)
    (u₁ : ∀ (k : Fin 3000000) (h : k.val < 6000000), upd (ix1 ⟨k.val, h⟩) = f₁ k)
    (u₂ : ∀ (k : Fin 3000000) (h : 3000000 + k.val < 6000000), upd (ix1 ⟨3000000 + k.val, h⟩) = f₂ k) :
    Host.scatterAdd (F := Ideal) (φ := .f32) scatter_S1000000_S6000000x1_S6000000_n_0_0_1 x idx upd (ix1 c)
      = x (ix1 c) + ((∑ k ∈ Finset.univ.filter P₁, f₁ k) + ∑ k ∈ Finset.univ.filter P₂, f₂ k) := by
  show Ideal.hostScatterAdd scatter_S1000000_S6000000x1_S6000000_n_0_0_1 x idx upd (ix1 c) = _
  unfold Ideal.hostScatterAdd
  refine congrArg (fun s => x (ix1 c) + s) ?_
  rw [Finset.sum_filter, sum_idx1_split (by norm_num : 3000000 + 3000000 = 6000000), Finset.sum_filter, Finset.sum_filter]
  refine congrArg₂ (fun s t : EReal => s + t) ?_ ?_
  · exact Finset.sum_congr rfl fun k _ => if_congr (h₁ k _) (u₁ k _) rfl
  · exact Finset.sum_congr rfl fun k _ => if_congr (h₂ k _) (u₂ k _) rfl

variable (a0 : S1000000x1.Idx → EReal) (a1 a2 : IVec S2x3000000 32) (a3 : S1000000.Idx → EReal)

/-- The first scatter at clause `c` is the clause's numerator. -/
theorem v55_at (c : Fin 1000000) :
    val_main_v55 (F := Ideal) a0 a1 a2 (ix1 c)
      = Spec.num (fun j => a0 (ix2 j (0 : Fin 1))) (fun k => a1 (ix2 (1 : Fin 2) k)) (fun k => a2 (ix2 (1 : Fin 2) k))
          (fun k => a1 (ix2 (0 : Fin 2) k)) (fun k => a2 (ix2 (0 : Fin 2) k)) c := by
  unfold val_main_v55
  rw [scatterAdd_split _ _ _ c _ _ _ _ (fun k h => lands54_pos a1 a2 k h c) (fun k h => lands54_neg a1 a2 k h c)
    (v52_pos a0 a1 a2) (v52_neg a0 a1 a2), val_main_v53_apply, val_main_cst_9_apply]
  rw [Ideal.ofBits_def, Ideal.ofBits_zero_f32, zero_add]
  unfold Spec.num
  rfl

/-- The second scatter at clause `c` is the clause's denominator. -/
theorem v58_at (c : Fin 1000000) :
    val_main_v58 (F := Ideal) a0 a1 a2 (ix1 c)
      = Spec.den (fun j => a0 (ix2 j (0 : Fin 1))) (fun k => a1 (ix2 (1 : Fin 2) k)) (fun k => a2 (ix2 (1 : Fin 2) k))
          (fun k => a1 (ix2 (0 : Fin 2) k)) (fun k => a2 (ix2 (0 : Fin 2) k)) c := by
  unfold val_main_v58
  rw [scatterAdd_split _ _ _ c _ _ _ _ (fun k h => lands57_pos a1 a2 k h c) (fun k h => lands57_neg a1 a2 k h c)
    (v46_pos a0 a1 a2) (v46_neg a0 a1 a2), val_main_v56_apply, val_main_cst_10_apply]
  rw [Ideal.ofBits_def, Ideal.ofBits_zero_f32, zero_add]
  unfold Spec.den
  rfl

/-- The pointwise tail at clause `c` is the clause's squared error. -/
theorem v71_at (c : Fin 1000000) :
    val_main_v71 (F := Ideal) a0 a1 a2 a3 (ix1 c)
      = Spec.sqErr (fun j => a0 (ix2 j (0 : Fin 1))) (fun j => a3 (ix1 j)) (fun k => a1 (ix2 (1 : Fin 2) k))
          (fun k => a2 (ix2 (1 : Fin 2) k)) (fun k => a1 (ix2 (0 : Fin 2) k)) (fun k => a2 (ix2 (0 : Fin 2) k)) c := by
  rw [val_main_v71_apply, val_main_v70_apply, val_main_v69_apply, val_main_v68_apply, val_main_cst_14_apply,
    val_main_v67_apply, val_main_v66_apply, val_main_cst_13_apply, val_main_v65_apply, val_main_v64_apply,
    val_main_v63_apply, val_main_v62_apply, val_main_cst_12_apply, val_main_v61_apply, val_main_v60_apply,
    val_main_cst_11_apply, val_main_v59_apply, v55_at, v58_at]
  simp only [Ideal.mulf_def, Ideal.subf_def, Ideal.hostDivf_def, Ideal.addf_def, Ideal.hostUnary_exp_def,
    Ideal.hostNegf_def, Ideal.negf_def, Ideal.ofBits_def]
  unfold Spec.sqErr Spec.sigm Spec.one Spec.ten Spec.half
  rfl

/-- The reference's result, as a function of its four arguments, is the specification's loss (the variable words are
    row 1 of each adjacency array, the clause words row 0). -/
theorem ref_loss :
    val_main_v73 (F := Ideal) a0 a1 a2 a3
      = fun _ => Spec.loss (fun j => a0 (ix2 j (0 : Fin 1))) (fun j => a3 (ix1 j)) (fun k => a1 (ix2 (1 : Fin 2) k))
          (fun k => a2 (ix2 (1 : Fin 2) k)) (fun k => a1 (ix2 (0 : Fin 2) k)) (fun k => a2 (ix2 (0 : Fin 2) k)) := by
  funext i
  rw [val_main_v73_apply, val_main_v72_apply, val_main_cst_15_apply, val_main_cst_16_apply, sum_idx1,
    Finset.sum_congr rfl (fun c _ => v71_at a0 a1 a2 a3 c)]
  rw [Ideal.hostDivf_def, Ideal.ofBits_def, Ideal.ofBits_def, Ideal.ofBits_zero_f32, zero_add]
  unfold Spec.loss Spec.million
  rfl

end Cert.ReferenceIdeal.RefValue

end
-- ==== Proof.RefClaims.lean ====
/-
  The reference's side of the claims: its run ends with the specification's loss of its argument arrays in the result
  buffer and the arguments unchanged; hence its frame, and the algebraic claim from the same statement about the
  kernel's run.
-/
import proofs.«138174_j12378095747451_2_alg».proof.Defs
import proofs.«138174_j12378095747451_2_alg».proof.Proof.Gen.KernelIdeal
import proofs.«138174_j12378095747451_2_alg».proof.Proof.Gen.ReferenceIdeal
import proofs.«138174_j12378095747451_2_alg».proof.Proof.Gen.Pre_finite_inputs
import proofs.«138174_j12378095747451_2_alg».proof.Proof.SpecArgs
import proofs.«138174_j12378095747451_2_alg».proof.Proof.RefValue

noncomputable section

namespace Cert.ReferenceIdeal.RefValue

open Cert.ReferenceIdeal Cert.ReferenceIdeal.Gen Cert.ReferenceIdeal.Read Idealize.ShloMosaic Idealize.ShloMosaic.TcCoe
  Idealize.SL.Sem Cert.SpecArgs

/-- Every weakly fair execution of the reference terminates with the loss of its argument arrays in the result buffer
    and the four arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v73)
          = lossOf (m' ((c.tc : Thread nD τ).loc main_arg0)) (m' ((c.tc : Thread nD τ).loc main_arg1))
              (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  (θ_run defs _ _).mono
    (fun _ h c => ⟨(h c).1.trans ((val_main_v73_eq m' c).trans (ref_loss _ _ _ _)), (h c).2⟩)
    (Cert.ReferenceIdeal.Value.run (F := Ideal) m' ρ')

end Cert.ReferenceIdeal.RefValue

namespace Cert.Proof.RefClaims

open Idealize.ShloMosaic Idealize.ShloMosaic.TcCoe Idealize.SL.Sem Cert.SpecArgs

/-- The reference runs and its arguments end unchanged. -/
theorem frame_ri : Cert.frame_ReferenceIdeal := fun m ρ _ =>
  (θ_run Cert.ReferenceIdeal.defs _ _).mono (fun _ h c => (h c).2) (Cert.ReferenceIdeal.Value.run (F := Ideal) m ρ)

/-- The algebraic claim, from the kernel's run ending with the same loss of its argument arrays. -/
theorem algebraic_of_kernel
    (hk : ∀ (m : (ℓ : Loc Cert.KernelIdeal.nD Cert.KernelIdeal.τ Cert.KernelIdeal.sig) → Buf (Elt Ideal) ℓ)
        (g : Dev Cert.KernelIdeal.nD → PrngReg), Cert.Pre_KernelIdeal m →
      θ_run (Cert.KernelIdeal.defs (F := Ideal)) (onTc (τ := Cert.KernelIdeal.τ) (Cert.KernelIdeal.main (F := Ideal)))
        ⟨m, fun _ => 0, g⟩ (fun r => ∀ c : Dev Cert.KernelIdeal.nD,
          r.2.mem ((c.tc : Thread Cert.KernelIdeal.nD Cert.KernelIdeal.τ).loc Cert.KernelIdeal.main_v58)
              = lossOf (m ((c.tc : Thread Cert.KernelIdeal.nD Cert.KernelIdeal.τ).loc Cert.KernelIdeal.main_arg0))
                  (m ((c.tc : Thread Cert.KernelIdeal.nD Cert.KernelIdeal.τ).loc Cert.KernelIdeal.main_arg1))
                  (m ((c.tc : Thread Cert.KernelIdeal.nD Cert.KernelIdeal.τ).loc Cert.KernelIdeal.main_arg2))
                  (m ((c.tc : Thread Cert.KernelIdeal.nD Cert.KernelIdeal.τ).loc Cert.KernelIdeal.main_arg3))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))) :
    Cert.algebraic_KernelIdeal_ReferenceIdeal := by
  intro m g m' g' hpre hagree
  refine ⟨fun c => lossOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), hk m g hpre, ?_⟩
  refine (θ_run Cert.ReferenceIdeal.defs _ _).mono (fun _ h c => ⟨(h c).1.trans ?_, (h c).2⟩)
    (Cert.ReferenceIdeal.RefValue.ref_run m' g')
  rw [(hagree c).1, (hagree c).2.1, (hagree c).2.2.1, (hagree c).2.2.2]

end Cert.Proof.RefClaims

end
-- ==== Proof.lean ====
/-
  The certificate's claims. Both programs compute the mean over the clauses of the squared distance between a clause's
  logistic score and its target (the closed formula of Proof/Spec.lean): the reference by two scatter-adds over the
  concatenated positive and negative edges; the kernel by a first region that tabulates, per variable, the weight
  `e^(5x)` and the weighted value `x e^(5x)` of each polarity, scatter-adds of two-wide rows per polarity, and a second
  region that accumulates the masked squared errors block by block and divides by the number of clauses. At the ideal
  values the two agree by commutativity and associativity of the sums alone; no finiteness of the inputs is used.
  The frames of the kernel (at the word level and at the ideal values) are one text generic in the instance: @main as
  thirteen segments, the two regions' proof data, the launch.
-/
import proofs.«138174_j12378095747451_2_alg».proof.Defs
import proofs.«138174_j12378095747451_2_alg».proof.Proof.Gen.Kernel
import proofs.«138174_j12378095747451_2_alg».proof.Proof.Gen.KernelIdeal
import proofs.«138174_j12378095747451_2_alg».proof.Proof.Gen.ReferenceIdeal
import proofs.«138174_j12378095747451_2_alg».proof.Proof.Gen.Pre_finite_inputs
import proofs.«138174_j12378095747451_2_alg».proof.Proof.K.Run
import proofs.«138174_j12378095747451_2_alg».proof.Proof.KI.Run
import proofs.«138174_j12378095747451_2_alg».proof.Proof.KI.KernelValue
import proofs.«138174_j12378095747451_2_alg».proof.Proof.RefClaims
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame_all m ρ,
  fun m ρ _ => Cert.KernelIdeal.Hand.frame_all m ρ,
  Cert.Proof.RefClaims.frame_ri,
  trivial,
  Cert.Proof.RefClaims.algebraic_of_kernel fun m g _ => Cert.KernelIdeal.Hand.kernel_run m g⟩

end Cert.Proof

end
